-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v36_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v36_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16x128 : Shape := ⟨3, ![16384, 16, 128]⟩
abbrev S16384x16x3 : Shape := ⟨3, ![16384, 16, 3]⟩
abbrev S16384x16 : Shape := ⟨2, ![16384, 16]⟩
abbrev S259x259 : Shape := ⟨2, ![259, 259]⟩
abbrev S259 : Shape := ⟨1, ![259]⟩
abbrev S128x259 : Shape := ⟨2, ![128, 259]⟩
abbrev S128 : Shape := ⟨1, ![128]⟩
abbrev S256x256 : Shape := ⟨2, ![256, 256]⟩
abbrev S256 : Shape := ⟨1, ![256]⟩
abbrev S128x256 : Shape := ⟨2, ![128, 256]⟩
abbrev S_ : Shape := ⟨0, ![]⟩

class Facts : Prop where
  bcast_S_S16384x16x128 : S_.BroadcastsInDim S16384x16x128 (![] : Fin 0 → Fin S16384x16x128.rank)
  reducesTo_S16384x16x128_S_d0_1_2 : S16384x16x128.ReducesTo [0, 1, 2] S_
  h_S_ : 0 < S_.numel
  bcast_S_S16384x16x3 : S_.BroadcastsInDim S16384x16x3 (![] : Fin 0 → Fin S16384x16x3.rank)
  reducesTo_S16384x16x3_S_d0_1_2 : S16384x16x3.ReducesTo [0, 1, 2] S_
  bcast_S_S16384x16 : S_.BroadcastsInDim S16384x16 (![] : Fin 0 → Fin S16384x16.rank)
  reducesTo_S16384x16_S_d0_1 : S16384x16.ReducesTo [0, 1] S_
  bcast_S_S259x259 : S_.BroadcastsInDim S259x259 (![] : Fin 0 → Fin S259x259.rank)
  reducesTo_S259x259_S_d0_1 : S259x259.ReducesTo [0, 1] S_
  bcast_S_S259 : S_.BroadcastsInDim S259 (![] : Fin 0 → Fin S259.rank)
  reducesTo_S259_S_d0 : S259.ReducesTo [0] S_
  bcast_S_S128x259 : S_.BroadcastsInDim S128x259 (![] : Fin 0 → Fin S128x259.rank)
  reducesTo_S128x259_S_d0_1 : S128x259.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_

variable [Facts]

def fn_part7 {F : FTy → Type} [FloatOps F] (main_arg25 : FVec F S128 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128 .f32 := Host.absf main_arg25
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  main_v128

def fn_part6 {F : FTy → Type} [FloatOps F] (main_arg21 : FVec F S128 .f32) (main_arg22 : FVec F S128 .f32) (main_arg23 : FVec F S128x256 .f32) (main_arg24 : FVec F S128 .f32) (main_arg25 : FVec F S128 .f32) (main_v98 : IVec S_ 1) (main_v101 : IVec S128x256 1) (main_c_39 : IVec S_ 1) : IVec S_ 1 :=
  let main_v102 : IVec S_ 1 := (fun x v => Host.reduce IntOp.andi x v reducesTo_S128x256_S_d0_1 h_S_) main_v101 main_c_39
  let main_v103 : IVec S_ 1 := andi main_v98 main_v102
  let main_v104 : FVec F S128 .f32 := Host.absf main_arg21
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg22
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x256 .f32 := Host.absf main_arg23
  let main_cst_44 : FVec F S_ .f32 := constant S_ .f32 0x7F800000#32
  let main_v115 : FVec F S128x256 .f32 := broadcastInDim S128x256 ![] bcast_S_S128x256 main_cst_44
  let main_v116 : IVec S128x256 1 := cmpf .olt main_v114 main_v115
  let main_c_45 : IVec S_ 1 := constantI S_ 1 1#1
  let main_v117 : IVec S_ 1 := (fun x v => Host.reduce IntOp.andi x v reducesTo_S128x256_S_d0_1 h_S_) main_v116 main_c_45
  let main_v118 : IVec S_ 1 := andi main_v113 main_v117
  let main_v119 : FVec F S128 .f32 := Host.absf main_arg24
  fn_part7 (F := F) main_arg25 main_v118 main_v119

def fn_part5 {F : FTy → Type} [FloatOps F] (main_arg18 : FVec F S128 .f32) (main_arg19 : FVec F S128 .f32) (main_arg20 : FVec F S128x256 .f32) (main_arg21 : FVec F S128 .f32) (main_arg22 : FVec F S128 .f32) (main_arg23 : FVec F S128x256 .f32) (main_arg24 : FVec F S128 .f32) (main_arg25 : FVec F S128 .f32) (main_v83 : IVec S_ 1) (main_v84 : FVec F S128x256 .f32) (main_cst_32 : FVec F S_ .f32) : IVec S_ 1 :=
  let main_v85 : FVec F S128x256 .f32 := broadcastInDim S128x256 ![] bcast_S_S128x256 main_cst_32
  let main_v86 : IVec S128x256 1 := cmpf .olt main_v84 main_v85
  let main_c_33 : IVec S_ 1 := constantI S_ 1 1#1
  let main_v87 : IVec S_ 1 := (fun x v => Host.reduce IntOp.andi x v reducesTo_S128x256_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x256 .f32 := Host.absf main_arg20
  let main_cst_38 : FVec F S_ .f32 := constant S_ .f32 0x7F800000#32
  let main_v100 : FVec F S128x256 .f32 := broadcastInDim S128x256 ![] bcast_S_S128x256 main_cst_38
  let main_v101 : IVec S128x256 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S128x256 .f32) (main_arg15 : FVec F S128 .f32) (main_arg16 : FVec F S128 .f32) (main_arg17 : FVec F S128x256 .f32) (main_arg18 : FVec F S128 .f32) (main_arg19 : FVec F S128 .f32) (main_arg20 : FVec F S128x256 .f32) (main_arg21 : FVec F S128 .f32) (main_arg22 : FVec F S128 .f32) (main_arg23 : FVec F S128x256 .f32) (main_arg24 : FVec F S128 .f32) (main_arg25 : FVec F S128 .f32) (main_v63 : IVec S_ 1) (main_v67 : IVec S_ 1) : IVec S_ 1 :=
  let main_v68 : IVec S_ 1 := andi main_v63 main_v67
  let main_v69 : FVec F S128x256 .f32 := Host.absf main_arg14
  let main_cst_26 : FVec F S_ .f32 := constant S_ .f32 0x7F800000#32
  let main_v70 : FVec F S128x256 .f32 := broadcastInDim S128x256 ![] bcast_S_S128x256 main_cst_26
  let main_v71 : IVec S128x256 1 := cmpf .olt main_v69 main_v70
  let main_c_27 : IVec S_ 1 := constantI S_ 1 1#1
  let main_v72 : IVec S_ 1 := (fun x v => Host.reduce IntOp.andi x v reducesTo_S128x256_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x256 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S128 .f32) (main_arg12 : FVec F S256x256 .f32) (main_arg13 : FVec F S256 .f32) (main_arg14 : FVec F S128x256 .f32) (main_arg15 : FVec F S128 .f32) (main_arg16 : FVec F S128 .f32) (main_arg17 : FVec F S128x256 .f32) (main_arg18 : FVec F S128 .f32) (main_arg19 : FVec F S128 .f32) (main_arg20 : FVec F S128x256 .f32) (main_arg21 : FVec F S128 .f32) (main_arg22 : FVec F S128 .f32) (main_arg23 : FVec F S128x256 .f32) (main_arg24 : FVec F S128 .f32) (main_arg25 : FVec F S128 .f32) (main_v48 : IVec S_ 1) (main_v49 : FVec F S128x259 .f32) (main_v50 : FVec F S128x259 .f32) : IVec S_ 1 :=
  let main_v51 : IVec S128x259 1 := cmpf .olt main_v49 main_v50
  let main_c_19 : IVec S_ 1 := constantI S_ 1 1#1
  let main_v52 : IVec S_ 1 := (fun x v => Host.reduce IntOp.andi x v reducesTo_S128x259_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S16384x16 .f32) (main_arg8 : FVec F S259x259 .f32) (main_arg9 : FVec F S259 .f32) (main_arg10 : FVec F S128x259 .f32) (main_arg11 : FVec F S128 .f32) (main_arg12 : FVec F S256x256 .f32) (main_arg13 : FVec F S256 .f32) (main_arg14 : FVec F S128x256 .f32) (main_arg15 : FVec F S128 .f32) (main_arg16 : FVec F S128 .f32) (main_arg17 : FVec F S128x256 .f32) (main_arg18 : FVec F S128 .f32) (main_arg19 : FVec F S128 .f32) (main_arg20 : FVec F S128x256 .f32) (main_arg21 : FVec F S128 .f32) (main_arg22 : FVec F S128 .f32) (main_arg23 : FVec F S128x256 .f32) (main_arg24 : FVec F S128 .f32) (main_arg25 : FVec F S128 .f32) (main_v33 : IVec S_ 1) : IVec S_ 1 :=
  let main_v34 : FVec F S16384x16 .f32 := Host.absf main_arg7
  let main_cst_12 : FVec F S_ .f32 := constant S_ .f32 0x7F800000#32
  let main_v35 : FVec F S16384x16 .f32 := broadcastInDim S16384x16 ![] bcast_S_S16384x16 main_cst_12
  let main_v36 : IVec S16384x16 1 := cmpf .olt main_v34 main_v35
  let main_c_13 : IVec S_ 1 := constantI S_ 1 1#1
  let main_v37 : IVec S_ 1 := (fun x v => Host.reduce IntOp.andi x v reducesTo_S16384x16_S_d0_1 h_S_) main_v36 main_c_13
  let main_v38 : IVec S_ 1 := andi main_v33 main_v37
  let main_v39 : FVec F S259x259 .f32 := Host.absf main_arg8
  let main_cst_14 : FVec F S_ .f32 := constant S_ .f32 0x7F800000#32
  let main_v40 : FVec F S259x259 .f32 := broadcastInDim S259x259 ![] bcast_S_S259x259 main_cst_14
  let main_v41 : IVec S259x259 1 := cmpf .olt main_v39 main_v40
  let main_c_15 : IVec S_ 1 := constantI S_ 1 1#1
  let main_v42 : IVec S_ 1 := (fun x v => Host.reduce IntOp.andi x v reducesTo_S259x259_S_d0_1 h_S_) main_v41 main_c_15
  let main_v43 : IVec S_ 1 := andi main_v38 main_v42
  let main_v44 : FVec F S259 .f32 := Host.absf main_arg9
  let main_cst_16 : FVec F S_ .f32 := constant S_ .f32 0x7F800000#32
  let main_v45 : FVec F S259 .f32 := broadcastInDim S259 ![] bcast_S_S259 main_cst_16
  let main_v46 : IVec S259 1 := cmpf .olt main_v44 main_v45
  let main_c_17 : IVec S_ 1 := constantI S_ 1 1#1
  let main_v47 : IVec S_ 1 := (fun x v => Host.reduce IntOp.andi x v reducesTo_S259_S_d0 h_S_) main_v46 main_c_17
  let main_v48 : IVec S_ 1 := andi main_v43 main_v47
  let main_v49 : FVec F S128x259 .f32 := Host.absf main_arg10
  let main_cst_18 : FVec F S_ .f32 := constant S_ .f32 0x7F800000#32
  let main_v50 : FVec F S128x259 .f32 := broadcastInDim S128x259 ![] bcast_S_S128x259 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S16384x16x128 .f32) (main_arg5 : FVec F S16384x16x3 .f32) (main_arg6 : FVec F S16384x16 .f32) (main_arg7 : FVec F S16384x16 .f32) (main_arg8 : FVec F S259x259 .f32) (main_arg9 : FVec F S259 .f32) (main_arg10 : FVec F S128x259 .f32) (main_arg11 : FVec F S128 .f32) (main_arg12 : FVec F S256x256 .f32) (main_arg13 : FVec F S256 .f32) (main_arg14 : FVec F S128x256 .f32) (main_arg15 : FVec F S128 .f32) (main_arg16 : FVec F S128 .f32) (main_arg17 : FVec F S128x256 .f32) (main_arg18 : FVec F S128 .f32) (main_arg19 : FVec F S128 .f32) (main_arg20 : FVec F S128x256 .f32) (main_arg21 : FVec F S128 .f32) (main_arg22 : FVec F S128 .f32) (main_arg23 : FVec F S128x256 .f32) (main_arg24 : FVec F S128 .f32) (main_arg25 : FVec F S128 .f32) (main_v13 : IVec S_ 1) (main_v16 : IVec S16384x16x128 1) : IVec S_ 1 :=
  let main_c_5 : IVec S_ 1 := constantI S_ 1 1#1
  let main_v17 : IVec S_ 1 := (fun x v => Host.reduce IntOp.andi x v reducesTo_S16384x16x128_S_d0_1_2 h_S_) main_v16 main_c_5
  let main_v18 : IVec S_ 1 := andi main_v13 main_v17
  let main_v19 : FVec F S16384x16x128 .f32 := Host.absf main_arg4
  let main_cst_6 : FVec F S_ .f32 := constant S_ .f32 0x7F800000#32
  let main_v20 : FVec F S16384x16x128 .f32 := broadcastInDim S16384x16x128 ![] bcast_S_S16384x16x128 main_cst_6
  let main_v21 : IVec S16384x16x128 1 := cmpf .olt main_v19 main_v20
  let main_c_7 : IVec S_ 1 := constantI S_ 1 1#1
  let main_v22 : IVec S_ 1 := (fun x v => Host.reduce IntOp.andi x v reducesTo_S16384x16x128_S_d0_1_2 h_S_) main_v21 main_c_7
  let main_v23 : IVec S_ 1 := andi main_v18 main_v22
  let main_v24 : FVec F S16384x16x3 .f32 := Host.absf main_arg5
  let main_cst_8 : FVec F S_ .f32 := constant S_ .f32 0x7F800000#32
  let main_v25 : FVec F S16384x16x3 .f32 := broadcastInDim S16384x16x3 ![] bcast_S_S16384x16x3 main_cst_8
  let main_v26 : IVec S16384x16x3 1 := cmpf .olt main_v24 main_v25
  let main_c_9 : IVec S_ 1 := constantI S_ 1 1#1
  let main_v27 : IVec S_ 1 := (fun x v => Host.reduce IntOp.andi x v reducesTo_S16384x16x3_S_d0_1_2 h_S_) main_v26 main_c_9
  let main_v28 : IVec S_ 1 := andi main_v23 main_v27
  let main_v29 : FVec F S16384x16 .f32 := Host.absf main_arg6
  let main_cst_10 : FVec F S_ .f32 := constant S_ .f32 0x7F800000#32
  let main_v30 : FVec F S16384x16 .f32 := broadcastInDim S16384x16 ![] bcast_S_S16384x16 main_cst_10
  let main_v31 : IVec S16384x16 1 := cmpf .olt main_v29 main_v30
  let main_c_11 : IVec S_ 1 := constantI S_ 1 1#1
  let main_v32 : IVec S_ 1 := (fun x v => Host.reduce IntOp.andi x v reducesTo_S16384x16_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S16384x16x128 .f32) (main_arg1 : FVec F S16384x16x128 .f32) (main_arg2 : FVec F S16384x16x128 .f32) (main_arg3 : FVec F S16384x16x128 .f32) (main_arg4 : FVec F S16384x16x128 .f32) (main_arg5 : FVec F S16384x16x3 .f32) (main_arg6 : FVec F S16384x16 .f32) (main_arg7 : FVec F S16384x16 .f32) (main_arg8 : FVec F S259x259 .f32) (main_arg9 : FVec F S259 .f32) (main_arg10 : FVec F S128x259 .f32) (main_arg11 : FVec F S128 .f32) (main_arg12 : FVec F S256x256 .f32) (main_arg13 : FVec F S256 .f32) (main_arg14 : FVec F S128x256 .f32) (main_arg15 : FVec F S128 .f32) (main_arg16 : FVec F S128 .f32) (main_arg17 : FVec F S128x256 .f32) (main_arg18 : FVec F S128 .f32) (main_arg19 : FVec F S128 .f32) (main_arg20 : FVec F S128x256 .f32) (main_arg21 : FVec F S128 .f32) (main_arg22 : FVec F S128 .f32) (main_arg23 : FVec F S128x256 .f32) (main_arg24 : FVec F S128 .f32) (main_arg25 : FVec F S128 .f32) : IVec S_ 1 :=
  let main_v0 : FVec F S16384x16x128 .f32 := Host.absf main_arg0
  let main_cst : FVec F S_ .f32 := constant S_ .f32 0x7F800000#32
  let main_v1 : FVec F S16384x16x128 .f32 := broadcastInDim S16384x16x128 ![] bcast_S_S16384x16x128 main_cst
  let main_v2 : IVec S16384x16x128 1 := cmpf .olt main_v0 main_v1
  let main_c : IVec S_ 1 := constantI S_ 1 1#1
  let main_v3 : IVec S_ 1 := (fun x v => Host.reduce IntOp.andi x v reducesTo_S16384x16x128_S_d0_1_2 h_S_) main_v2 main_c
  let main_v4 : FVec F S16384x16x128 .f32 := Host.absf main_arg1
  let main_cst_0 : FVec F S_ .f32 := constant S_ .f32 0x7F800000#32
  let main_v5 : FVec F S16384x16x128 .f32 := broadcastInDim S16384x16x128 ![] bcast_S_S16384x16x128 main_cst_0
  let main_v6 : IVec S16384x16x128 1 := cmpf .olt main_v4 main_v5
  let main_c_1 : IVec S_ 1 := constantI S_ 1 1#1
  let main_v7 : IVec S_ 1 := (fun x v => Host.reduce IntOp.andi x v reducesTo_S16384x16x128_S_d0_1_2 h_S_) main_v6 main_c_1
  let main_v8 : IVec S_ 1 := andi main_v3 main_v7
  let main_v9 : FVec F S16384x16x128 .f32 := Host.absf main_arg2
  let main_cst_2 : FVec F S_ .f32 := constant S_ .f32 0x7F800000#32
  let main_v10 : FVec F S16384x16x128 .f32 := broadcastInDim S16384x16x128 ![] bcast_S_S16384x16x128 main_cst_2
  let main_v11 : IVec S16384x16x128 1 := cmpf .olt main_v9 main_v10
  let main_c_3 : IVec S_ 1 := constantI S_ 1 1#1
  let main_v12 : IVec S_ 1 := (fun x v => Host.reduce IntOp.andi x v reducesTo_S16384x16x128_S_d0_1_2 h_S_) main_v11 main_c_3
  let main_v13 : IVec S_ 1 := andi main_v8 main_v12
  let main_v14 : FVec F S16384x16x128 .f32 := Host.absf main_arg3
  let main_cst_4 : FVec F S_ .f32 := constant S_ .f32 0x7F800000#32
  let main_v15 : FVec F S16384x16x128 .f32 := broadcastInDim S16384x16x128 ![] bcast_S_S16384x16x128 main_cst_4
  let main_v16 : IVec S16384x16x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S16384x16x128 : Shape := ⟨3, ![16384, 16, 128]⟩
abbrev S16384x16x3 : Shape := ⟨3, ![16384, 16, 3]⟩
abbrev S16384x16 : Shape := ⟨2, ![16384, 16]⟩
abbrev S259x259 : Shape := ⟨2, ![259, 259]⟩
abbrev S259 : Shape := ⟨1, ![259]⟩
abbrev S128x259 : Shape := ⟨2, ![128, 259]⟩
abbrev S128 : Shape := ⟨1, ![128]⟩
abbrev S256x256 : Shape := ⟨2, ![256, 256]⟩
abbrev S256 : Shape := ⟨1, ![256]⟩
abbrev S128x256 : Shape := ⟨2, ![128, 256]⟩
abbrev S259x128 : Shape := ⟨2, ![259, 128]⟩
abbrev S259x3 : Shape := ⟨2, ![259, 3]⟩
abbrev S3x259 : Shape := ⟨2, ![3, 259]⟩
abbrev S1x259 : Shape := ⟨2, ![1, 259]⟩
abbrev S1x128 : Shape := ⟨2, ![1, 128]⟩
abbrev S256x128 : Shape := ⟨2, ![256, 128]⟩
abbrev S1x256 : Shape := ⟨2, ![1, 256]⟩
abbrev S16384x128 : Shape := ⟨2, ![16384, 128]⟩
abbrev S128x16x128 : Shape := ⟨3, ![128, 16, 128]⟩
abbrev S128x16x3 : Shape := ⟨3, ![128, 16, 3]⟩
abbrev S128x16 : Shape := ⟨2, ![128, 16]⟩
abbrev S128x128 : Shape := ⟨2, ![128, 128]⟩
abbrev S2048x128 : Shape := ⟨2, ![2048, 128]⟩
abbrev S2048x3 : Shape := ⟨2, ![2048, 3]⟩
abbrev S2048x259 : Shape := ⟨2, ![2048, 259]⟩
abbrev S2048x256 : Shape := ⟨2, ![2048, 256]⟩
abbrev S128x16x256 : Shape := ⟨3, ![128, 16, 256]⟩
abbrev S128x16x1 : Shape := ⟨3, ![128, 16, 1]⟩

abbrev nBuf : Space → Nat
  | .hbm => 64
  | .vmem => 41
  | .smem => 0
  | _ => 0

abbrev bufTy : (tb : Table) → Fin (tcTables nBuf tb) → BufTy
  | .hbm, ⟨0, _⟩ => ⟨S16384x16x128, .f32⟩
  | .hbm, ⟨1, _⟩ => ⟨S16384x16x128, .f32⟩
  | .hbm, ⟨2, _⟩ => ⟨S16384x16x128, .f32⟩
  | .hbm, ⟨3, _⟩ => ⟨S16384x16x128, .f32⟩
  | .hbm, ⟨4, _⟩ => ⟨S16384x16x128, .f32⟩
  | .hbm, ⟨5, _⟩ => ⟨S16384x16x3, .f32⟩
  | .hbm, ⟨6, _⟩ => ⟨S16384x16, .f32⟩
  | .hbm, ⟨7, _⟩ => ⟨S16384x16, .f32⟩
  | .hbm, ⟨8, _⟩ => ⟨S259x259, .f32⟩
  | .hbm, ⟨9, _⟩ => ⟨S259, .f32⟩
  | .hbm, ⟨10, _⟩ => ⟨S128x259, .f32⟩
  | .hbm, ⟨11, _⟩ => ⟨S128, .f32⟩
  | .hbm, ⟨12, _⟩ => ⟨S256x256, .f32⟩
  | .hbm, ⟨13, _⟩ => ⟨S256, .f32⟩
  | .hbm, ⟨14, _⟩ => ⟨S128x256, .f32⟩
  | .hbm, ⟨15, _⟩ => ⟨S128, .f32⟩
  | .hbm, ⟨16, _⟩ => ⟨S128, .f32⟩
  | .hbm, ⟨17, _⟩ => ⟨S128x256, .f32⟩
  | .hbm, ⟨18, _⟩ => ⟨S128, .f32⟩
  | .hbm, ⟨19, _⟩ => ⟨S128, .f32⟩
  | .hbm, ⟨20, _⟩ => ⟨S128x256, .f32⟩
  | .hbm, ⟨21, _⟩ => ⟨S128, .f32⟩
  | .hbm, ⟨22, _⟩ => ⟨S128, .f32⟩
  | .hbm, ⟨23, _⟩ => ⟨S128x256, .f32⟩
  | .hbm, ⟨24, _⟩ => ⟨S128, .f32⟩
  | .hbm, ⟨25, _⟩ => ⟨S128, .f32⟩
  | .hbm, ⟨26, _⟩ => ⟨S259x128, .f32⟩
  | .hbm, ⟨27, _⟩ => ⟨S128x259, .f32⟩
  | .hbm, ⟨28, _⟩ => ⟨S128x259, .bf16⟩
  | .hbm, ⟨29, _⟩ => ⟨S259x128, .f32⟩
  | .hbm, ⟨30, _⟩ => ⟨S128x259, .f32⟩
  | .hbm, ⟨31, _⟩ => ⟨S128x259, .bf16⟩
  | .hbm, ⟨32, _⟩ => ⟨S259x3, .f32⟩
  | .hbm, ⟨33, _⟩ => ⟨S3x259, .f32⟩
  | .hbm, ⟨34, _⟩ => ⟨S3x259, .bf16⟩
  | .hbm, ⟨35, _⟩ => ⟨S1x259, .f32⟩
  | .hbm, ⟨36, _⟩ => ⟨S259x128, .f32⟩
  | .hbm, ⟨37, _⟩ => ⟨S259x128, .bf16⟩
  | .hbm, ⟨38, _⟩ => ⟨S1x128, .f32⟩
  | .hbm, ⟨39, _⟩ => ⟨S256x128, .f32⟩
  | .hbm, ⟨40, _⟩ => ⟨S128x256, .f32⟩
  | .hbm, ⟨41, _⟩ => ⟨S128x256, .bf16⟩
  | .hbm, ⟨42, _⟩ => ⟨S256x128, .f32⟩
  | .hbm, ⟨43, _⟩ => ⟨S128x256, .f32⟩
  | .hbm, ⟨44, _⟩ => ⟨S128x256, .bf16⟩
  | .hbm, ⟨45, _⟩ => ⟨S1x256, .f32⟩
  | .hbm, ⟨46, _⟩ => ⟨S256x128, .f32⟩
  | .hbm, ⟨47, _⟩ => ⟨S256x128, .bf16⟩
  | .hbm, ⟨48, _⟩ => ⟨S1x128, .f32⟩
  | .hbm, ⟨49, _⟩ => ⟨S1x128, .f32⟩
  | .hbm, ⟨50, _⟩ => ⟨S256x128, .f32⟩
  | .hbm, ⟨51, _⟩ => ⟨S256x128, .bf16⟩
  | .hbm, ⟨52, _⟩ => ⟨S1x128, .f32⟩
  | .hbm, ⟨53, _⟩ => ⟨S1x128, .f32⟩
  | .hbm, ⟨54, _⟩ => ⟨S256x128, .f32⟩
  | .hbm, ⟨55, _⟩ => ⟨S256x128, .bf16⟩
  | .hbm, ⟨56, _⟩ => ⟨S1x128, .f32⟩
  | .hbm, ⟨57, _⟩ => ⟨S1x128, .f32⟩
  | .hbm, ⟨58, _⟩ => ⟨S256x128, .f32⟩
  | .hbm, ⟨59, _⟩ => ⟨S256x128, .bf16⟩
  | .hbm, ⟨60, _⟩ => ⟨S1x128, .f32⟩
  | .hbm, ⟨61, _⟩ => ⟨S1x128, .f32⟩
  | .hbm, ⟨62, _⟩ => ⟨S16384x128, .f32⟩
  | .hbm, ⟨63, _⟩ => ⟨S16384x128, .f32⟩
  | .local _ .vmem, ⟨0, _⟩ => ⟨S128x16x128, .f32⟩
  | .local _ .vmem, ⟨1, _⟩ => ⟨S128x16x128, .f32⟩
  | .local _ .vmem, ⟨2, _⟩ => ⟨S128x16x128, .f32⟩
  | .local _ .vmem, ⟨3, _⟩ => ⟨S128x16x128, .f32⟩
  | .local _ .vmem, ⟨4, _⟩ => ⟨S128x16x128, .f32⟩
  | .local _ .vmem, ⟨5, _⟩ => ⟨S128x16x128, .f32⟩
  | .local _ .vmem, ⟨6, _⟩ => ⟨S128x16x128, .f32⟩
  | .local _ .vmem, ⟨7, _⟩ => ⟨S128x16x128, .f32⟩
  | .local _ .vmem, ⟨8, _⟩ => ⟨S128x16x128, .f32⟩
  | .local _ .vmem, ⟨9, _⟩ => ⟨S128x16x128, .f32⟩
  | .local _ .vmem, ⟨10, _⟩ => ⟨S128x16x3, .f32⟩
  | .local _ .vmem, ⟨11, _⟩ => ⟨S128x16x3, .f32⟩
  | .local _ .vmem, ⟨12, _⟩ => ⟨S128x16, .f32⟩
  | .local _ .vmem, ⟨13, _⟩ => ⟨S128x16, .f32⟩
  | .local _ .vmem, ⟨14, _⟩ => ⟨S128x16, .f32⟩
  | .local _ .vmem, ⟨15, _⟩ => ⟨S128x16, .f32⟩
  | .local _ .vmem, ⟨16, _⟩ => ⟨S128x259, .bf16⟩
  | .local _ .vmem, ⟨17, _⟩ => ⟨S128x259, .bf16⟩
  | .local _ .vmem, ⟨18, _⟩ => ⟨S3x259, .bf16⟩
  | .local _ .vmem, ⟨19, _⟩ => ⟨S1x259, .f32⟩
  | .local _ .vmem, ⟨20, _⟩ => ⟨S259x128, .bf16⟩
  | .local _ .vmem, ⟨21, _⟩ => ⟨S1x128, .f32⟩
  | .local _ .vmem, ⟨22, _⟩ => ⟨S128x256, .bf16⟩
  | .local _ .vmem, ⟨23, _⟩ => ⟨S128x256, .bf16⟩
  | .local _ .vmem, ⟨24, _⟩ => ⟨S1x256, .f32⟩
  | .local _ .vmem, ⟨25, _⟩ => ⟨S256x128, .bf16⟩
  | .local _ .vmem, ⟨26, _⟩ => ⟨S1x128, .f32⟩
  | .local _ .vmem, ⟨27, _⟩ => ⟨S1x128, .f32⟩
  | .local _ .vmem, ⟨28, _⟩ => ⟨S256x128, .bf16⟩
  | .local _ .vmem, ⟨29, _⟩ => ⟨S1x128, .f32⟩
  | .local _ .vmem, ⟨30, _⟩ => ⟨S1x128, .f32⟩
  | .local _ .vmem, ⟨31, _⟩ => ⟨S256x128, .bf16⟩
  | .local _ .vmem, ⟨32, _⟩ => ⟨S1x128, .f32⟩
  | .local _ .vmem, ⟨33, _⟩ => ⟨S1x128, .f32⟩
  | .local _ .vmem, ⟨34, _⟩ => ⟨S256x128, .bf16⟩
  | .local _ .vmem, ⟨35, _⟩ => ⟨S1x128, .f32⟩
  | .local _ .vmem, ⟨36, _⟩ => ⟨S1x128, .f32⟩
  | .local _ .vmem, ⟨37, _⟩ => ⟨S128x128, .f32⟩
  | .local _ .vmem, ⟨38, _⟩ => ⟨S128x128, .f32⟩
  | .local _ .vmem, ⟨39, _⟩ => ⟨S128x128, .f32⟩
  | .local _ .vmem, ⟨40, _⟩ => ⟨S128x128, .f32⟩
  | _, _ => ⟨S16384x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36_0 : Ref sig .tc := ⟨.hbm, 62, rfl⟩
abbrev main_v36_1 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg21_0 : Ref sig .tc := ⟨.vmem, 29, rfl⟩
abbrev cc0_stg22_0 : Ref sig .tc := ⟨.vmem, 30, rfl⟩
abbrev cc0_stg23_0 : Ref sig .tc := ⟨.vmem, 31, rfl⟩
abbrev cc0_stg24_0 : Ref sig .tc := ⟨.vmem, 32, rfl⟩
abbrev cc0_stg25_0 : Ref sig .tc := ⟨.vmem, 33, rfl⟩
abbrev cc0_stg26_0 : Ref sig .tc := ⟨.vmem, 34, rfl⟩
abbrev cc0_stg27_0 : Ref sig .tc := ⟨.vmem, 35, rfl⟩
abbrev cc0_stg28_0 : Ref sig .tc := ⟨.vmem, 36, rfl⟩
abbrev cc0_stg29_0 : Ref sig .tc := ⟨.vmem, 37, rfl⟩
abbrev cc0_stg29_1 : Ref sig .tc := ⟨.vmem, 38, rfl⟩
abbrev cc0_stg30_0 : Ref sig .tc := ⟨.vmem, 39, rfl⟩
abbrev cc0_stg30_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem21_0 : DmaSem sig := 29
abbrev cc0_sem22_0 : DmaSem sig := 30
abbrev cc0_sem23_0 : DmaSem sig := 31
abbrev cc0_sem24_0 : DmaSem sig := 32
abbrev cc0_sem25_0 : DmaSem sig := 33
abbrev cc0_sem26_0 : DmaSem sig := 34
abbrev cc0_sem27_0 : DmaSem sig := 35
abbrev cc0_sem28_0 : DmaSem sig := 36
abbrev cc0_sem29_0 : DmaSem sig := 37
abbrev cc0_sem29_1 : DmaSem sig := 38
abbrev cc0_sem30_0 : DmaSem sig := 39
abbrev cc0_sem30_1 : DmaSem sig := 40

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x16x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x259 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x259 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x259 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x259 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S259x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256x128 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S256x128 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 2 → Memref sig .tc .vmem S128x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S128x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

class Facts₀ : Prop where
  slices_S259x259_S259x128_0_0 : S259x259.Slices ![0, 0] S259x128
  transposes_S259x128_S128x259_1_0 : S259x128.Transposes [1, 0] S128x259
  bitsLt_bf16_f32 : FTy.bits .bf16 < FTy.bits .f32
  slices_S259x259_S259x128_0_128 : S259x259.Slices ![0, 128] S259x128
  slices_S259x259_S259x3_0_256 : S259x259.Slices ![0, 256] S259x3
  transposes_S259x3_S3x259_1_0 : S259x3.Transposes [1, 0] S3x259
  shapeCasts_S259_S1x259 : S259.ShapeCasts S1x259
  transposes_S128x259_S259x128_1_0 : S128x259.Transposes [1, 0] S259x128
  shapeCasts_S128_S1x128 : S128.ShapeCasts S1x128
  slices_S256x256_S256x128_0_0 : S256x256.Slices ![0, 0] S256x128
  transposes_S256x128_S128x256_1_0 : S256x128.Transposes [1, 0] S128x256
  slices_S256x256_S256x128_0_128 : S256x256.Slices ![0, 128] S256x128
  shapeCasts_S256_S1x256 : S256.ShapeCasts S1x256
  transposes_S128x256_S256x128_1_0 : S128x256.Transposes [1, 0] S256x128
  inb_S128x16x128_S128x16x128_0_0_0 : ∀ a, (![0, 0, 0] : Fin 3 → Nat) a + S128x16x128.size a ≤ S128x16x128.size a
  h_S128x16x128 : 0 < S128x16x128.numel
  inb_S128x16x3_S128x16x3_0_0_0 : ∀ a, (![0, 0, 0] : Fin 3 → Nat) a + S128x16x3.size a ≤ S128x16x3.size a
  h_S128x16x3 : 0 < S128x16x3.numel
  inb_S128x16_S128x16_0_0 : ∀ a, (![0, 0] : Fin 2 → Nat) a + S128x16.size a ≤ S128x16.size a
  h_S128x16 : 0 < S128x16.numel
  shapeCasts_S128x16x128_S2048x128 : S128x16x128.ShapeCasts S2048x128
  shapeCasts_S128x16x3_S2048x3 : S128x16x3.ShapeCasts S2048x3
  inb_S128x259_S128x259_0_0 : ∀ a, (![0, 0] : Fin 2 → Nat) a + S128x259.size a ≤ S128x259.size a
  h_S128x259 : 0 < S128x259.numel
  shapeCasts_S128x259_S128x259 : S128x259.ShapeCasts S128x259
  inb_S3x259_S3x259_0_0 : ∀ a, (![0, 0] : Fin 2 → Nat) a + S3x259.size a ≤ S3x259.size a
  h_S3x259 : 0 < S3x259.numel
  shapeCasts_S3x259_S3x259 : S3x259.ShapeCasts S3x259
  inb_S1x259_S1x259_0_0 : ∀ a, (![0, 0] : Fin 2 → Nat) a + S1x259.size a ≤ S1x259.size a
  h_S1x259 : 0 < S1x259.numel
  shapeCasts_S1x259_S1x259 : S1x259.ShapeCasts S1x259
  broadcasts_S1x259_S2048x259 : S1x259.Broadcasts S2048x259
  inb_S259x128_S259x128_0_0 : ∀ a, (![0, 0] : Fin 2 → Nat) a + S259x128.size a ≤ S259x128.size a
  h_S259x128 : 0 < S259x128.numel
  shapeCasts_S259x128_S259x128 : S259x128.ShapeCasts S259x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  shapeCasts_S2048x256_S128x16x256 : S2048x256.ShapeCasts S128x16x256
  shapeCasts_S128x16_S128x16x1 : S128x16.ShapeCasts S128x16x1
  broadcasts_S128x16x1_S128x16x256 : S128x16x1.Broadcasts S128x16x256
  reduces_S128x16x256_S128x256 : S128x16x256.Reduces [1] S128x256
  broadcasts_S128x16x1_S128x16x128 : S128x16x1.Broadcasts S128x16x128
  reduces_S128x16x128_S128x128 : S128x16x128.Reduces [1] S128x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S128x128 : S1x128.Broadcasts S128x128
  inb_S128x128_S128x128_0_0 : ∀ a, (![0, 0] : Fin 2 → Nat) a + S128x128.size a ≤ S128x128.size a
  h_S128x128 : 0 < S128x128.numel
  dot_S2048x128_S128x259_S2048x259_1_0_0_1_n_n_wf : DotDims.WF S2048x128 S128x259 S2048x259 [1] [0] [0] [1] [] []
  dot_S2048x3_S3x259_S2048x259_1_0_0_1_n_n_wf : DotDims.WF S2048x3 S3x259 S2048x259 [1] [0] [0] [1] [] []
  dot_S2048x259_S259x128_S2048x128_1_0_0_1_n_n_wf : DotDims.WF S2048x259 S259x128 S2048x128 [1] [0] [0] [1] [] []
  dot_S2048x128_S128x256_S2048x256_1_0_0_1_n_n_wf : DotDims.WF S2048x128 S128x256 S2048x256 [1] [0] [0] [1] [] []
  dot_S128x256_S256x128_S128x128_1_0_0_1_n_n_wf : DotDims.WF S128x256 S256x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16x128.size a ≤ S16384x16x128.size a
  hwx0_0 : ∀ i : grid0.Coords, EltTy.bits .f32 = 32 ∨ (Rect.block (s := S16384x16x128) S128x16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x16x128.size a ≤ S16384x16x128.size a
  hwx0_1 : ∀ i : grid0.Coords, EltTy.bits .f32 = 32 ∨ (Rect.block (s := S16384x16x128) S128x16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x16x128.size a ≤ S16384x16x128.size a
  hwx0_2 : ∀ i : grid0.Coords, EltTy.bits .f32 = 32 ∨ (Rect.block (s := S16384x16x128) S128x16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x16x128.size a ≤ S16384x16x128.size a
  hwx0_3 : ∀ i : grid0.Coords, EltTy.bits .f32 = 32 ∨ (Rect.block (s := S16384x16x128) S128x16x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x16x128.size a ≤ S16384x16x128.size a
  hwx0_4 : ∀ i : grid0.Coords, EltTy.bits .f32 = 32 ∨ (Rect.block (s := S16384x16x128) S128x16x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x16x3.size a ≤ S16384x16x3.size a
  hwx0_5 : ∀ i : grid0.Coords, EltTy.bits .f32 = 32 ∨ (Rect.block (s := S16384x16x3) S128x16x3.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x16.size a ≤ S16384x16.size a
  hwx0_6 : ∀ i : grid0.Coords, EltTy.bits .f32 = 32 ∨ (Rect.block (s := S16384x16) S128x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x16.size a ≤ S16384x16.size a
  hwx0_7 : ∀ i : grid0.Coords, EltTy.bits .f32 = 32 ∨ (Rect.block (s := S16384x16) S128x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x259.size a ≤ S128x259.size a
  hwx0_8 : ∀ i : grid0.Coords, EltTy.bits .bf16 = 32 ∨ (Rect.block (s := S128x259) S128x259.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x259.size a ≤ S128x259.size a
  hwx0_9 : ∀ i : grid0.Coords, EltTy.bits .bf16 = 32 ∨ (Rect.block (s := S128x259) S128x259.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S3x259.size a ≤ S3x259.size a
  hwx0_10 : ∀ i : grid0.Coords, EltTy.bits .bf16 = 32 ∨ (Rect.block (s := S3x259) S3x259.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x259.size a ≤ S1x259.size a
  hwx0_11 : ∀ i : grid0.Coords, EltTy.bits .f32 = 32 ∨ (Rect.block (s := S1x259) S1x259.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S259x128.size a ≤ S259x128.size a
  hwx0_12 : ∀ i : grid0.Coords, EltTy.bits .bf16 = 32 ∨ (Rect.block (s := S259x128) S259x128.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x256.size a ≤ S128x256.size a
  hwx0_14 : ∀ i : grid0.Coords, EltTy.bits .bf16 = 32 ∨ (Rect.block (s := S128x256) S128x256.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x256.size a ≤ S128x256.size a
  hwx0_15 : ∀ i : grid0.Coords, EltTy.bits .bf16 = 32 ∨ (Rect.block (s := S128x256) S128x256.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x256.size a ≤ S1x256.size a
  hwx0_16 : ∀ i : grid0.Coords, EltTy.bits .f32 = 32 ∨ (Rect.block (s := S1x256) S1x256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256x128.size a ≤ S256x128.size a
  hwx0_17 : ∀ i : grid0.Coords, EltTy.bits .bf16 = 32 ∨ (Rect.block (s := S256x128) S256x128.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x128.size a ≤ S1x128.size a
  hwx0_18 : ∀ i : grid0.Coords, EltTy.bits .f32 = 32 ∨ (Rect.block (s := S1x128) S1x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x128.size a ≤ S1x128.size a
  hwx0_19 : ∀ i : grid0.Coords, EltTy.bits .f32 = 32 ∨ (Rect.block (s := S1x128) S1x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256x128.size a ≤ S256x128.size a
  hwx0_20 : ∀ i : grid0.Coords, EltTy.bits .bf16 = 32 ∨ (Rect.block (s := S256x128) S256x128.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x128.size a ≤ S1x128.size a
  hwx0_21 : ∀ i : grid0.Coords, EltTy.bits .f32 = 32 ∨ (Rect.block (s := S1x128) S1x128.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x128.size a ≤ S1x128.size a
  hwx0_22 : ∀ i : grid0.Coords, EltTy.bits .f32 = 32 ∨ (Rect.block (s := S1x128) S1x128.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S256x128.size a ≤ S256x128.size a
  hwx0_23 : ∀ i : grid0.Coords, EltTy.bits .bf16 = 32 ∨ (Rect.block (s := S256x128) S256x128.size (cc0_transform_23 i) (hinb0_23 i)).WholeWords (EltTy.packing .bf16)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x128.size a ≤ S1x128.size a
  hwx0_24 : ∀ i : grid0.Coords, EltTy.bits .f32 = 32 ∨ (Rect.block (s := S1x128) S1x128.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S1x128.size a ≤ S1x128.size a
  hwx0_25 : ∀ i : grid0.Coords, EltTy.bits .f32 = 32 ∨ (Rect.block (s := S1x128) S1x128.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S256x128.size a ≤ S256x128.size a
  hwx0_26 : ∀ i : grid0.Coords, EltTy.bits .bf16 = 32 ∨ (Rect.block (s := S256x128) S256x128.size (cc0_transform_26 i) (hinb0_26 i)).WholeWords (EltTy.packing .bf16)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S1x128.size a ≤ S1x128.size a
  hwx0_27 : ∀ i : grid0.Coords, EltTy.bits .f32 = 32 ∨ (Rect.block (s := S1x128) S1x128.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S1x128.size a ≤ S1x128.size a
  hwx0_28 : ∀ i : grid0.Coords, EltTy.bits .f32 = 32 ∨ (Rect.block (s := S1x128) S1x128.size (cc0_transform_28 i) (hinb0_28 i)).WholeWords (EltTy.packing .f32)
  hstage0_29 : ∀ j, (stage0_29 j).IsWhole
  nbuf0_29 : grid0.bufCount reads0_29 false = 2
  hreads0_29 : ∀ i i' : grid0.Coords, (∀ a, reads0_29 a = true → i a = i' a) → cc0_transform_29 i = cc0_transform_29 i'
  hinb0_29 : ∀ (i : grid0.Coords) a, (cc0_transform_29 i a + 1) * S128x128.size a ≤ S16384x128.size a
  hwx0_29 : ∀ i : grid0.Coords, EltTy.bits .f32 = 32 ∨ (Rect.block (s := S16384x128) S128x128.size (cc0_transform_29 i) (hinb0_29 i)).WholeWords (EltTy.packing .f32)
  hstage0_30 : ∀ j, (stage0_30 j).IsWhole
  nbuf0_30 : grid0.bufCount reads0_30 false = 2
  hreads0_30 : ∀ i i' : grid0.Coords, (∀ a, reads0_30 a = true → i a = i' a) → cc0_transform_30 i = cc0_transform_30 i'
  hinb0_30 : ∀ (i : grid0.Coords) a, (cc0_transform_30 i a + 1) * S128x128.size a ≤ S16384x128.size a
  hwx0_30 : ∀ i : grid0.Coords, EltTy.bits .f32 = 32 ∨ (Rect.block (s := S16384x128) S128x128.size (cc0_transform_30 i) (hinb0_30 i)).WholeWords (EltTy.packing .f32)

variable [Facts₀]

def dot_S2048x128_S128x259_S2048x259_1_0_0_1_n_n : DotDims S2048x128 S128x259 S2048x259 where
  lhsContracting := [1]
  rhsContracting := [0]
  lhsNonContracting := [0]
  rhsNonContracting := [1]
  lhsBatch := []
  rhsBatch := []
  wf := dot_S2048x128_S128x259_S2048x259_1_0_0_1_n_n_wf
def dot_S2048x3_S3x259_S2048x259_1_0_0_1_n_n : DotDims S2048x3 S3x259 S2048x259 where
  lhsContracting := [1]
  rhsContracting := [0]
  lhsNonContracting := [0]
  rhsNonContracting := [1]
  lhsBatch := []
  rhsBatch := []
  wf := dot_S2048x3_S3x259_S2048x259_1_0_0_1_n_n_wf
def dot_S2048x259_S259x128_S2048x128_1_0_0_1_n_n : DotDims S2048x259 S259x128 S2048x128 where
  lhsContracting := [1]
  rhsContracting := [0]
  lhsNonContracting := [0]
  rhsNonContracting := [1]
  lhsBatch := []
  rhsBatch := []
  wf := dot_S2048x259_S259x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf

abbrev win0_0 : Pipeline.Window sig grid0 :=
  Pipeline.Window.ofSpec (Memref.whole main_arg0) S128x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x16x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x16x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x16x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x16x3.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x16.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x16.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2) S128x259.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S128x259.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S3x259.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S1x259.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S259x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v15) S128x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v18) S128x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v19) S1x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v21) S256x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v22) S1x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v23) S1x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v25) S256x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v26) S1x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v27) S1x128.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v29) S256x128.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v30) S1x128.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v31) S1x128.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v33) S256x128.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v34) S1x128.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v35) S1x128.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_v36_0) S128x128.size cc0_transform_29 reads0_29 true false 2 stage0_29 sem0_29
    hrank0 hreads0_29 hinb0_29 nbuf0_29 (Memref.isWhole_whole _) hwx0_29 hstage0_29

abbrev win0_30 : Pipeline.Window sig grid0 :=
  Pipeline.Window.ofSpec (Memref.whole main_v36_1) S128x128.size cc0_transform_30 reads0_30 true false 2 stage0_30 sem0_30
    hrank0 hreads0_30 hinb0_30 nbuf0_30 (Memref.isWhole_whole _) hwx0_30 hstage0_30

abbrev win0 : Fin 31 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | ⟨_ + 31, h⟩ => absurd h (Nat.not_lt.2 (Nat.le_add_left _ _))
abbrev spec0 : Fin 31 → Pipeline.WinSpec sig grid0.rank := fun w => (win0 w).toWinSpec

class Facts : Prop extends Facts₀ where

variable [Facts]
-- ==== ReferenceIdeal.lean ====
abbrev S16384x16x128 : Shape := ⟨3, ![16384, 16, 128]⟩
abbrev S16384x16x3 : Shape := ⟨3, ![16384, 16, 3]⟩
abbrev S16384x16 : Shape := ⟨2, ![16384, 16]⟩
abbrev S259x259 : Shape := ⟨2, ![259, 259]⟩
abbrev S259 : Shape := ⟨1, ![259]⟩
abbrev S128x259 : Shape := ⟨2, ![128, 259]⟩
abbrev S128 : Shape := ⟨1, ![128]⟩
abbrev S256x256 : Shape := ⟨2, ![256, 256]⟩
abbrev S256 : Shape := ⟨1, ![256]⟩
abbrev S128x256 : Shape := ⟨2, ![128, 256]⟩
abbrev S16384x16x259 : Shape := ⟨3, ![16384, 16, 259]⟩
abbrev S1x1x259 : Shape := ⟨3, ![1, 1, 259]⟩
abbrev S_ : Shape := ⟨0, ![]⟩
abbrev S1x1x128 : Shape := ⟨3, ![1, 1, 128]⟩
abbrev S16384x16x256 : Shape := ⟨3, ![16384, 16, 256]⟩
abbrev S1x1x256 : Shape := ⟨3, ![1, 1, 256]⟩
abbrev S16384x16x1 : Shape := ⟨3, ![16384, 16, 1]⟩
abbrev S16384x256 : Shape := ⟨2, ![16384, 256]⟩
abbrev S256x128 : Shape := ⟨2, ![256, 128]⟩
abbrev S16384x128 : Shape := ⟨2, ![16384, 128]⟩
abbrev S1x128 : Shape := ⟨2, ![1, 128]⟩
abbrev S16384x1x128 : Shape := ⟨3, ![16384, 1, 128]⟩

abbrev nBuf : Space → Nat
  | .hbm => 118
  | .vmem => 0
  | .smem => 0
  | _ => 0

abbrev bufTy : (tb : Table) → Fin (tcTables nBuf tb) → BufTy
  | .hbm, ⟨0, _⟩ => ⟨S16384x16x128, .f32⟩
  | .hbm, ⟨1, _⟩ => ⟨S16384x16x128, .f32⟩
  | .hbm, ⟨2, _⟩ => ⟨S16384x16x128, .f32⟩
  | .hbm, ⟨3, _⟩ => ⟨S16384x16x128, .f32⟩
  | .hbm, ⟨4, _⟩ => ⟨S16384x16x128, .f32⟩
  | .hbm, ⟨5, _⟩ => ⟨S16384x16x3, .f32⟩
  | .hbm, ⟨6, _⟩ => ⟨S16384x16, .f32⟩
  | .hbm, ⟨7, _⟩ => ⟨S16384x16, .f32⟩
  | .hbm, ⟨8, _⟩ => ⟨S259x259, .f32⟩
  | .hbm, ⟨9, _⟩ => ⟨S259, .f32⟩
  | .hbm, ⟨10, _⟩ => ⟨S128x259, .f32⟩
  | .hbm, ⟨11, _⟩ => ⟨S128, .f32⟩
  | .hbm, ⟨12, _⟩ => ⟨S256x256, .f32⟩
  | .hbm, ⟨13, _⟩ => ⟨S256, .f32⟩
  | .hbm, ⟨14, _⟩ => ⟨S128x256, .f32⟩
  | .hbm, ⟨15, _⟩ => ⟨S128, .f32⟩
  | .hbm, ⟨16, _⟩ => ⟨S128, .f32⟩
  | .hbm, ⟨17, _⟩ => ⟨S128x256, .f32⟩
  | .hbm, ⟨18, _⟩ => ⟨S128, .f32⟩
  | .hbm, ⟨19, _⟩ => ⟨S128, .f32⟩
  | .hbm, ⟨20, _⟩ => ⟨S128x256, .f32⟩
  | .hbm, ⟨21, _⟩ => ⟨S128, .f32⟩
  | .hbm, ⟨22, _⟩ => ⟨S128, .f32⟩
  | .hbm, ⟨23, _⟩ => ⟨S128x256, .f32⟩
  | .hbm, ⟨24, _⟩ => ⟨S128, .f32⟩
  | .hbm, ⟨25, _⟩ => ⟨S128, .f32⟩
  | .hbm, ⟨26, _⟩ => ⟨S16384x16x259, .f32⟩
  | .hbm, ⟨27, _⟩ => ⟨S16384x16x259, .f32⟩
  | .hbm, ⟨28, _⟩ => ⟨S1x1x259, .f32⟩
  | .hbm, ⟨29, _⟩ => ⟨S16384x16x259, .f32⟩
  | .hbm, ⟨30, _⟩ => ⟨S16384x16x259, .f32⟩
  | .hbm, ⟨31, _⟩ => ⟨S_, .f32⟩
  | .hbm, ⟨32, _⟩ => ⟨S16384x16x259, .f32⟩
  | .hbm, ⟨33, _⟩ => ⟨S16384x16x259, .f32⟩
  | .hbm, ⟨34, _⟩ => ⟨S16384x16x128, .f32⟩
  | .hbm, ⟨35, _⟩ => ⟨S1x1x128, .f32⟩
  | .hbm, ⟨36, _⟩ => ⟨S16384x16x128, .f32⟩
  | .hbm, ⟨37, _⟩ => ⟨S16384x16x128, .f32⟩
  | .hbm, ⟨38, _⟩ => ⟨S16384x16x128, .f32⟩
  | .hbm, ⟨39, _⟩ => ⟨S16384x16x256, .f32⟩
  | .hbm, ⟨40, _⟩ => ⟨S16384x16x256, .f32⟩
  | .hbm, ⟨41, _⟩ => ⟨S1x1x256, .f32⟩
  | .hbm, ⟨42, _⟩ => ⟨S16384x16x256, .f32⟩
  | .hbm, ⟨43, _⟩ => ⟨S16384x16x256, .f32⟩
  | .hbm, ⟨44, _⟩ => ⟨S16384x16x1, .f32⟩
  | .hbm, ⟨45, _⟩ => ⟨S16384x16x256, .f32⟩
  | .hbm, ⟨46, _⟩ => ⟨S16384x16x256, .f32⟩
  | .hbm, ⟨47, _⟩ => ⟨S_, .f32⟩
  | .hbm, ⟨48, _⟩ => ⟨S16384x256, .f32⟩
  | .hbm, ⟨49, _⟩ => ⟨S256x128, .f32⟩
  | .hbm, ⟨50, _⟩ => ⟨S16384x128, .f32⟩
  | .hbm, ⟨51, _⟩ => ⟨S1x128, .f32⟩
  | .hbm, ⟨52, _⟩ => ⟨S16384x128, .f32⟩
  | .hbm, ⟨53, _⟩ => ⟨S16384x128, .f32⟩
  | .hbm, ⟨54, _⟩ => ⟨S1x128, .f32⟩
  | .hbm, ⟨55, _⟩ => ⟨S16384x128, .f32⟩
  | .hbm, ⟨56, _⟩ => ⟨S16384x128, .f32⟩
  | .hbm, ⟨57, _⟩ => ⟨S16384x128, .f32⟩
  | .hbm, ⟨58, _⟩ => ⟨S16384x128, .f32⟩
  | .hbm, ⟨59, _⟩ => ⟨S_, .f32⟩
  | .hbm, ⟨60, _⟩ => ⟨S16384x128, .f32⟩
  | .hbm, ⟨61, _⟩ => ⟨S16384x128, .f32⟩
  | .hbm, ⟨62, _⟩ => ⟨S_, .f32⟩
  | .hbm, ⟨63, _⟩ => ⟨S16384x128, .f32⟩
  | .hbm, ⟨64, _⟩ => ⟨S16384x128, .f32⟩
  | .hbm, ⟨65, _⟩ => ⟨S16384x1x128, .f32⟩
  | .hbm, ⟨66, _⟩ => ⟨S16384x16x1, .f32⟩
  | .hbm, ⟨67, _⟩ => ⟨S16384x16x128, .f32⟩
  | .hbm, ⟨68, _⟩ => ⟨S16384x16x128, .f32⟩
  | .hbm, ⟨69, _⟩ => ⟨S16384x16x128, .f32⟩
  | .hbm, ⟨70, _⟩ => ⟨S16384x16x128, .f32⟩
  | .hbm, ⟨71, _⟩ => ⟨S_, .f32⟩
  | .hbm, ⟨72, _⟩ => ⟨S16384x128, .f32⟩
  | .hbm, ⟨73, _⟩ => ⟨S256x128, .f32⟩
  | .hbm, ⟨74, _⟩ => ⟨S16384x128, .f32⟩
  | .hbm, ⟨75, _⟩ => ⟨S1x128, .f32⟩
  | .hbm, ⟨76, _⟩ => ⟨S16384x128, .f32⟩
  | .hbm, ⟨77, _⟩ => ⟨S16384x128, .f32⟩
  | .hbm, ⟨78, _⟩ => ⟨S1x128, .f32⟩
  | .hbm, ⟨79, _⟩ => ⟨S16384x128, .f32⟩
  | .hbm, ⟨80, _⟩ => ⟨S16384x128, .f32⟩
  | .hbm, ⟨81, _⟩ => ⟨S16384x128, .f32⟩
  | .hbm, ⟨82, _⟩ => ⟨S16384x128, .f32⟩
  | .hbm, ⟨83, _⟩ => ⟨S_, .f32⟩
  | .hbm, ⟨84, _⟩ => ⟨S16384x128, .f32⟩
  | .hbm, ⟨85, _⟩ => ⟨S16384x128, .f32⟩
  | .hbm, ⟨86, _⟩ => ⟨S_, .f32⟩
  | .hbm, ⟨87, _⟩ => ⟨S16384x128, .f32⟩
  | .hbm, ⟨88, _⟩ => ⟨S16384x128, .f32⟩
  | .hbm, ⟨89, _⟩ => ⟨S256x128, .f32⟩
  | .hbm, ⟨90, _⟩ => ⟨S16384x128, .f32⟩
  | .hbm, ⟨91, _⟩ => ⟨S1x128, .f32⟩
  | .hbm, ⟨92, _⟩ => ⟨S16384x128, .f32⟩
  | .hbm, ⟨93, _⟩ => ⟨S16384x128, .f32⟩
  | .hbm, ⟨94, _⟩ => ⟨S1x128, .f32⟩
  | .hbm, ⟨95, _⟩ => ⟨S16384x128, .f32⟩
  | .hbm, ⟨96, _⟩ => ⟨S16384x128, .f32⟩
  | .hbm, ⟨97, _⟩ => ⟨S16384x128, .f32⟩
  | .hbm, ⟨98, _⟩ => ⟨S16384x128, .f32⟩
  | .hbm, ⟨99, _⟩ => ⟨S16384x128, .f32⟩
  | .hbm, ⟨100, _⟩ => ⟨S256x128, .f32⟩
  | .hbm, ⟨101, _⟩ => ⟨S16384x128, .f32⟩
  | .hbm, ⟨102, _⟩ => ⟨S1x128, .f32⟩
  | .hbm, ⟨103, _⟩ => ⟨S16384x128, .f32⟩
  | .hbm, ⟨104, _⟩ => ⟨S16384x128, .f32⟩
  | .hbm, ⟨105, _⟩ => ⟨S1x128, .f32⟩
  | .hbm, ⟨106, _⟩ => ⟨S16384x128, .f32⟩
  | .hbm, ⟨107, _⟩ => ⟨S16384x128, .f32⟩
  | .hbm, ⟨108, _⟩ => ⟨S16384x128, .f32⟩
  | .hbm, ⟨109, _⟩ => ⟨S16384x128, .f32⟩
  | .hbm, ⟨110, _⟩ => ⟨S_, .f32⟩
  | .hbm, ⟨111, _⟩ => ⟨S16384x128, .f32⟩
  | .hbm, ⟨112, _⟩ => ⟨S16384x128, .f32⟩
  | .hbm, ⟨113, _⟩ => ⟨S_, .f32⟩
  | .hbm, ⟨114, _⟩ => ⟨S16384x128, .f32⟩
  | .hbm, ⟨115, _⟩ => ⟨S16384x128, .f32⟩
  | .hbm, ⟨116, _⟩ => ⟨S16384x128, .f32⟩
  | .hbm, ⟨117, _⟩ => ⟨S16384x128, .f32⟩
  | _, _ => ⟨S16384x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_call0_cst : Ref sig .tc := ⟨.hbm, 31, rfl⟩
abbrev main_call0_v0 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_0 : Ref sig .tc := ⟨.hbm, 59, rfl⟩
abbrev main_v30 : Ref sig .tc := ⟨.hbm, 60, rfl⟩
abbrev main_v31 : Ref sig .tc := ⟨.hbm, 61, rfl⟩
abbrev main_cst_1 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_2 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_3 : Ref sig .tc := ⟨.hbm, 83, rfl⟩
abbrev main_v51 : Ref sig .tc := ⟨.hbm, 84, rfl⟩
abbrev main_v52 : Ref sig .tc := ⟨.hbm, 85, rfl⟩
abbrev main_cst_4 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_5 : Ref sig .tc := ⟨.hbm, 110, rfl⟩
abbrev main_v76 : Ref sig .tc := ⟨.hbm, 111, rfl⟩
abbrev main_v77 : Ref sig .tc := ⟨.hbm, 112, rfl⟩
abbrev main_cst_6 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩

abbrev nD : Nat := 1
abbrev τ : Topo := Topo.v7x

variable {F : FTy → Type} [FloatOps F]

class Facts₀ : Prop where
  concatenates_S16384x16x128_S16384x16x128_S16384x16x3_S16384x16x259_d2 : Shape.Concatenates [S16384x16x128, S16384x16x128, S16384x16x3] S16384x16x259 2
  bcast_S259_S1x1x259_2 : S259.BroadcastsInDim S1x1x259 (![2] : Fin 1 → Fin S1x1x259.rank)
  bcast_S1x1x259_S16384x16x259_0_1_2 : S1x1x259.BroadcastsInDim S16384x16x259 (![0, 1, 2] : Fin 3 → Fin S16384x16x259.rank)
  bcast_S_S16384x16x259 : S_.BroadcastsInDim S16384x16x259 (![] : Fin 0 → Fin S16384x16x259.rank)
  bcast_S128_S1x1x128_2 : S128.BroadcastsInDim S1x1x128 (![2] : Fin 1 → Fin S1x1x128.rank)
  bcast_S1x1x128_S16384x16x128_0_1_2 : S1x1x128.BroadcastsInDim S16384x16x128 (![0, 1, 2] : Fin 3 → Fin S16384x16x128.rank)
  concatenates_S16384x16x128_S16384x16x128_S16384x16x256_d2 : Shape.Concatenates [S16384x16x128, S16384x16x128] S16384x16x256 2
  bcast_S256_S1x1x256_2 : S256.BroadcastsInDim S1x1x256 (![2] : Fin 1 → Fin S1x1x256.rank)
  bcast_S1x1x256_S16384x16x256_0_1_2 : S1x1x256.BroadcastsInDim S16384x16x256 (![0, 1, 2] : Fin 3 → Fin S16384x16x256.rank)
  bcast_S16384x16_S16384x16x1_0_1 : S16384x16.BroadcastsInDim S16384x16x1 (![0, 1] : Fin 2 → Fin S16384x16x1.rank)
  bcast_S16384x16x1_S16384x16x256_0_1_2 : S16384x16x1.BroadcastsInDim S16384x16x256 (![0, 1, 2] : Fin 3 → Fin S16384x16x256.rank)
  reducesTo_S16384x16x256_S16384x256_d1 : S16384x16x256.ReducesTo [1] S16384x256
  h_S_ : 0 < S_.numel
  transposes_S128x256_S256x128_1_0 : S128x256.Transposes [1, 0] S256x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S16384x128_S16384x1x128_0_2 : S16384x128.BroadcastsInDim S16384x1x128 (![0, 2] : Fin 2 → Fin S16384x1x128.rank)
  bcast_S16384x16x1_S16384x16x128_0_1_2 : S16384x16x1.BroadcastsInDim S16384x16x128 (![0, 1, 2] : Fin 3 → Fin S16384x16x128.rank)
  bcast_S16384x1x128_S16384x16x128_0_1_2 : S16384x1x128.BroadcastsInDim S16384x16x128 (![0, 1, 2] : Fin 3 → Fin S16384x16x128.rank)
  reducesTo_S16384x16x128_S16384x128_d1 : S16384x16x128.ReducesTo [1] S16384x128
  dot_S16384x16x259_S259x259_S16384x16x259_2_1_01_0_n_n_wf : DotDims.WF S16384x16x259 S259x259 S16384x16x259 [2] [1] [0, 1] [0] [] []
  dot_S16384x16x259_S128x259_S16384x16x128_2_1_01_0_n_n_wf : DotDims.WF S16384x16x259 S128x259 S16384x16x128 [2] [1] [0, 1] [0] [] []
  dot_S16384x16x256_S256x256_S16384x16x256_2_1_01_0_n_n_wf : DotDims.WF S16384x16x256 S256x256 S16384x16x256 [2] [1] [0, 1] [0] [] []
  dot_S16384x256_S256x128_S16384x128_1_0_0_1_n_n_wf : DotDims.WF S16384x256 S256x128 S16384x128 [1] [0] [0] [1] [] []

variable [Facts₀]

def dot_S16384x16x259_S259x259_S16384x16x259_2_1_01_0_n_n : DotDims S16384x16x259 S259x259 S16384x16x259 where
  lhsContracting := [2]
  rhsContracting := [1]
  lhsNonContracting := [0, 1]
  rhsNonContracting := [0]
  lhsBatch := []
  rhsBatch := []
  wf := dot_S16384x16x259_S259x259_S16384x16x259_2_1_01_0_n_n_wf
def dot_S16384x16x259_S128x259_S16384x16x128_2_1_01_0_n_n : DotDims S16384x16x259 S128x259 S16384x16x128 where
  lhsContracting := [2]
  rhsContracting := [1]
  lhsNonContracting := [0, 1]
  rhsNonContracting := [0]
  lhsBatch := []
  rhsBatch := []
  wf := dot_S16384x16x259_S128x259_S16384x16x128_2_1_01_0_n_n_wf
def dot_S16384x16x256_S256x256_S16384x16x256_2_1_01_0_n_n : DotDims S16384x16x256 S256x256 S16384x16x256 where
  lhsContracting := [2]
  rhsContracting := [1]
  lhsNonContracting := [0, 1]
  rhsNonContracting := [0]
  lhsBatch := []
  rhsBatch := []
  wf := dot_S16384x16x256_S256x256_S16384x16x256_2_1_01_0_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf

class Facts : Prop extends Facts₀ where

variable [Facts]
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.LibMidAxis.lean ====
/-
  Rank-3 blocks `[A, B, C]` whose two leading axes are flattened into rows, read at an index.

  * `cast_abc_rc`   : the cast `[A, B, C] → [R, C]` (`R = A·B`) at row `r = p·B + k`, column `e`, is the block at `(p, k, e)`;
  * `cast_rc_abc`   : the cast back `[R, C] → [A, B, C]` at `(p, k, e)` is the matrix at `(p·B + k, e)`;
  * `flag_col_apply`: a flag array `[A, B]` cast to `[A, B, 1]` and broadcast along a third axis of extent `C` reads, at
                      `(p, k, e)`, the flag at `(p, k)` (jax's `mask[:, :, None]` against an `[A, B, C]` block);
  * `lift_mid`, `sum_mid_apply`: a `vector.multi_reduction <add>` over the MIDDLE axis from the zero accumulator, at
                      `(p, o)` and at the extended reals, is the sum over `k : Fin B` of the block at `(p, k, o)`.
  Over any element type where no arithmetic is involved; imports only the Idealize library.
-/
import Idealize.ShloMosaic.Lib.Pipeline.Value
import Idealize.ShloMosaic.Lib.ValueIdx
import Idealize.ShloMosaic.PureOps.Ideal.Laws

noncomputable section

namespace Cert.Lib.MidAxis

open Idealize.ShloMosaic Idealize.ShloMosaic.ValueIdx

variable {α : Type}

/-- Flattening the two leading axes keeps the row-major position: row `p·B + k` of the matrix is `(p, k)` of the block. -/
theorem cast_abc_rc {A B C R : ℕ} (x : (⟨3, ![A, B, C]⟩ : Shape).Idx → α)
    (h : (⟨3, ![A, B, C]⟩ : Shape).ShapeCasts ⟨2, ![R, C]⟩) (p : Fin A) (k : Fin B) (e : Fin C) (r : Fin R)
    (hr : r.val = p.val * B + k.val) :
    shapeCast ⟨2, ![R, C]⟩ x h (ix2 r e) = x (ix3 p k e) :=
  shapeCast_apply x h (ix2 r e) (ix3 p k e) (by
    rw [Shape.rowMajor_val_three, Shape.rowMajor_val_two]
    show (p.val * B + k.val) * C + e.val = r.val * C + e.val
    rw [hr])

/-- The cast back: `(p, k)` of the block is row `p·B + k` of the matrix. -/
theorem cast_rc_abc {A B C R : ℕ} (x : (⟨2, ![R, C]⟩ : Shape).Idx → α)
    (h : (⟨2, ![R, C]⟩ : Shape).ShapeCasts ⟨3, ![A, B, C]⟩) (p : Fin A) (k : Fin B) (e : Fin C) (r : Fin R)
    (hr : r.val = p.val * B + k.val) :
    shapeCast ⟨3, ![A, B, C]⟩ x h (ix3 p k e) = x (ix2 r e) :=
  shapeCast_apply x h (ix3 p k e) (ix2 r e) (by
    rw [Shape.rowMajor_val_three, Shape.rowMajor_val_two]
    show r.val * C + e.val = (p.val * B + k.val) * C + e.val
    rw [hr])

/-- A flag per `(p, k)` given a unit third axis and repeated along it: every place `(p, k, e)` reads the flag at `(p, k)`. -/
theorem flag_col_apply {A B C : ℕ} (v : (⟨2, ![A, B]⟩ : Shape).Idx → α)
    (h1 : (⟨2, ![A, B]⟩ : Shape).ShapeCasts ⟨3, ![A, B, 1]⟩)
    (h2 : (⟨3, ![A, B, 1]⟩ : Shape).Broadcasts ⟨3, ![A, B, C]⟩) (p : Fin A) (k : Fin B) (e : Fin C) :
    broadcastTo ⟨3, ![A, B, C]⟩ (shapeCast ⟨3, ![A, B, 1]⟩ v h1) h2 (ix3 p k e) = v (ix2 p k) := by
  refine (broadcastTo_apply _ h2 (ix3 p k e) (ix3 p k (0 : Fin 1)) fun ax => ?_).trans ?_
  · match ax with
    | ⟨0, _⟩ =>
      show p.val = if A = 1 then 0 else p.val
      split
      · have := p.isLt; omega
      · rfl
    | ⟨1, _⟩ =>
      show k.val = if B = 1 then 0 else k.val
      split
      · have := k.isLt; omega
      · rfl
    | ⟨2, _⟩ =>
      show (0 : ℕ) = if (1 : ℕ) = 1 then 0 else e.val
      rw [if_pos rfl]
  · exact shapeCast_apply v h1 (ix3 p k (0 : Fin 1)) (ix2 p k) (by
      rw [Shape.rowMajor_val_three, Shape.rowMajor_val_two]
      show p.val * B + k.val = (p.val * B + k.val) * 1 + 0
      omega)

/-- The reduced index `(p, o)` with the middle coordinate `k` put back is `(p, k, o)`. -/
theorem lift_mid {A B C : ℕ} (h : (⟨3, ![A, B, C]⟩ : Shape).Reduces [1] ⟨2, ![A, C]⟩) (p : Fin A) (o : Fin C)
    (k : Fin ((⟨3, ![A, B, C]⟩ : Shape).size 1)) : h.lift (ix2 p o) k = ix3 p (⟨k.val, k.isLt⟩ : Fin B) o := by
  funext c; apply Fin.ext
  fin_cases c <;> rfl

/-- A sum over the middle axis from the zero accumulator, at the extended reals, entry by entry. -/
theorem sum_mid_apply {A B C : ℕ} (src : FVec Ideal ⟨3, ![A, B, C]⟩ .f32)
    (h : (⟨3, ![A, B, C]⟩ : Shape).Reduces [1] ⟨2, ![A, C]⟩) (hφ : FKind.Formats .f32)
    (hacc : (0x00000000#32 : BitVec 32) = FKind.add.neutral .f32 hφ) (p : Fin A) (o : Fin C) :
    multiReduction .add [1] ⟨2, ![A, C]⟩ src 0x00000000#32 h hφ hacc (ix2 p o) = ∑ k : Fin B, src (ix3 p k o) := by
  refine (Ideal.multiReduction_add_single src 0x00000000#32 h hφ hacc (ix2 p o)).trans ?_
  show ∑ k : Fin B, src (h.lift (ix2 p o) k) = _
  exact Finset.sum_congr rfl fun k _ => congrArg src (lift_mid h p o k)

end Cert.Lib.MidAxis

end
-- ==== Proof.BodyEdge.lean ====
/-
  The kernel body's matrix products read entry by entry, and the first stage of the edge function.

  Inside one block of 128 nodes the body flattens (node, child) into 2048 rows, row `p·16 + k` for child `k` of node `p`.
  Every matrix product is a plain rows-by-columns product into the zero accumulator, so at the extended reals its entry
  `(r, c)` is the sum over the contracted coordinate of left `(r, ·)` times right `(·, c)` (`mm_*`). The first layer of the
  edge function is the sum of three such products, one per piece of the concatenated input (source embedding,
  destination embedding, edge type), each against its own block of columns of the first edge matrix.
-/
import proofs.«134373_j64622077935700_1_alg».proof.Proof.Gen.KernelIdeal.Skeleton
import proofs.«134373_j64622077935700_1_alg».proof.Proof.LibPlainDot
import proofs.«134373_j64622077935700_1_alg».proof.Proof.LibMidAxis
import Idealize.ShloMosaic.Lib.ValueLayout
import Idealize.ShloMosaic.Lib.Pipeline.Value
import Idealize.ShloMosaic.Lib.ValueIdx
import Idealize.ShloMosaic.PureOps.Ideal.Laws

noncomputable section

namespace Cert.TreeLstm.Body

open Cert.KernelIdeal Cert.KernelIdeal.Gen Idealize.ShloMosaic Idealize.ShloMosaic.ValueIdx

/-! ## Pointwise operations at an index, with both operands' values named -/

theorem add_at {s : Shape} {φ : FTy} (a b : FVec Ideal s φ) (i : s.Idx) {x y : EReal} (ha : a i = x) (hb : b i = y) :
    addf a b i = x + y := by rw [addf_apply, ha, hb]

theorem mul_at {s : Shape} {φ : FTy} (a b : FVec Ideal s φ) (i : s.Idx) {x y : EReal} (ha : a i = x) (hb : b i = y) :
    mulf a b i = x * y := by rw [mulf_apply, ha, hb]

theorem max_at {s : Shape} {φ : FTy} (a b : FVec Ideal s φ) (i : s.Idx) {x y : EReal} (ha : a i = x) (hb : b i = y) :
    maximumf a b i = max x y := by rw [maximumf_apply, ha, hb]

/-- A change of float format is the identity at the extended reals. -/
theorem trunc_at {s : Shape} {φ ψ : FTy} (a : FVec Ideal s φ) (h : ψ.bits < φ.bits) (i : s.Idx) {x : EReal} (ha : a i = x) :
    (truncf ψ a h : FVec Ideal s ψ) i = x := by rw [truncf_apply, ha]

/-- The row of child `k` of node `p` in a block of 128 nodes with 16 children each. -/
abbrev row (p : Fin 128) (k : Fin 16) : Fin 2048 := ⟨p.val * 16 + k.val, by have := p.isLt; have := k.isLt; omega⟩

/-! ## A plain product into the zero accumulator -/

theorem mm_of_facts {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (L : FVec Ideal ⟨2, ![M, K]⟩ φ₁) (R : FVec Ideal ⟨2, ![K, N]⟩ φ₂) (p : Fin M) (c : Fin N) :
    matmul D none L R (constant (F := Ideal) ⟨2, ![M, N]⟩ .f32 0x00000000#32) (ix2 p c)
      = ∑ k : Fin K, L (ix2 p k) * R (ix2 k c) := by
  simp only [matmul]
  rw [Ideal.matmul_constant_zero_apply]
  exact Cert.Lib.PlainDot.sum_rows_cols D hr hs hl0 hl1 hr0 hr1 L R (ix2 p c)

/-- The product of the edge function's first layer, endpoint-embedding blocks: [2048,128] × [128,259], into the zero accumulator, entry by entry. -/
theorem mm_E1 {φ₁ φ₂ : FTy} (L : FVec Ideal S2048x128 φ₁) (R : FVec Ideal S128x259 φ₂) (p : Fin 2048) (c : Fin 259) :
    matmul dot_S2048x128_S128x259_S2048x259_1_0_0_1_n_n none L R (constant (F := Ideal) S2048x259 .f32 0x00000000#32) (ix2 p c)
      = ∑ k : Fin 128, L (ix2 p k) * R (ix2 k c) :=
  mm_of_facts dot_S2048x128_S128x259_S2048x259_1_0_0_1_n_n rfl rfl
    (fun j q => by
      unfold DotDims.lhsIdx
      rw [dif_neg (show ¬(0 : Fin S2048x128.rank) ∈ dot_S2048x128_S128x259_S2048x259_1_0_0_1_n_n.lhsBatch by decide),
        dif_pos (show (0 : Fin S2048x128.rank) ∈ dot_S2048x128_S128x259_S2048x259_1_0_0_1_n_n.lhsNonContracting by decide)]
      rfl)
    (fun j q => dot_S2048x128_S128x259_S2048x259_1_0_0_1_n_n.lhsIdx_val_of_single rfl j q)
    (fun j q => dot_S2048x128_S128x259_S2048x259_1_0_0_1_n_n.rhsIdx_val_of_single rfl j q)
    (fun j q => by
      unfold DotDims.rhsIdx
      rw [dif_neg (show ¬(1 : Fin S128x259.rank) ∈ dot_S2048x128_S128x259_S2048x259_1_0_0_1_n_n.rhsBatch by decide),
        dif_pos (show (1 : Fin S128x259.rank) ∈ dot_S2048x128_S128x259_S2048x259_1_0_0_1_n_n.rhsNonContracting by decide)]
      rfl)
    L R p c

/-- The product of the edge function's first layer, edge-type block: [2048,3] × [3,259], into the zero accumulator, entry by entry. -/
theorem mm_E3 {φ₁ φ₂ : FTy} (L : FVec Ideal S2048x3 φ₁) (R : FVec Ideal S3x259 φ₂) (p : Fin 2048) (c : Fin 259) :
    matmul dot_S2048x3_S3x259_S2048x259_1_0_0_1_n_n none L R (constant (F := Ideal) S2048x259 .f32 0x00000000#32) (ix2 p c)
      = ∑ k : Fin 3, L (ix2 p k) * R (ix2 k c) :=
  mm_of_facts dot_S2048x3_S3x259_S2048x259_1_0_0_1_n_n rfl rfl
    (fun j q => by
      unfold DotDims.lhsIdx
      rw [dif_neg (show ¬(0 : Fin S2048x3.rank) ∈ dot_S2048x3_S3x259_S2048x259_1_0_0_1_n_n.lhsBatch by decide),
        dif_pos (show (0 : Fin S2048x3.rank) ∈ dot_S2048x3_S3x259_S2048x259_1_0_0_1_n_n.lhsNonContracting by decide)]
      rfl)
    (fun j q => dot_S2048x3_S3x259_S2048x259_1_0_0_1_n_n.lhsIdx_val_of_single rfl j q)
    (fun j q => dot_S2048x3_S3x259_S2048x259_1_0_0_1_n_n.rhsIdx_val_of_single rfl j q)
    (fun j q => by
      unfold DotDims.rhsIdx
      rw [dif_neg (show ¬(1 : Fin S3x259.rank) ∈ dot_S2048x3_S3x259_S2048x259_1_0_0_1_n_n.rhsBatch by decide),
        dif_pos (show (1 : Fin S3x259.rank) ∈ dot_S2048x3_S3x259_S2048x259_1_0_0_1_n_n.rhsNonContracting by decide)]
      rfl)
    L R p c

/-- The product of the edge function's second layer: [2048,259] × [259,128], into the zero accumulator, entry by entry. -/
theorem mm_E2 {φ₁ φ₂ : FTy} (L : FVec Ideal S2048x259 φ₁) (R : FVec Ideal S259x128 φ₂) (p : Fin 2048) (c : Fin 128) :
    matmul dot_S2048x259_S259x128_S2048x128_1_0_0_1_n_n none L R (constant (F := Ideal) S2048x128 .f32 0x00000000#32) (ix2 p c)
      = ∑ k : Fin 259, L (ix2 p k) * R (ix2 k c) :=
  mm_of_facts dot_S2048x259_S259x128_S2048x128_1_0_0_1_n_n rfl rfl
    (fun j q => by
      unfold DotDims.lhsIdx
      rw [dif_neg (show ¬(0 : Fin S2048x259.rank) ∈ dot_S2048x259_S259x128_S2048x128_1_0_0_1_n_n.lhsBatch by decide),
        dif_pos (show (0 : Fin S2048x259.rank) ∈ dot_S2048x259_S259x128_S2048x128_1_0_0_1_n_n.lhsNonContracting by decide)]
      rfl)
    (fun j q => dot_S2048x259_S259x128_S2048x128_1_0_0_1_n_n.lhsIdx_val_of_single rfl j q)
    (fun j q => dot_S2048x259_S259x128_S2048x128_1_0_0_1_n_n.rhsIdx_val_of_single rfl j q)
    (fun j q => by
      unfold DotDims.rhsIdx
      rw [dif_neg (show ¬(1 : Fin S259x128.rank) ∈ dot_S2048x259_S259x128_S2048x128_1_0_0_1_n_n.rhsBatch by decide),
        dif_pos (show (1 : Fin S259x128.rank) ∈ dot_S2048x259_S259x128_S2048x128_1_0_0_1_n_n.rhsNonContracting by decide)]
      rfl)
    L R p c

/-- The product of the node matrix, one column block: [2048,128] × [128,256], into the zero accumulator, entry by entry. -/
theorem mm_NL {φ₁ φ₂ : FTy} (L : FVec Ideal S2048x128 φ₁) (R : FVec Ideal S128x256 φ₂) (p : Fin 2048) (c : Fin 256) :
    matmul dot_S2048x128_S128x256_S2048x256_1_0_0_1_n_n none L R (constant (F := Ideal) S2048x256 .f32 0x00000000#32) (ix2 p c)
      = ∑ k : Fin 128, L (ix2 p k) * R (ix2 k c) :=
  mm_of_facts dot_S2048x128_S128x256_S2048x256_1_0_0_1_n_n rfl rfl
    (fun j q => by
      unfold DotDims.lhsIdx
      rw [dif_neg (show ¬(0 : Fin S2048x128.rank) ∈ dot_S2048x128_S128x256_S2048x256_1_0_0_1_n_n.lhsBatch by decide),
        dif_pos (show (0 : Fin S2048x128.rank) ∈ dot_S2048x128_S128x256_S2048x256_1_0_0_1_n_n.lhsNonContracting by decide)]
      rfl)
    (fun j q => dot_S2048x128_S128x256_S2048x256_1_0_0_1_n_n.lhsIdx_val_of_single rfl j q)
    (fun j q => dot_S2048x128_S128x256_S2048x256_1_0_0_1_n_n.rhsIdx_val_of_single rfl j q)
    (fun j q => by
      unfold DotDims.rhsIdx
      rw [dif_neg (show ¬(1 : Fin S128x256.rank) ∈ dot_S2048x128_S128x256_S2048x256_1_0_0_1_n_n.rhsBatch by decide),
        dif_pos (show (1 : Fin S128x256.rank) ∈ dot_S2048x128_S128x256_S2048x256_1_0_0_1_n_n.rhsNonContracting by decide)]
      rfl)
    L R p c

/-- The product of a gate's matrix: [128,256] × [256,128], into the zero accumulator, entry by entry. -/
theorem mm_G {φ₁ φ₂ : FTy} (L : FVec Ideal S128x256 φ₁) (R : FVec Ideal S256x128 φ₂) (p : Fin 128) (c : Fin 128) :
    matmul dot_S128x256_S256x128_S128x128_1_0_0_1_n_n none L R (constant (F := Ideal) S128x128 .f32 0x00000000#32) (ix2 p c)
      = ∑ k : Fin 256, L (ix2 p k) * R (ix2 k c) :=
  mm_of_facts dot_S128x256_S256x128_S128x128_1_0_0_1_n_n rfl rfl
    (fun j q => by
      unfold DotDims.lhsIdx
      rw [dif_neg (show ¬(0 : Fin S128x256.rank) ∈ dot_S128x256_S256x128_S128x128_1_0_0_1_n_n.lhsBatch by decide),
        dif_pos (show (0 : Fin S128x256.rank) ∈ dot_S128x256_S256x128_S128x128_1_0_0_1_n_n.lhsNonContracting by decide)]
      rfl)
    (fun j q => dot_S128x256_S256x128_S128x128_1_0_0_1_n_n.lhsIdx_val_of_single rfl j q)
    (fun j q => dot_S128x256_S256x128_S128x128_1_0_0_1_n_n.rhsIdx_val_of_single rfl j q)
    (fun j q => by
      unfold DotDims.rhsIdx
      rw [dif_neg (show ¬(1 : Fin S256x128.rank) ∈ dot_S128x256_S256x128_S128x128_1_0_0_1_n_n.rhsBatch by decide),
        dif_pos (show (1 : Fin S256x128.rank) ∈ dot_S128x256_S256x128_S128x128_1_0_0_1_n_n.rhsNonContracting by decide)]
      rfl)
    L R p c

/-! ## The edge function's first layer, before its bias -/

/-- The two endpoint embeddings' share of the first layer, at row `p·16 + k`, hidden unit `o`. -/
theorem edge_main (x3 x4 : FVec Ideal S128x16x128 .f32) (x8 x9 : FVec Ideal S128x259 .bf16)
    (p : Fin 128) (k : Fin 16) (o : Fin 259) :
    k0_pay4 (F := Ideal) x3 x4 x8 x9 (ix2 (row p k) o)
      = (∑ e : Fin 128, x3 (ix3 p k e) * x8 (ix2 e o)) + (∑ e : Fin 128, x4 (ix3 p k e) * x9 (ix2 e o)) := by
  unfold k0_pay4
  refine add_at _ _ _ ?_ ?_
  · refine (mm_E1 _ _ (row p k) o).trans (Finset.sum_congr rfl fun e _ => congrArg₂ (· * ·) ?_ ?_)
    · exact trunc_at _ _ _ (Cert.Lib.MidAxis.cast_abc_rc x3 _ p k e (row p k) rfl)
    · exact congrFun (shapeCast_self x8 _) (ix2 e o)
  · refine (mm_E1 _ _ (row p k) o).trans (Finset.sum_congr rfl fun e _ => congrArg₂ (· * ·) ?_ ?_)
    · exact trunc_at _ _ _ (Cert.Lib.MidAxis.cast_abc_rc x4 _ p k e (row p k) rfl)
    · exact congrFun (shapeCast_self x9 _) (ix2 e o)

/-- The edge type's share. -/
theorem edge_type (x5 : FVec Ideal S128x16x3 .f32) (x10 : FVec Ideal S3x259 .bf16)
    (p : Fin 128) (k : Fin 16) (o : Fin 259) :
    k0_pay5 (F := Ideal) x5 x10 (ix2 (row p k) o) = ∑ e : Fin 3, x5 (ix3 p k e) * x10 (ix2 e o) := by
  unfold k0_pay5
  refine (mm_E3 _ _ (row p k) o).trans (Finset.sum_congr rfl fun e _ => congrArg₂ (· * ·) ?_ ?_)
  · exact trunc_at _ _ _ (Cert.Lib.MidAxis.cast_abc_rc x5 _ p k e (row p k) rfl)
  · exact congrFun (shapeCast_self x10 _) (ix2 e o)

/-- The first layer's bias row passes through its (identity) cast. -/
theorem edge_bias (x11 : FVec Ideal S1x259 .f32) : k0_pay3 (F := Ideal) x11 = x11 := by
  unfold k0_pay3
  exact shapeCast_self x11 _

end Cert.TreeLstm.Body

end
-- ==== Proof.KernelHost.lean ====
/-
  What the region finds in the 21 parameter arrays its windows stage.

  Before the region the program cuts the first edge matrix into its three column blocks and the node matrix into its two,
  transposes every matrix (so that the body contracts rows against rows of a plain product), changes their float format
  (the identity at the extended reals), and lays every bias vector out as a one-row array. Read at an index, each staged
  array is an argument array at the transposed index, shifted by the block's first column.
-/
import proofs.«134373_j64622077935700_1_alg».proof.Proof.FrameKernelIdealP
import proofs.«134373_j64622077935700_1_alg».proof.Proof.BodyEdge
import Idealize.ShloMosaic.Lib.StableHlo.Run
import Idealize.ShloMosaic.Lib.ValueLayout
import Idealize.ShloMosaic.Lib.Tactic

noncomputable section

namespace Cert.TreeLstm.Kernel

open Cert.KernelIdeal Cert.KernelIdeal.Gen Cert.KernelIdeal.GenP Idealize.ShloMosaic Idealize.ShloMosaic.ValueIdx
open Idealize.ShloMosaic.TcCoe Idealize.SL.Sem Idealize.ShloMosaic.StableHlo
open Cert.TreeLstm.Body (trunc_at)

variable (m : (ℓ : Loc nD τ sig) → Buf (Elt Ideal) ℓ)

/-- The array window 8 stages: columns 0 … 127 of the first edge matrix, transposed. -/
theorem host_v2 (c : Dev nD) (e : Fin 128) (o : Fin 259) :
    (show FVec Ideal S128x259 .bf16 from V m c main_v2) (ix2 e o)
      = ((m ((c : Thread nD τ).loc main_arg8)) : S259x259.Idx → EReal) (ix2 o (⟨e.val, by omega⟩ : Fin 259)) := by
  have h : (show FVec Ideal S128x259 .bf16 from V m c main_v2)
      = truncf (F := Ideal) .bf16 (transpose S128x259 [1, 0] (extractStridedSlice S259x128 ![0, 0]
          (m ((c : Thread nD τ).loc main_arg8)) slices_S259x259_S259x128_0_0) transposes_S259x128_S128x259_1_0) bitsLt_bf16_f32 := by
    dsimp only [V, hostOps0]; after_results
  refine (congrFun h (ix2 e o)).trans ?_
  exact trunc_at _ _ _ ((transpose_ix2_apply _ _ e o).trans
    (slice2_axis1_apply 0 _ _ o e (⟨e.val, by omega⟩ : Fin 259) (Nat.zero_add _).symm))

/-- The array window 9 stages: columns 128 … 255 of the first edge matrix, transposed. -/
theorem host_v5 (c : Dev nD) (e : Fin 128) (o : Fin 259) :
    (show FVec Ideal S128x259 .bf16 from V m c main_v5) (ix2 e o)
      = ((m ((c : Thread nD τ).loc main_arg8)) : S259x259.Idx → EReal) (ix2 o (⟨128 + e.val, by omega⟩ : Fin 259)) := by
  have h : (show FVec Ideal S128x259 .bf16 from V m c main_v5)
      = truncf (F := Ideal) .bf16 (transpose S128x259 [1, 0] (extractStridedSlice S259x128 ![0, 128]
          (m ((c : Thread nD τ).loc main_arg8)) slices_S259x259_S259x128_0_128) transposes_S259x128_S128x259_1_0) bitsLt_bf16_f32 := by
    dsimp only [V, hostOps0]; after_results
  refine (congrFun h (ix2 e o)).trans ?_
  exact trunc_at _ _ _ ((transpose_ix2_apply _ _ e o).trans
    (slice2_axis1_apply 128 _ _ o e (⟨128 + e.val, by omega⟩ : Fin 259) rfl))

/-- The array window 10 stages: columns 256 … 258 of the first edge matrix, transposed. -/
theorem host_v8 (c : Dev nD) (e : Fin 3) (o : Fin 259) :
    (show FVec Ideal S3x259 .bf16 from V m c main_v8) (ix2 e o)
      = ((m ((c : Thread nD τ).loc main_arg8)) : S259x259.Idx → EReal) (ix2 o (⟨256 + e.val, by omega⟩ : Fin 259)) := by
  have h : (show FVec Ideal S3x259 .bf16 from V m c main_v8)
      = truncf (F := Ideal) .bf16 (transpose S3x259 [1, 0] (extractStridedSlice S259x3 ![0, 256]
          (m ((c : Thread nD τ).loc main_arg8)) slices_S259x259_S259x3_0_256) transposes_S259x3_S3x259_1_0) bitsLt_bf16_f32 := by
    dsimp only [V, hostOps0]; after_results
  refine (congrFun h (ix2 e o)).trans ?_
  exact trunc_at _ _ _ ((transpose_ix2_apply _ _ e o).trans
    (slice2_axis1_apply 256 _ _ o e (⟨256 + e.val, by omega⟩ : Fin 259) rfl))

/-- The array window 14 stages: columns 0 … 127 of the node matrix, transposed. -/
theorem host_v15 (c : Dev nD) (e : Fin 128) (o : Fin 256) :
    (show FVec Ideal S128x256 .bf16 from V m c main_v15) (ix2 e o)
      = ((m ((c : Thread nD τ).loc main_arg12)) : S256x256.Idx → EReal) (ix2 o (⟨e.val, by omega⟩ : Fin 256)) := by
  have h : (show FVec Ideal S128x256 .bf16 from V m c main_v15)
      = truncf (F := Ideal) .bf16 (transpose S128x256 [1, 0] (extractStridedSlice S256x128 ![0, 0]
          (m ((c : Thread nD τ).loc main_arg12)) slices_S256x256_S256x128_0_0) transposes_S256x128_S128x256_1_0) bitsLt_bf16_f32 := by
    dsimp only [V, hostOps0]; after_results
  refine (congrFun h (ix2 e o)).trans ?_
  exact trunc_at _ _ _ ((transpose_ix2_apply _ _ e o).trans
    (slice2_axis1_apply 0 _ _ o e (⟨e.val, by omega⟩ : Fin 256) (Nat.zero_add _).symm))

/-- The array window 15 stages: columns 128 … 255 of the node matrix, transposed. -/
theorem host_v18 (c : Dev nD) (e : Fin 128) (o : Fin 256) :
    (show FVec Ideal S128x256 .bf16 from V m c main_v18) (ix2 e o)
      = ((m ((c : Thread nD τ).loc main_arg12)) : S256x256.Idx → EReal) (ix2 o (⟨128 + e.val, by omega⟩ : Fin 256)) := by
  have h : (show FVec Ideal S128x256 .bf16 from V m c main_v18)
      = truncf (F := Ideal) .bf16 (transpose S128x256 [1, 0] (extractStridedSlice S256x128 ![0, 128]
          (m ((c : Thread nD τ).loc main_arg12)) slices_S256x256_S256x128_0_128) transposes_S256x128_S128x256_1_0) bitsLt_bf16_f32 := by
    dsimp only [V, hostOps0]; after_results
  refine (congrFun h (ix2 e o)).trans ?_
  exact trunc_at _ _ _ ((transpose_ix2_apply _ _ e o).trans
    (slice2_axis1_apply 128 _ _ o e (⟨128 + e.val, by omega⟩ : Fin 256) rfl))

/-- The second edge matrix, transposed. -/
theorem host_v11 (c : Dev nD) (o : Fin 259) (j : Fin 128) :
    (show FVec Ideal S259x128 .bf16 from V m c main_v11) (ix2 o j)
      = ((m ((c : Thread nD τ).loc main_arg10)) : S128x259.Idx → EReal) (ix2 j o) := by
  have h : (show FVec Ideal S259x128 .bf16 from V m c main_v11)
      = truncf (F := Ideal) .bf16 (transpose S259x128 [1, 0] (m ((c : Thread nD τ).loc main_arg10)) transposes_S128x259_S259x128_1_0) bitsLt_bf16_f32 := by
    dsimp only [V, hostOps0]; after_results
  refine (congrFun h (ix2 o j)).trans ?_
  exact trunc_at _ _ _ (transpose_ix2_apply _ _ o j)

/-- The forget gate's matrix, transposed. -/
theorem host_v21 (c : Dev nD) (o : Fin 256) (j : Fin 128) :
    (show FVec Ideal S256x128 .bf16 from V m c main_v21) (ix2 o j)
      = ((m ((c : Thread nD τ).loc main_arg14)) : S128x256.Idx → EReal) (ix2 j o) := by
  have h : (show FVec Ideal S256x128 .bf16 from V m c main_v21)
      = truncf (F := Ideal) .bf16 (transpose S256x128 [1, 0] (m ((c : Thread nD τ).loc main_arg14)) transposes_S128x256_S256x128_1_0) bitsLt_bf16_f32 := by
    dsimp only [V, hostOps0]; after_results
  refine (congrFun h (ix2 o j)).trans ?_
  exact trunc_at _ _ _ (transpose_ix2_apply _ _ o j)

/-- The input gate's matrix, transposed. -/
theorem host_v25 (c : Dev nD) (o : Fin 256) (j : Fin 128) :
    (show FVec Ideal S256x128 .bf16 from V m c main_v25) (ix2 o j)
      = ((m ((c : Thread nD τ).loc main_arg17)) : S128x256.Idx → EReal) (ix2 j o) := by
  have h : (show FVec Ideal S256x128 .bf16 from V m c main_v25)
      = truncf (F := Ideal) .bf16 (transpose S256x128 [1, 0] (m ((c : Thread nD τ).loc main_arg17)) transposes_S128x256_S256x128_1_0) bitsLt_bf16_f32 := by
    dsimp only [V, hostOps0]; after_results
  refine (congrFun h (ix2 o j)).trans ?_
  exact trunc_at _ _ _ (transpose_ix2_apply _ _ o j)

/-- The update gate's matrix, transposed. -/
theorem host_v29 (c : Dev nD) (o : Fin 256) (j : Fin 128) :
    (show FVec Ideal S256x128 .bf16 from V m c main_v29) (ix2 o j)
      = ((m ((c : Thread nD τ).loc main_arg20)) : S128x256.Idx → EReal) (ix2 j o) := by
  have h : (show FVec Ideal S256x128 .bf16 from V m c main_v29)
      = truncf (F := Ideal) .bf16 (transpose S256x128 [1, 0] (m ((c : Thread nD τ).loc main_arg20)) transposes_S128x256_S256x128_1_0) bitsLt_bf16_f32 := by
    dsimp only [V, hostOps0]; after_results
  refine (congrFun h (ix2 o j)).trans ?_
  exact trunc_at _ _ _ (transpose_ix2_apply _ _ o j)

/-- The output gate's matrix, transposed. -/
theorem host_v33 (c : Dev nD) (o : Fin 256) (j : Fin 128) :
    (show FVec Ideal S256x128 .bf16 from V m c main_v33) (ix2 o j)
      = ((m ((c : Thread nD τ).loc main_arg23)) : S128x256.Idx → EReal) (ix2 j o) := by
  have h : (show FVec Ideal S256x128 .bf16 from V m c main_v33)
      = truncf (F := Ideal) .bf16 (transpose S256x128 [1, 0] (m ((c : Thread nD τ).loc main_arg23)) transposes_S128x256_S256x128_1_0) bitsLt_bf16_f32 := by
    dsimp only [V, hostOps0]; after_results
  refine (congrFun h (ix2 o j)).trans ?_
  exact trunc_at _ _ _ (transpose_ix2_apply _ _ o j)

/-- Bias vector 9 laid out as one row. -/
theorem host_v9 (c : Dev nD) (o : Fin 259) :
    (show FVec Ideal S1x259 .f32 from V m c main_v9) (ix2 (0 : Fin 1) o)
      = ((m ((c : Thread nD τ).loc main_arg9)) : S259.Idx → EReal) (ix1 o) := by
  have h : (show FVec Ideal S1x259 .f32 from V m c main_v9)
      = shapeCast S1x259 (m ((c : Thread nD τ).loc main_arg9)) shapeCasts_S259_S1x259 := by
    dsimp only [V, hostOps0]; after_results; try rfl
  refine (congrFun h (ix2 (0 : Fin 1) o)).trans ?_
  exact shapeCast_a_1a_apply _ _ (0 : Fin 1) o

/-- Bias vector 11 laid out as one row. -/
theorem host_v12 (c : Dev nD) (o : Fin 128) :
    (show FVec Ideal S1x128 .f32 from V m c main_v12) (ix2 (0 : Fin 1) o)
      = ((m ((c : Thread nD τ).loc main_arg11)) : S128.Idx → EReal) (ix1 o) := by
  have h : (show FVec Ideal S1x128 .f32 from V m c main_v12)
      = shapeCast S1x128 (m ((c : Thread nD τ).loc main_arg11)) shapeCasts_S128_S1x128 := by
    dsimp only [V, hostOps0]; after_results; try rfl
  refine (congrFun h (ix2 (0 : Fin 1) o)).trans ?_
  exact shapeCast_a_1a_apply _ _ (0 : Fin 1) o

/-- Bias vector 13 laid out as one row. -/
theorem host_v19 (c : Dev nD) (o : Fin 256) :
    (show FVec Ideal S1x256 .f32 from V m c main_v19) (ix2 (0 : Fin 1) o)
      = ((m ((c : Thread nD τ).loc main_arg13)) : S256.Idx → EReal) (ix1 o) := by
  have h : (show FVec Ideal S1x256 .f32 from V m c main_v19)
      = shapeCast S1x256 (m ((c : Thread nD τ).loc main_arg13)) shapeCasts_S256_S1x256 := by
    dsimp only [V, hostOps0]; after_results; try rfl
  refine (congrFun h (ix2 (0 : Fin 1) o)).trans ?_
  exact shapeCast_a_1a_apply _ _ (0 : Fin 1) o

/-- Bias vector 15 laid out as one row. -/
theorem host_v22 (c : Dev nD) (o : Fin 128) :
    (show FVec Ideal S1x128 .f32 from V m c main_v22) (ix2 (0 : Fin 1) o)
      = ((m ((c : Thread nD τ).loc main_arg15)) : S128.Idx → EReal) (ix1 o) := by
  have h : (show FVec Ideal S1x128 .f32 from V m c main_v22)
      = shapeCast S1x128 (m ((c : Thread nD τ).loc main_arg15)) shapeCasts_S128_S1x128 := by
    dsimp only [V, hostOps0]; after_results; try rfl
  refine (congrFun h (ix2 (0 : Fin 1) o)).trans ?_
  exact shapeCast_a_1a_apply _ _ (0 : Fin 1) o

/-- Bias vector 16 laid out as one row. -/
theorem host_v23 (c : Dev nD) (o : Fin 128) :
    (show FVec Ideal S1x128 .f32 from V m c main_v23) (ix2 (0 : Fin 1) o)
      = ((m ((c : Thread nD τ).loc main_arg16)) : S128.Idx → EReal) (ix1 o) := by
  have h : (show FVec Ideal S1x128 .f32 from V m c main_v23)
      = shapeCast S1x128 (m ((c : Thread nD τ).loc main_arg16)) shapeCasts_S128_S1x128 := by
    dsimp only [V, hostOps0]; after_results; try rfl
  refine (congrFun h (ix2 (0 : Fin 1) o)).trans ?_
  exact shapeCast_a_1a_apply _ _ (0 : Fin 1) o

/-- Bias vector 18 laid out as one row. -/
theorem host_v26 (c : Dev nD) (o : Fin 128) :
    (show FVec Ideal S1x128 .f32 from V m c main_v26) (ix2 (0 : Fin 1) o)
      = ((m ((c : Thread nD τ).loc main_arg18)) : S128.Idx → EReal) (ix1 o) := by
  have h : (show FVec Ideal S1x128 .f32 from V m c main_v26)
      = shapeCast S1x128 (m ((c : Thread nD τ).loc main_arg18)) shapeCasts_S128_S1x128 := by
    dsimp only [V, hostOps0]; after_results; try rfl
  refine (congrFun h (ix2 (0 : Fin 1) o)).trans ?_
  exact shapeCast_a_1a_apply _ _ (0 : Fin 1) o

/-- Bias vector 19 laid out as one row. -/
theorem host_v27 (c : Dev nD) (o : Fin 128) :
    (show FVec Ideal S1x128 .f32 from V m c main_v27) (ix2 (0 : Fin 1) o)
      = ((m ((c : Thread nD τ).loc main_arg19)) : S128.Idx → EReal) (ix1 o) := by
  have h : (show FVec Ideal S1x128 .f32 from V m c main_v27)
      = shapeCast S1x128 (m ((c : Thread nD τ).loc main_arg19)) shapeCasts_S128_S1x128 := by
    dsimp only [V, hostOps0]; after_results; try rfl
  refine (congrFun h (ix2 (0 : Fin 1) o)).trans ?_
  exact shapeCast_a_1a_apply _ _ (0 : Fin 1) o

/-- Bias vector 21 laid out as one row. -/
theorem host_v30 (c : Dev nD) (o : Fin 128) :
    (show FVec Ideal S1x128 .f32 from V m c main_v30) (ix2 (0 : Fin 1) o)
      = ((m ((c : Thread nD τ).loc main_arg21)) : S128.Idx → EReal) (ix1 o) := by
  have h : (show FVec Ideal S1x128 .f32 from V m c main_v30)
      = shapeCast S1x128 (m ((c : Thread nD τ).loc main_arg21)) shapeCasts_S128_S1x128 := by
    dsimp only [V, hostOps0]; after_results; try rfl
  refine (congrFun h (ix2 (0 : Fin 1) o)).trans ?_
  exact shapeCast_a_1a_apply _ _ (0 : Fin 1) o

/-- Bias vector 22 laid out as one row. -/
theorem host_v31 (c : Dev nD) (o : Fin 128) :
    (show FVec Ideal S1x128 .f32 from V m c main_v31) (ix2 (0 : Fin 1) o)
      = ((m ((c : Thread nD τ).loc main_arg22)) : S128.Idx → EReal) (ix1 o) := by
  have h : (show FVec Ideal S1x128 .f32 from V m c main_v31)
      = shapeCast S1x128 (m ((c : Thread nD τ).loc main_arg22)) shapeCasts_S128_S1x128 := by
    dsimp only [V, hostOps0]; after_results; try rfl
  refine (congrFun h (ix2 (0 : Fin 1) o)).trans ?_
  exact shapeCast_a_1a_apply _ _ (0 : Fin 1) o

/-- Bias vector 24 laid out as one row. -/
theorem host_v34 (c : Dev nD) (o : Fin 128) :
    (show FVec Ideal S1x128 .f32 from V m c main_v34) (ix2 (0 : Fin 1) o)
      = ((m ((c : Thread nD τ).loc main_arg24)) : S128.Idx → EReal) (ix1 o) := by
  have h : (show FVec Ideal S1x128 .f32 from V m c main_v34)
      = shapeCast S1x128 (m ((c : Thread nD τ).loc main_arg24)) shapeCasts_S128_S1x128 := by
    dsimp only [V, hostOps0]; after_results; try rfl
  refine (congrFun h (ix2 (0 : Fin 1) o)).trans ?_
  exact shapeCast_a_1a_apply _ _ (0 : Fin 1) o

/-- Bias vector 25 laid out as one row. -/
theorem host_v35 (c : Dev nD) (o : Fin 128) :
    (show FVec Ideal S1x128 .f32 from V m c main_v35) (ix2 (0 : Fin 1) o)
      = ((m ((c : Thread nD τ).loc main_arg25)) : S128.Idx → EReal) (ix1 o) := by
  have h : (show FVec Ideal S1x128 .f32 from V m c main_v35)
      = shapeCast S1x128 (m ((c : Thread nD τ).loc main_arg25)) shapeCasts_S128_S1x128 := by
    dsimp only [V, hostOps0]; after_results; try rfl
  refine (congrFun h (ix2 (0 : Fin 1) o)).trans ?_
  exact shapeCast_a_1a_apply _ _ (0 : Fin 1) o

end Cert.TreeLstm.Kernel

end
-- ==== Proof.LibDenseLayer.lean ====
/-
  One dense layer read at an entry, on a kernel's side and on the host's.

  A dense layer is a matrix product plus a bias. A kernel body prints it as a `tpu.matmul` into a zero accumulator
  with a one-row bias array `[1, N]` broadcast over the rows; jax on the host prints the bias as a vector `[N]`
  placed as the one row of `[1, N]` and that row repeated over the rows (two `broadcast_in_dim`s). At the extended
  reals both read, at `(p, c)`, the sum over the contracted coordinate of left `(p, k)` times right `(k, c)`, plus
  the bias at `c`. The matrix product's part is `Cert.Lib.PlainDot.sum_rows_cols` (this file imports that one; a
  host `dot_general` is that lemma after `Ideal.dotGeneral_apply`). Imports only the Idealize library besides.
-/
import proofs.«134373_j64622077935700_1_alg».proof.Proof.LibPlainDot
import Idealize.ShloMosaic.Lib.ValueLayout
import Idealize.ShloMosaic.Lib.Pipeline.Value
import Idealize.ShloMosaic.Lib.ValueIdx
import Idealize.ShloMosaic.PureOps.Ideal.Laws

noncomputable section

namespace Cert.Lib.DenseLayer

open Idealize.ShloMosaic Idealize.ShloMosaic.ValueIdx

/-! ## A kernel's layer: matmul into zero plus a broadcast bias row -/

/-- A matmul of `[M, K]` by `[K, N]` into the zero accumulator, plus a `[1, N]` row broadcast over the `M` rows,
    read at `(p, c)`: the sum over the contracted coordinate of left `(p, k)` times right `(k, c)`, plus the row's
    entry at `c`. The contraction record enters through the six facts of a plain matrix product. -/
theorem layer_apply {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (L : FVec Ideal ⟨2, ![M, K]⟩ φ₁) (R : FVec Ideal ⟨2, ![K, N]⟩ φ₂)
    (b : FVec Ideal ⟨2, ![1, N]⟩ .f32) (hb : (⟨2, ![1, N]⟩ : Shape).Broadcasts ⟨2, ![M, N]⟩) (p : Fin M) (c : Fin N) :
    addf (matmul D none L R (constant (F := Ideal) ⟨2, ![M, N]⟩ .f32 0x00000000#32)) (broadcastTo ⟨2, ![M, N]⟩ b hb) (ix2 p c)
      = (∑ k : Fin K, L (ix2 p k) * R (ix2 k c)) + b (ix2 (0 : Fin 1) c) := by
  rw [addf_apply, broadcastTo_1b_ab_apply]
  simp only [matmul]
  rw [Ideal.matmul_constant_zero_apply]
  exact congrArg (· + b (ix2 (0 : Fin 1) c)) (Cert.Lib.PlainDot.sum_rows_cols D hr hs hl0 hl1 hr0 hr1 L R (ix2 p c))

/-! ## The host's bias: a vector broadcast over the rows in two steps -/

/-- A vector `[N]` placed as the one row of `[1, N]` and that row repeated over `M` rows reads, at `(r, k)`, the
    vector at `k` (for `N ≠ 1`: a unit axis would be read at `0`, which is the same entry, but the library's
    lemma asks which case it is). -/
theorem bias_apply {α : Type} {M N : ℕ} (hN : N ≠ 1) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (k : Fin N) :
    broadcastInDim ⟨2, ![M, N]⟩ ![0, 1] h2 (broadcastInDim ⟨2, ![1, N]⟩ ![1] h1 b) (ix2 r k) = b (ix1 k) :=
  (broadcastInDim_apply ![0, 1] h2 _ (ix2 r k) (ix2 (⟨0, Nat.one_pos⟩ : Fin 1) k) (fun a => match a with
      | ⟨0, _⟩ => by show (0 : ℕ) = if (1 : ℕ) = 1 then 0 else r.val; rw [if_pos rfl]
      | ⟨1, _⟩ => by show k.val = if N = 1 then 0 else k.val; rw [if_neg hN])).trans
    (broadcastInDim_apply ![1] h1 b (ix2 (⟨0, Nat.one_pos⟩ : Fin 1) k) (ix1 k) (fun a => match a with
      | ⟨0, _⟩ => by show k.val = if N = 1 then 0 else k.val; rw [if_neg hN]))

end Cert.Lib.DenseLayer

end
-- ==== Proof.BodyNode.lean ====
/-
  The masked child sum of one node, read off the kernel body entry by entry.

  For child `k` of node `p` (row `p·16 + k` of the flattened block) the body rectifies the edge function's first layer,
  applies the second layer and its bias to get the edge weight, multiplies the child's hidden row by it coordinate by
  coordinate, applies the node matrix column block by column block to (weighted hidden row, embedding row), adds the bias,
  and multiplies by the child's validity flag; the sum over the sixteen children is what the gates read.
-/
import proofs.«134373_j64622077935700_1_alg».proof.Proof.BodyEdge
import proofs.«134373_j64622077935700_1_alg».proof.Proof.LibDenseLayer

noncomputable section

namespace Cert.TreeLstm.Body

open Cert.KernelIdeal Cert.KernelIdeal.Gen Idealize.ShloMosaic Idealize.ShloMosaic.ValueIdx

/-- Entry `(p, o)` of the masked child sum, as a function of the blocks and of the first layer's three shares. -/
theorem child_sum (x0 x2 : FVec Ideal S128x16x128 .f32) (x6 : FVec Ideal S128x16 .f32) (v21 : FVec Ideal S1x259 .f32)
    (v24 v25 : FVec Ideal S2048x259 .f32) (x12 : FVec Ideal S259x128 .bf16) (x13 : FVec Ideal S1x128 .f32)
    (x14 x15 : FVec Ideal S128x256 .bf16) (x16 : FVec Ideal S1x256 .f32) (p : Fin 128) (o : Fin 256) :
    k0_pay7 (F := Ideal) x0 x2 x6 v21 v24 v25 x12 x13 x14 x15 x16 (ix2 p o)
      = ∑ k : Fin 16,
          (((∑ f : Fin 128, (x0 (ix3 p k f)
                * ((∑ q : Fin 259, max ((v24 (ix2 (row p k) q) + v25 (ix2 (row p k) q)) + v21 (ix2 (0 : Fin 1) q)) 0
                      * x12 (ix2 q f))
                    + x13 (ix2 (0 : Fin 1) f))) * x14 (ix2 f o))
            + (∑ f : Fin 128, x2 (ix3 p k f) * x15 (ix2 f o))) + x16 (ix2 (0 : Fin 1) o)) * x6 (ix2 p k) := by
  unfold k0_pay7
  refine trunc_at _ _ _ ?_
  refine (Cert.Lib.MidAxis.sum_mid_apply _ _ _ _ p o).trans (Finset.sum_congr rfl fun k _ => ?_)
  refine mul_at _ _ _ ?_ (Cert.Lib.MidAxis.flag_col_apply x6 _ _ p k o)
  refine (Cert.Lib.MidAxis.cast_rc_abc _ _ p k o (row p k) rfl).trans ?_
  refine add_at _ _ _ (add_at _ _ _ ?_ ?_) ?_
  · refine (mm_NL _ _ (row p k) o).trans (Finset.sum_congr rfl fun f _ => congrArg₂ (· * ·) ?_ ?_)
    · refine trunc_at _ _ _ (mul_at _ _ _ (Cert.Lib.MidAxis.cast_abc_rc x0 _ p k f (row p k) rfl) ?_)
      refine (Cert.Lib.DenseLayer.layer_apply dot_S2048x259_S259x128_S2048x128_1_0_0_1_n_n rfl rfl
    (fun j q => by
      unfold DotDims.lhsIdx
      rw [dif_neg (show ¬(0 : Fin S2048x259.rank) ∈ dot_S2048x259_S259x128_S2048x128_1_0_0_1_n_n.lhsBatch by decide),
        dif_pos (show (0 : Fin S2048x259.rank) ∈ dot_S2048x259_S259x128_S2048x128_1_0_0_1_n_n.lhsNonContracting by decide)]
      rfl)
    (fun j q => dot_S2048x259_S259x128_S2048x128_1_0_0_1_n_n.lhsIdx_val_of_single rfl j q)
    (fun j q => dot_S2048x259_S259x128_S2048x128_1_0_0_1_n_n.rhsIdx_val_of_single rfl j q)
    (fun j q => by
      unfold DotDims.rhsIdx
      rw [dif_neg (show ¬(1 : Fin S259x128.rank) ∈ dot_S2048x259_S259x128_S2048x128_1_0_0_1_n_n.rhsBatch by decide),
        dif_pos (show (1 : Fin S259x128.rank) ∈ dot_S2048x259_S259x128_S2048x128_1_0_0_1_n_n.rhsNonContracting by decide)]
      rfl)
        _ _ _ _ (row p k) f).trans
        (congrArg₂ (· + ·) (Finset.sum_congr rfl fun q _ => congrArg₂ (· * ·) ?_ ?_) ?_)
      · refine trunc_at _ _ _ (max_at _ _ _ (add_at _ _ _ rfl (broadcastTo_1b_ab_apply v21 _ (row p k) q)) ?_)
        exact Ideal.ofBits_zero_f32
      · exact congrFun (shapeCast_self x12 _) (ix2 q f)
      · exact congrFun (shapeCast_self x13 _) (ix2 (0 : Fin 1) f)
    · exact congrFun (shapeCast_self x14 _) (ix2 f o)
  · refine (mm_NL _ _ (row p k) o).trans (Finset.sum_congr rfl fun f _ => congrArg₂ (· * ·) ?_ ?_)
    · exact trunc_at _ _ _ (Cert.Lib.MidAxis.cast_abc_rc x2 _ p k f (row p k) rfl)
    · exact congrFun (shapeCast_self x15 _) (ix2 f o)
  · exact (broadcastTo_1b_ab_apply _ _ (row p k) o).trans (congrFun (shapeCast_self x16 _) (ix2 (0 : Fin 1) o))

end Cert.TreeLstm.Body

end
-- ==== Proof.BodyGates.lean ====
/-
  The four gates, the masked memory sum and the two results of one node, read off the kernel body entry by entry.

  Each gate is a matrix applied to the node's child sum plus two bias rows, under the logistic function (forget, input,
  output) or the hyperbolic tangent (update). The new memory is input · update + forget · (masked sum of the children's
  memories); the new hidden row is output · tanh(new memory).
-/
import proofs.«134373_j64622077935700_1_alg».proof.Proof.BodyEdge
import proofs.«134373_j64622077935700_1_alg».proof.Proof.LibDenseLayer

noncomputable section

namespace Cert.TreeLstm.Body

open Cert.KernelIdeal Cert.KernelIdeal.Gen Idealize.ShloMosaic Idealize.ShloMosaic.ValueIdx

theorem logistic_at {s : Shape} {φ : FTy} (a : FVec Ideal s φ) (i : s.Idx) {x : EReal} (ha : a i = x) :
    logistic a i = Ideal.logistic x := by
  show Ideal.logistic (a i) = _
  rw [ha]

theorem tanh_at {s : Shape} {φ : FTy} (a : FVec Ideal s φ) (i : s.Idx) {x : EReal} (ha : a i = x) :
    tanh a i = Ideal.tanh x := by
  show Ideal.tanh (a i) = _
  rw [ha]

/-- A gate's argument at node `p`, unit `j`: the matrix against the child sum, plus the two bias rows. -/
theorem gate_arg (hs : FVec Ideal S128x256 .bf16) (w : FVec Ideal S256x128 .bf16) (b b' : FVec Ideal S1x128 .f32)
    (p j : Fin 128) :
    addf (addf (matmul dot_S128x256_S256x128_S128x128_1_0_0_1_n_n none hs w (constant (F := Ideal) S128x128 .f32 0x00000000#32))
        (broadcastTo S128x128 b broadcasts_S1x128_S128x128)) (broadcastTo S128x128 b' broadcasts_S1x128_S128x128) (ix2 p j)
      = ((∑ o : Fin 256, hs (ix2 p o) * w (ix2 o j)) + b (ix2 (0 : Fin 1) j)) + b' (ix2 (0 : Fin 1) j) :=
  add_at _ _ _
    (Cert.Lib.DenseLayer.layer_apply dot_S128x256_S256x128_S128x128_1_0_0_1_n_n rfl rfl
    (fun j q => by
      unfold DotDims.lhsIdx
      rw [dif_neg (show ¬(0 : Fin S128x256.rank) ∈ dot_S128x256_S256x128_S128x128_1_0_0_1_n_n.lhsBatch by decide),
        dif_pos (show (0 : Fin S128x256.rank) ∈ dot_S128x256_S256x128_S128x128_1_0_0_1_n_n.lhsNonContracting by decide)]
      rfl)
    (fun j q => dot_S128x256_S256x128_S128x128_1_0_0_1_n_n.lhsIdx_val_of_single rfl j q)
    (fun j q => dot_S128x256_S256x128_S128x128_1_0_0_1_n_n.rhsIdx_val_of_single rfl j q)
    (fun j q => by
      unfold DotDims.rhsIdx
      rw [dif_neg (show ¬(1 : Fin S256x128.rank) ∈ dot_S128x256_S256x128_S128x128_1_0_0_1_n_n.rhsBatch by decide),
        dif_pos (show (1 : Fin S256x128.rank) ∈ dot_S128x256_S256x128_S128x128_1_0_0_1_n_n.rhsNonContracting by decide)]
      rfl)
      hs w b broadcasts_S1x128_S128x128 p j)
    (broadcastTo_1b_ab_apply b' _ p j)

/-- The same with the two bias rows behind their identity casts. -/
theorem gate_arg_cast (hs : FVec Ideal S128x256 .bf16) (w : FVec Ideal S256x128 .bf16) (b b' : FVec Ideal S1x128 .f32)
    (p j : Fin 128) :
    addf (addf (matmul dot_S128x256_S256x128_S128x128_1_0_0_1_n_n none hs w (constant (F := Ideal) S128x128 .f32 0x00000000#32))
        (broadcastTo S128x128 (shapeCast S1x128 b shapeCasts_S1x128_S1x128) broadcasts_S1x128_S128x128))
        (broadcastTo S128x128 (shapeCast S1x128 b' shapeCasts_S1x128_S1x128) broadcasts_S1x128_S128x128) (ix2 p j)
      = ((∑ o : Fin 256, hs (ix2 p o) * w (ix2 o j)) + b (ix2 (0 : Fin 1) j)) + b' (ix2 (0 : Fin 1) j) := by
  rw [shapeCast_self b, shapeCast_self b']
  exact gate_arg hs w b b' p j

/-- The forget gate. -/
theorem gate_f (hs : FVec Ideal S128x256 .bf16) (w : FVec Ideal S256x128 .bf16) (b b' : FVec Ideal S1x128 .f32)
    (p j : Fin 128) :
    k0_pay9 (F := Ideal) hs w b b' (ix2 p j)
      = Ideal.logistic (((∑ o : Fin 256, hs (ix2 p o) * w (ix2 o j)) + b (ix2 (0 : Fin 1) j)) + b' (ix2 (0 : Fin 1) j)) := by
  unfold k0_pay9
  exact logistic_at _ _ (gate_arg_cast hs w b b' p j)

/-- The input gate (its matrix behind an identity cast). -/
theorem gate_i (hs : FVec Ideal S128x256 .bf16) (w : FVec Ideal S256x128 .bf16) (b b' : FVec Ideal S1x128 .f32)
    (p j : Fin 128) :
    k0_pay10 (F := Ideal) hs w b b' (ix2 p j)
      = Ideal.logistic (((∑ o : Fin 256, hs (ix2 p o) * w (ix2 o j)) + b (ix2 (0 : Fin 1) j)) + b' (ix2 (0 : Fin 1) j)) := by
  unfold k0_pay10
  rw [shapeCast_self w]
  exact logistic_at _ _ (gate_arg_cast hs w b b' p j)

/-- The update gate. -/
theorem gate_u (hs : FVec Ideal S128x256 .bf16) (w : FVec Ideal S256x128 .bf16) (b b' : FVec Ideal S1x128 .f32)
    (p j : Fin 128) :
    k0_pay11 (F := Ideal) hs w b b' (ix2 p j)
      = Ideal.tanh (((∑ o : Fin 256, hs (ix2 p o) * w (ix2 o j)) + b (ix2 (0 : Fin 1) j)) + b' (ix2 (0 : Fin 1) j)) := by
  unfold k0_pay11
  rw [shapeCast_self w]
  exact tanh_at _ _ (gate_arg_cast hs w b b' p j)

/-- The forget and output gates' matrices and the output gate's first bias row pass through identity casts. -/
theorem pay8_eq (w : FVec Ideal S256x128 .bf16) : k0_pay8 (F := Ideal) w = w := by
  unfold k0_pay8; exact shapeCast_self w _

theorem pay12_eq (w : FVec Ideal S256x128 .bf16) : k0_pay12 (F := Ideal) w = w := by
  unfold k0_pay12; exact shapeCast_self w _

theorem pay13_eq (b : FVec Ideal S1x128 .f32) : k0_pay13 (F := Ideal) b = b := by
  unfold k0_pay13; exact shapeCast_self b _

/-- The masked sum of the children's memory rows. -/
theorem mem_sum (x1 : FVec Ideal S128x16x128 .f32) (x7 : FVec Ideal S128x16 .f32) (p j : Fin 128) :
    k0_pay6 (F := Ideal) x1 x7 (ix2 p j) = ∑ k : Fin 16, x1 (ix3 p k j) * x7 (ix2 p k) := by
  unfold k0_pay6
  exact (Cert.Lib.MidAxis.sum_mid_apply _ _ _ _ p j).trans
    (Finset.sum_congr rfl fun k _ => mul_at _ _ _ rfl (Cert.Lib.MidAxis.flag_col_apply x7 _ _ p k j))

/-- The new memory: input · update + forget · memory sum. -/
theorem mem_new (cs f i u : FVec Ideal S128x128 .f32) (y : S128x128.Idx) :
    k0_pay1 (F := Ideal) cs f i u y = i y * u y + f y * cs y := rfl

/-- The new hidden row: the output gate times the hyperbolic tangent of the new memory. -/
theorem hid_new (cs : FVec Ideal S128x128 .f32) (hs : FVec Ideal S128x256 .bf16) (f i u : FVec Ideal S128x128 .f32)
    (w : FVec Ideal S256x128 .bf16) (b b' : FVec Ideal S1x128 .f32) (p j : Fin 128) :
    k0_pay2 (F := Ideal) cs hs f i u w b b' (ix2 p j)
      = Ideal.logistic (((∑ o : Fin 256, hs (ix2 p o) * w (ix2 o j)) + b (ix2 (0 : Fin 1) j)) + b' (ix2 (0 : Fin 1) j))
          * Ideal.tanh (k0_pay1 (F := Ideal) cs f i u (ix2 p j)) := by
  unfold k0_pay2
  refine mul_at _ _ _ (logistic_at _ _ ?_) (tanh_at _ _ rfl)
  rw [shapeCast_self b']
  exact gate_arg hs w b b' p j

end Cert.TreeLstm.Body

end
-- ==== Proof.LibTileSum.lean ====
/-
  Sums cut into equal tiles, and a nonnegative real factor moved across a finite sum of extended reals.

  * `sum_mul_coe`: on the extended reals a finite sum times a nonnegative REAL is the sum of the products. (Multiplying by
    such a factor is additive even where the summands are infinite of both signs: `(⊤ + ⊥) * c = ⊥ = ⊤ * c + ⊥ * c`.)
  * `sum_tiles`: a sequence of length `N` laid out in `T` tiles of `B` places each (`N ≤ T * B`), the places past `N`
    reading zero, sums tile by tile to the plain sum of the sequence — in any additive commutative monoid.
  * `pow_two_coe`: the real power with exponent `2` of a real base is the product of the base with itself.
-/
import Idealize.ShloMosaic.PureOps.Ideal
import Mathlib.Algebra.BigOperators.Fin
import Mathlib.Logic.Equiv.Fin.Basic

noncomputable section

namespace Cert.Lib.TileSum

open Idealize.ShloMosaic

/-- A finite sum of extended reals times a nonnegative real is the sum of the products. -/
theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- The places of a tiled sequence past its length read zero, so the tiles' sums add up to the sequence's sum. -/
theorem sum_tiles {M : Type*} [AddCommMonoid M] (T B N : ℕ) (hN : N ≤ T * B) (g : ℕ → M) :
    ∑ t : Fin T, ∑ r : Fin B, (if t.val * B + r.val < N then g (t.val * B + r.val) else 0)
      = ∑ n : Fin N, g n.val := by
  have h1 : ∑ t : Fin T, ∑ r : Fin B, (if t.val * B + r.val < N then g (t.val * B + r.val) else 0)
      = ∑ p : Fin T × Fin B, (fun n : Fin (T * B) => if n.val < N then g n.val else 0) (finProdFinEquiv p) := by
    rw [Fintype.sum_prod_type]
    refine Finset.sum_congr rfl fun t _ => Finset.sum_congr rfl fun r _ => ?_
    have e : (finProdFinEquiv (t, r)).val = t.val * B + r.val := by
      show r.val + B * t.val = _
      rw [Nat.mul_comm, Nat.add_comm]
    simp only [e]
  rw [h1, Equiv.sum_comp finProdFinEquiv (fun n : Fin (T * B) => if n.val < N then g n.val else 0),
    Fin.sum_univ_eq_sum_range (fun n => if n < N then g n else 0) (T * B),
    Fin.sum_univ_eq_sum_range (fun n => g n) N, ← Finset.sum_filter]
  refine Finset.sum_congr ?_ fun _ _ => rfl
  ext n
  simp only [Finset.mem_filter, Finset.mem_range]
  omega

/-- The real power of a real base with exponent `2`, read on the extended reals, is the base times itself. -/
theorem pow_two_coe (y : ℝ) : Ideal.pow (y : EReal) ((2 : ℝ) : EReal) = (y : EReal) * (y : EReal) := by
  rw [Ideal.pow_coe_coe, ← EReal.coe_mul]
  congr 1
  show y ^ (2 : ℝ) = y * y
  rw [Real.rpow_two, sq]

end Cert.Lib.TileSum

end
-- ==== Proof.Spec.lean ====
/-
  One node of a child-sum tree LSTM cell whose children are weighted by a learned edge function, as a function on the
  extended reals, and the two laws that make two spellings of it equal.

  A node has sixteen children. Child `k` carries a hidden row `h k`, a memory row `c k`, an embedding row `emb k`, the
  two endpoint embeddings `src k`, `dst k` and three edge-type entries `et k`, and two validity flags `mh k`, `mc k`.
    * edge hidden layer      hid k o  = max (Σ_e src k e · ws o e + Σ_e dst k e · wd o e + Σ_e et k e · we o e + b1 o) 0
    * edge weight            ew k j   = Σ_o hid k o · w2 j o + b2 j
    * child pre-activation   pre k o  = Σ_f (h k f · ew k f) · wh o f + Σ_f emb k f · wm o f + nb o
    * masked child sum       hs o     = Σ_k pre k o · mh k
    * a gate's argument      g j      = Σ_o hs o · w j o + b j + bias j
    * memory                 c' j     = σ(g_i j) · tanh(g_u j) + σ(g_f j) · Σ_k c k j · mc k
    * hidden                 h' j     = σ(g_o j) · tanh(c' j)
  The weights are taken column block by column block (`ws`, `wd`, `we` the three column blocks of the first edge matrix,
  `wh`, `wm` the two of the node matrix): a product with a row that is a concatenation is the sum of the products with its
  pieces (`sum_three`, `sum_two`). The forget gate is a logistic value, a real in [0, 1], so it may be taken inside the
  sum over the children even where a summand is infinite (`logistic_mul_sum`).
-/
import Idealize.ShloMosaic.PureOps.Ideal
import Idealize.ShloMosaic.PureOps.Ideal.Laws
import Mathlib.Algebra.BigOperators.Fin
import proofs.«134373_j64622077935700_1_alg».proof.Proof.LibTileSum

noncomputable section

namespace Cert.TreeLstm

open Idealize.ShloMosaic

/-- The cell's parameters, each matrix as a function of (output coordinate, input coordinate). -/
@[ext] structure Weights where
  ws : Fin 259 → Fin 128 → EReal
  wd : Fin 259 → Fin 128 → EReal
  we : Fin 259 → Fin 3 → EReal
  b1 : Fin 259 → EReal
  w2 : Fin 128 → Fin 259 → EReal
  b2 : Fin 128 → EReal
  wh : Fin 256 → Fin 128 → EReal
  wm : Fin 256 → Fin 128 → EReal
  nb : Fin 256 → EReal
  gf : Fin 128 → Fin 256 → EReal
  f1 : Fin 128 → EReal
  f2 : Fin 128 → EReal
  gi : Fin 128 → Fin 256 → EReal
  i1 : Fin 128 → EReal
  i2 : Fin 128 → EReal
  gu : Fin 128 → Fin 256 → EReal
  u1 : Fin 128 → EReal
  u2 : Fin 128 → EReal
  go : Fin 128 → Fin 256 → EReal
  o1 : Fin 128 → EReal
  o2 : Fin 128 → EReal

/-- One node's data: its sixteen children's rows and flags. -/
@[ext] structure Node where
  h : Fin 16 → Fin 128 → EReal
  c : Fin 16 → Fin 128 → EReal
  emb : Fin 16 → Fin 128 → EReal
  src : Fin 16 → Fin 128 → EReal
  dst : Fin 16 → Fin 128 → EReal
  et : Fin 16 → Fin 3 → EReal
  mh : Fin 16 → EReal
  mc : Fin 16 → EReal

/-- The edge function's hidden layer for child `k`, rectified. -/
def edgeHid (W : Weights) (X : Node) (k : Fin 16) (o : Fin 259) : EReal :=
  max ((((∑ e : Fin 128, X.src k e * W.ws o e) + (∑ e : Fin 128, X.dst k e * W.wd o e))
    + (∑ e : Fin 3, X.et k e * W.we o e)) + W.b1 o) 0

/-- The learned weight of child `k`'s hidden row, coordinate by coordinate. -/
def edgeW (W : Weights) (X : Node) (k : Fin 16) (j : Fin 128) : EReal :=
  (∑ o : Fin 259, edgeHid W X k o * W.w2 j o) + W.b2 j

/-- Child `k`'s contribution before masking: the node matrix applied to (weighted hidden row, embedding row). -/
def nodePre (W : Weights) (X : Node) (k : Fin 16) (o : Fin 256) : EReal :=
  ((∑ f : Fin 128, (X.h k f * edgeW W X k f) * W.wh o f) + (∑ f : Fin 128, X.emb k f * W.wm o f)) + W.nb o

/-- The masked sum over the children. -/
def hSum (W : Weights) (X : Node) (o : Fin 256) : EReal := ∑ k : Fin 16, nodePre W X k o * X.mh k

/-- A gate's argument: a matrix applied to the child sum, plus two biases. -/
def gate (W : Weights) (X : Node) (w : Fin 128 → Fin 256 → EReal) (b bias : Fin 128 → EReal) (j : Fin 128) : EReal :=
  ((∑ o : Fin 256, hSum W X o * w j o) + b j) + bias j

/-- The masked sum of the children's memory rows. -/
def cSum (X : Node) (j : Fin 128) : EReal := ∑ k : Fin 16, X.c k j * X.mc k

/-- The node's new memory row. -/
def nodeC (W : Weights) (X : Node) (j : Fin 128) : EReal :=
  Ideal.logistic (gate W X W.gi W.i1 W.i2 j) * Ideal.tanh (gate W X W.gu W.u1 W.u2 j)
    + Ideal.logistic (gate W X W.gf W.f1 W.f2 j) * cSum X j

/-- The node's new hidden row. -/
def nodeH (W : Weights) (X : Node) (j : Fin 128) : EReal :=
  Ideal.logistic (gate W X W.go W.o1 W.o2 j) * Ideal.tanh (nodeC W X j)

/-! ## A sum over a concatenated axis is the sum of the pieces' sums -/

/-- 259 places are 128, then 128, then 3. -/
theorem sum_three {M : Type*} [AddCommMonoid M] (g : Fin 259 → M) :
    ∑ e : Fin 259, g e
      = ((∑ e : Fin 128, g ⟨e.val, by omega⟩) + (∑ e : Fin 128, g ⟨128 + e.val, by omega⟩))
        + (∑ e : Fin 3, g ⟨256 + e.val, by omega⟩) := by
  have h := Fin.sum_univ_add (a := 128 + 128) (b := 3) (fun i : Fin (128 + 128 + 3) => g ⟨i.val, by omega⟩)
  have h' := Fin.sum_univ_add (a := 128) (b := 128)
    (fun i : Fin (128 + 128) => g ⟨(Fin.castAdd 3 i).val, by have := i.isLt; simp only [Fin.coe_castAdd]; omega⟩)
  exact h.trans (congrArg₂ (· + ·) h' rfl)

/-- 256 places are 128, then 128. -/
theorem sum_two {M : Type*} [AddCommMonoid M] (g : Fin 256 → M) :
    ∑ f : Fin 256, g f = (∑ f : Fin 128, g ⟨f.val, by omega⟩) + (∑ f : Fin 128, g ⟨128 + f.val, by omega⟩) :=
  Fin.sum_univ_add (a := 128) (b := 128) (fun i : Fin (128 + 128) => g ⟨i.val, by omega⟩)

/-! ## The logistic function's values are reals in [0, 1] -/

/-- Every logistic value is a nonnegative real: 0 at -∞, 1 at +∞, 1 / (1 + e^(-r)) at a real r. -/
theorem logistic_eq_coe (x : EReal) : ∃ r : ℝ, 0 ≤ r ∧ Ideal.logistic x = (r : EReal) := by
  induction x using EReal.rec with
  | bot => exact ⟨0, le_refl _, by rw [Ideal.logistic_bot]; rfl⟩
  | coe r => exact ⟨(1 + Real.exp (-r))⁻¹, inv_nonneg.mpr (by positivity), Ideal.logistic_coe r⟩
  | top => exact ⟨1, zero_le_one, by rw [Ideal.logistic_top]; rfl⟩

/-- So a logistic factor distributes over a finite sum of extended reals, infinite summands of both signs included. -/
theorem logistic_mul_sum {ι : Type*} [Fintype ι] (x : EReal) (a : ι → EReal) :
    Ideal.logistic x * ∑ k, a k = ∑ k, Ideal.logistic x * a k := by
  obtain ⟨r, hr, e⟩ := logistic_eq_coe x
  rw [e, mul_comm, Cert.Lib.TileSum.sum_mul_coe Finset.univ a r hr]
  exact Finset.sum_congr rfl fun k _ => mul_comm _ _

/-- The host's spelling of the logistic function: one over one plus the exponential of the negation. -/
theorem logistic_spelt (x : EReal) : Ideal.div 1 (1 + Ideal.exp (-x)) = Ideal.logistic x := rfl

/-- The word 0x3F800000 is the real one. -/
theorem ofBits_one_f32 : Ideal.ofBits .f32 0x3F800000#32 = 1 := by
  simp [Ideal.ofBits, Ideal.ieee, -EReal.coe_mul]; norm_num

end Cert.TreeLstm

end
-- ==== Proof.BodyOut.lean ====
/-
  What one grid point's body leaves in its two output blocks is the cell's function of the point's input blocks.

  The body loads each of its 29 input blocks whole and stores each result block whole, so a result block is its stored
  value. Row `p` of the block belongs to node `p` of the point's 128 nodes; the weights arrive transposed (input coordinate
  first) and the biases as one-row arrays, which is how `bodyW` reads them into the cell's parameters.
-/
import proofs.«134373_j64622077935700_1_alg».proof.Proof.FrameKernelIdealP
import proofs.«134373_j64622077935700_1_alg».proof.Proof.BodyNode
import proofs.«134373_j64622077935700_1_alg».proof.Proof.BodyGates
import proofs.«134373_j64622077935700_1_alg».proof.Proof.Spec

noncomputable section

namespace Cert.TreeLstm.Body

open Cert.KernelIdeal Cert.KernelIdeal.Gen Cert.KernelIdeal.GenP Idealize.ShloMosaic Idealize.ShloMosaic.ValueIdx

/-- The cell's parameters as the body's weight and bias blocks give them: matrices transposed, biases in one row. -/
def bodyW (x8 x9 : FVec Ideal S128x259 .bf16) (x10 : FVec Ideal S3x259 .bf16) (x11 : FVec Ideal S1x259 .f32)
    (x12 : FVec Ideal S259x128 .bf16) (x13 : FVec Ideal S1x128 .f32) (x14 x15 : FVec Ideal S128x256 .bf16)
    (x16 : FVec Ideal S1x256 .f32) (x17 : FVec Ideal S256x128 .bf16) (x18 x19 : FVec Ideal S1x128 .f32)
    (x20 : FVec Ideal S256x128 .bf16) (x21 x22 : FVec Ideal S1x128 .f32) (x23 : FVec Ideal S256x128 .bf16)
    (x24 x25 : FVec Ideal S1x128 .f32) (x26 : FVec Ideal S256x128 .bf16) (x27 x28 : FVec Ideal S1x128 .f32) : Weights where
  ws o e := x8 (ix2 e o)
  wd o e := x9 (ix2 e o)
  we o e := x10 (ix2 e o)
  b1 o := x11 (ix2 (0 : Fin 1) o)
  w2 j o := x12 (ix2 o j)
  b2 j := x13 (ix2 (0 : Fin 1) j)
  wh o f := x14 (ix2 f o)
  wm o f := x15 (ix2 f o)
  nb o := x16 (ix2 (0 : Fin 1) o)
  gf j o := x17 (ix2 o j)
  f1 j := x18 (ix2 (0 : Fin 1) j)
  f2 j := x19 (ix2 (0 : Fin 1) j)
  gi j o := x20 (ix2 o j)
  i1 j := x21 (ix2 (0 : Fin 1) j)
  i2 j := x22 (ix2 (0 : Fin 1) j)
  gu j o := x23 (ix2 o j)
  u1 j := x24 (ix2 (0 : Fin 1) j)
  u2 j := x25 (ix2 (0 : Fin 1) j)
  go j o := x26 (ix2 o j)
  o1 j := x27 (ix2 (0 : Fin 1) j)
  o2 j := x28 (ix2 (0 : Fin 1) j)

/-- Node `p` of a point's 128 nodes, as the point's eight data blocks give it. -/
def bodyX (x0 x1 x2 x3 x4 : FVec Ideal S128x16x128 .f32) (x5 : FVec Ideal S128x16x3 .f32) (x6 x7 : FVec Ideal S128x16 .f32) (p : Fin 128) : Node where
  h k e := x0 (ix3 p k e)
  c k e := x1 (ix3 p k e)
  emb k e := x2 (ix3 p k e)
  src k e := x3 (ix3 p k e)
  dst k e := x4 (ix3 p k e)
  et k e := x5 (ix3 p k e)
  mh k := x6 (ix2 p k)
  mc k := x7 (ix2 p k)

theorem hz2 : (![0, 0] : Fin 2 → Nat) = fun _ => 0 := funext fun a => by fin_cases a <;> rfl
theorem hz3 : (![0, 0, 0] : Fin 3 → Nat) = fun _ => 0 := funext fun a => by fin_cases a <;> rfl

/-- The body's masked child sum is the cell's. -/
theorem hsum_body (x0 x1 x2 x3 x4 : FVec Ideal S128x16x128 .f32) (x5 : FVec Ideal S128x16x3 .f32) (x6 x7 : FVec Ideal S128x16 .f32)
    (x8 x9 : FVec Ideal S128x259 .bf16) (x10 : FVec Ideal S3x259 .bf16) (x11 : FVec Ideal S1x259 .f32)
    (x12 : FVec Ideal S259x128 .bf16) (x13 : FVec Ideal S1x128 .f32) (x14 x15 : FVec Ideal S128x256 .bf16)
    (x16 : FVec Ideal S1x256 .f32) (x17 : FVec Ideal S256x128 .bf16) (x18 x19 : FVec Ideal S1x128 .f32)
    (x20 : FVec Ideal S256x128 .bf16) (x21 x22 : FVec Ideal S1x128 .f32) (x23 : FVec Ideal S256x128 .bf16)
    (x24 x25 : FVec Ideal S1x128 .f32) (x26 : FVec Ideal S256x128 .bf16) (x27 x28 : FVec Ideal S1x128 .f32) (p : Fin 128) (o : Fin 256) :
    k0_pay7 (F := Ideal) x0 x2 x6 (k0_pay3 x11) (k0_pay4 x3 x4 x8 x9) (k0_pay5 x5 x10) x12 x13 x14 x15 x16 (ix2 p o)
      = hSum (bodyW x8 x9 x10 x11 x12 x13 x14 x15 x16 x17 x18 x19 x20 x21 x22 x23 x24 x25 x26 x27 x28) (bodyX x0 x1 x2 x3 x4 x5 x6 x7 p) o := by
  rw [child_sum, edge_bias]
  unfold hSum
  refine Finset.sum_congr rfl fun k _ => ?_
  simp only [edge_main, edge_type]
  rfl

/-- The second output block (the new memory), entry `(p, j)`. -/
theorem out30_apply (x0 x1 x2 x3 x4 : FVec Ideal S128x16x128 .f32) (x5 : FVec Ideal S128x16x3 .f32) (x6 x7 : FVec Ideal S128x16 .f32)
    (x8 x9 : FVec Ideal S128x259 .bf16) (x10 : FVec Ideal S3x259 .bf16) (x11 : FVec Ideal S1x259 .f32)
    (x12 : FVec Ideal S259x128 .bf16) (x13 : FVec Ideal S1x128 .f32) (x14 x15 : FVec Ideal S128x256 .bf16)
    (x16 : FVec Ideal S1x256 .f32) (x17 : FVec Ideal S256x128 .bf16) (x18 x19 : FVec Ideal S1x128 .f32)
    (x20 : FVec Ideal S256x128 .bf16) (x21 x22 : FVec Ideal S1x128 .f32) (x23 : FVec Ideal S256x128 .bf16)
    (x24 x25 : FVec Ideal S1x128 .f32) (x26 : FVec Ideal S256x128 .bf16) (x27 x28 : FVec Ideal S1x128 .f32) (p j : Fin 128) :
    out0_30 (F := Ideal) x0 x1 x2 x3 x4 x5 x6 x7 x8 x9 x10 x11 x12 x13 x14 x15 x16 x17 x18 x19 x20 x21 x22 x23 x24 x25 x26 x27 x28 (ix2 p j)
      = nodeC (bodyW x8 x9 x10 x11 x12 x13 x14 x15 x16 x17 x18 x19 x20 x21 x22 x23 x24 x25 x26 x27 x28) (bodyX x0 x1 x2 x3 x4 x5 x6 x7 p) j := by
  unfold out0_30
  rw [View.canon_unit_zero hz2]
  simp only [View.ld_unit_zero (S := S128x16x128) hz3,
    View.ld_unit_zero (S := S128x16x3) hz3,
    View.ld_unit_zero (S := S128x16) hz2,
    View.ld_unit_zero (S := S128x259) hz2,
    View.ld_unit_zero (S := S3x259) hz2,
    View.ld_unit_zero (S := S1x259) hz2,
    View.ld_unit_zero (S := S259x128) hz2,
    View.ld_unit_zero (S := S1x128) hz2,
    View.ld_unit_zero (S := S128x256) hz2,
    View.ld_unit_zero (S := S1x256) hz2,
    View.ld_unit_zero (S := S256x128) hz2]
  rw [mem_new, gate_i, gate_u, gate_f, mem_sum, pay8_eq]
  simp only [hsum_body x0 x1 x2 x3 x4 x5 x6 x7 x8 x9 x10 x11 x12 x13 x14 x15 x16 x17 x18 x19 x20 x21 x22 x23 x24 x25 x26 x27 x28 p]
  rfl

/-- The first output block (the new hidden row), entry `(p, j)`. -/
theorem out29_apply (x0 x1 x2 x3 x4 : FVec Ideal S128x16x128 .f32) (x5 : FVec Ideal S128x16x3 .f32) (x6 x7 : FVec Ideal S128x16 .f32)
    (x8 x9 : FVec Ideal S128x259 .bf16) (x10 : FVec Ideal S3x259 .bf16) (x11 : FVec Ideal S1x259 .f32)
    (x12 : FVec Ideal S259x128 .bf16) (x13 : FVec Ideal S1x128 .f32) (x14 x15 : FVec Ideal S128x256 .bf16)
    (x16 : FVec Ideal S1x256 .f32) (x17 : FVec Ideal S256x128 .bf16) (x18 x19 : FVec Ideal S1x128 .f32)
    (x20 : FVec Ideal S256x128 .bf16) (x21 x22 : FVec Ideal S1x128 .f32) (x23 : FVec Ideal S256x128 .bf16)
    (x24 x25 : FVec Ideal S1x128 .f32) (x26 : FVec Ideal S256x128 .bf16) (x27 x28 : FVec Ideal S1x128 .f32) (p j : Fin 128) :
    out0_29 (F := Ideal) x0 x1 x2 x3 x4 x5 x6 x7 x8 x9 x10 x11 x12 x13 x14 x15 x16 x17 x18 x19 x20 x21 x22 x23 x24 x25 x26 x27 x28 (ix2 p j)
      = nodeH (bodyW x8 x9 x10 x11 x12 x13 x14 x15 x16 x17 x18 x19 x20 x21 x22 x23 x24 x25 x26 x27 x28) (bodyX x0 x1 x2 x3 x4 x5 x6 x7 p) j := by
  unfold out0_29
  rw [View.canon_unit_zero hz2]
  simp only [View.ld_unit_zero (S := S128x16x128) hz3,
    View.ld_unit_zero (S := S128x16x3) hz3,
    View.ld_unit_zero (S := S128x16) hz2,
    View.ld_unit_zero (S := S128x259) hz2,
    View.ld_unit_zero (S := S3x259) hz2,
    View.ld_unit_zero (S := S1x259) hz2,
    View.ld_unit_zero (S := S259x128) hz2,
    View.ld_unit_zero (S := S1x128) hz2,
    View.ld_unit_zero (S := S128x256) hz2,
    View.ld_unit_zero (S := S1x256) hz2,
    View.ld_unit_zero (S := S256x128) hz2]
  rw [hid_new, pay12_eq, pay13_eq, mem_new, gate_i, gate_u, gate_f, mem_sum, pay8_eq]
  simp only [hsum_body x0 x1 x2 x3 x4 x5 x6 x7 x8 x9 x10 x11 x12 x13 x14 x15 x16 x17 x18 x19 x20 x21 x22 x23 x24 x25 x26 x27 x28 p]
  rfl

end Cert.TreeLstm.Body

end
-- ==== Proof.KernelBlocks.lean ====
/-
  Each window's block at a grid point as a piece of an array.

  The grid has 128 points; point `t` handles nodes `128·t … 128·t + 127`. The eight data windows move with the point along
  the node axis (block index `(t, 0, 0)` or `(t, 0)`); the 21 parameter windows stay at block `(0, 0)`, which is their whole
  array. So the parameters a point's body sees are the same at every point — the argument arrays' — and node `p` of point
  `t` is node `128·t + p` of the arrays.
-/
import proofs.«134373_j64622077935700_1_alg».proof.Proof.KernelHost
import proofs.«134373_j64622077935700_1_alg».proof.Proof.BodyOut

noncomputable section

namespace Cert.TreeLstm.Kernel

open Cert.KernelIdeal Cert.KernelIdeal.Gen Cert.KernelIdeal.GenP Idealize.ShloMosaic Idealize.ShloMosaic.ValueIdx
open Idealize.ShloMosaic.TcCoe Idealize.SL.Sem
open Cert.TreeLstm.Body (bodyW bodyX)

variable (m : (ℓ : Loc nD τ sig) → Buf (Elt Ideal) ℓ)

/-- Node `p` of grid point `t`, as a row of the arrays. -/
abbrev node (t : Fin cfg0.N) (p : Fin 128) : Fin 16384 :=
  ⟨t.val * 128 + p.val, by have := t.isLt; have hN : cfg0.N = 128 := N_0; have := p.isLt; omega⟩

/-! ## The windows' block indices, decided over the 128 points -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 2) = 0 ∧ win0_15.index t (1 : Fin 2) = 0 :=
  (by decide +kernel : ∀ t : Fin grid0.N, _)
theorem idx16 : ∀ t : Fin cfg0.N, win0_16.index t (0 : Fin 2) = 0 ∧ win0_16.index t (1 : Fin 2) = 0 :=
  (by decide +kernel : ∀ t : Fin grid0.N, _)
theorem idx17 : ∀ t : Fin cfg0.N, win0_17.index t (0 : Fin 2) = 0 ∧ win0_17.index t (1 : Fin 2) = 0 :=
  (by decide +kernel : ∀ t : Fin grid0.N, _)
theorem idx18 : ∀ t : Fin cfg0.N, win0_18.index t (0 : Fin 2) = 0 ∧ win0_18.index t (1 : Fin 2) = 0 :=
  (by decide +kernel : ∀ t : Fin grid0.N, _)
theorem idx19 : ∀ t : Fin cfg0.N, win0_19.index t (0 : Fin 2) = 0 ∧ win0_19.index t (1 : Fin 2) = 0 :=
  (by decide +kernel : ∀ t : Fin grid0.N, _)
theorem idx20 : ∀ t : Fin cfg0.N, win0_20.index t (0 : Fin 2) = 0 ∧ win0_20.index t (1 : Fin 2) = 0 :=
  (by decide +kernel : ∀ t : Fin grid0.N, _)
theorem idx21 : ∀ t : Fin cfg0.N, win0_21.index t (0 : Fin 2) = 0 ∧ win0_21.index t (1 : Fin 2) = 0 :=
  (by decide +kernel : ∀ t : Fin grid0.N, _)
theorem idx22 : ∀ t : Fin cfg0.N, win0_22.index t (0 : Fin 2) = 0 ∧ win0_22.index t (1 : Fin 2) = 0 :=
  (by decide +kernel : ∀ t : Fin grid0.N, _)
theorem idx23 : ∀ t : Fin cfg0.N, win0_23.index t (0 : Fin 2) = 0 ∧ win0_23.index t (1 : Fin 2) = 0 :=
  (by decide +kernel : ∀ t : Fin grid0.N, _)
theorem idx24 : ∀ t : Fin cfg0.N, win0_24.index t (0 : Fin 2) = 0 ∧ win0_24.index t (1 : Fin 2) = 0 :=
  (by decide +kernel : ∀ t : Fin grid0.N, _)
theorem idx25 : ∀ t : Fin cfg0.N, win0_25.index t (0 : Fin 2) = 0 ∧ win0_25.index t (1 : Fin 2) = 0 :=
  (by decide +kernel : ∀ t : Fin grid0.N, _)
theorem idx26 : ∀ t : Fin cfg0.N, win0_26.index t (0 : Fin 2) = 0 ∧ win0_26.index t (1 : Fin 2) = 0 :=
  (by decide +kernel : ∀ t : Fin grid0.N, _)
theorem idx27 : ∀ t : Fin cfg0.N, win0_27.index t (0 : Fin 2) = 0 ∧ win0_27.index t (1 : Fin 2) = 0 :=
  (by decide +kernel : ∀ t : Fin grid0.N, _)
theorem idx28 : ∀ t : Fin cfg0.N, win0_28.index t (0 : Fin 2) = 0 ∧ win0_28.index t (1 : Fin 2) = 0 :=
  (by decide +kernel : ∀ t : Fin grid0.N, _)
theorem idx29 : ∀ t : Fin cfg0.N, win0_29.index t (0 : Fin 2) = t.val ∧ win0_29.index t (1 : Fin 2) = 0 :=
  (by decide +kernel : ∀ t : Fin grid0.N, _)
theorem idx30 : ∀ t : Fin cfg0.N, win0_30.index t (0 : Fin 2) = t.val ∧ win0_30.index t (1 : Fin 2) = 0 :=
  (by decide +kernel : ∀ t : Fin grid0.N, _)

/-! ## A point's input blocks, each at its literal vector type -/

/-- Window 0's block at point `t`. -/
abbrev inB0 (c : Dev nD) (t : Fin cfg0.N) : FVec Ideal S128x16x128 .f32 := iblk m c 0 t
/-- Window 1's block at point `t`. -/
abbrev inB1 (c : Dev nD) (t : Fin cfg0.N) : FVec Ideal S128x16x128 .f32 := iblk m c 1 t
/-- Window 2's block at point `t`. -/
abbrev inB2 (c : Dev nD) (t : Fin cfg0.N) : FVec Ideal S128x16x128 .f32 := iblk m c 2 t
/-- Window 3's block at point `t`. -/
abbrev inB3 (c : Dev nD) (t : Fin cfg0.N) : FVec Ideal S128x16x128 .f32 := iblk m c 3 t
/-- Window 4's block at point `t`. -/
abbrev inB4 (c : Dev nD) (t : Fin cfg0.N) : FVec Ideal S128x16x128 .f32 := iblk m c 4 t
/-- Window 5's block at point `t`. -/
abbrev inB5 (c : Dev nD) (t : Fin cfg0.N) : FVec Ideal S128x16x3 .f32 := iblk m c 5 t
/-- Window 6's block at point `t`. -/
abbrev inB6 (c : Dev nD) (t : Fin cfg0.N) : FVec Ideal S128x16 .f32 := iblk m c 6 t
/-- Window 7's block at point `t`. -/
abbrev inB7 (c : Dev nD) (t : Fin cfg0.N) : FVec Ideal S128x16 .f32 := iblk m c 7 t
/-- Window 8's block at point `t`. -/
abbrev inB8 (c : Dev nD) (t : Fin cfg0.N) : FVec Ideal S128x259 .bf16 := iblk m c 8 t
/-- Window 9's block at point `t`. -/
abbrev inB9 (c : Dev nD) (t : Fin cfg0.N) : FVec Ideal S128x259 .bf16 := iblk m c 9 t
/-- Window 10's block at point `t`. -/
abbrev inB10 (c : Dev nD) (t : Fin cfg0.N) : FVec Ideal S3x259 .bf16 := iblk m c 10 t
/-- Window 11's block at point `t`. -/
abbrev inB11 (c : Dev nD) (t : Fin cfg0.N) : FVec Ideal S1x259 .f32 := iblk m c 11 t
/-- Window 12's block at point `t`. -/
abbrev inB12 (c : Dev nD) (t : Fin cfg0.N) : FVec Ideal S259x128 .bf16 := iblk m c 12 t
/-- Window 13's block at point `t`. -/
abbrev inB13 (c : Dev nD) (t : Fin cfg0.N) : FVec Ideal S1x128 .f32 := iblk m c 13 t
/-- Window 14's block at point `t`. -/
abbrev inB14 (c : Dev nD) (t : Fin cfg0.N) : FVec Ideal S128x256 .bf16 := iblk m c 14 t
/-- Window 15's block at point `t`. -/
abbrev inB15 (c : Dev nD) (t : Fin cfg0.N) : FVec Ideal S128x256 .bf16 := iblk m c 15 t
/-- Window 16's block at point `t`. -/
abbrev inB16 (c : Dev nD) (t : Fin cfg0.N) : FVec Ideal S1x256 .f32 := iblk m c 16 t
/-- Window 17's block at point `t`. -/
abbrev inB17 (c : Dev nD) (t : Fin cfg0.N) : FVec Ideal S256x128 .bf16 := iblk m c 17 t
/-- Window 18's block at point `t`. -/
abbrev inB18 (c : Dev nD) (t : Fin cfg0.N) : FVec Ideal S1x128 .f32 := iblk m c 18 t
/-- Window 19's block at point `t`. -/
abbrev inB19 (c : Dev nD) (t : Fin cfg0.N) : FVec Ideal S1x128 .f32 := iblk m c 19 t
/-- Window 20's block at point `t`. -/
abbrev inB20 (c : Dev nD) (t : Fin cfg0.N) : FVec Ideal S256x128 .bf16 := iblk m c 20 t
/-- Window 21's block at point `t`. -/
abbrev inB21 (c : Dev nD) (t : Fin cfg0.N) : FVec Ideal S1x128 .f32 := iblk m c 21 t
/-- Window 22's block at point `t`. -/
abbrev inB22 (c : Dev nD) (t : Fin cfg0.N) : FVec Ideal S1x128 .f32 := iblk m c 22 t
/-- Window 23's block at point `t`. -/
abbrev inB23 (c : Dev nD) (t : Fin cfg0.N) : FVec Ideal S256x128 .bf16 := iblk m c 23 t
/-- Window 24's block at point `t`. -/
abbrev inB24 (c : Dev nD) (t : Fin cfg0.N) : FVec Ideal S1x128 .f32 := iblk m c 24 t
/-- Window 25's block at point `t`. -/
abbrev inB25 (c : Dev nD) (t : Fin cfg0.N) : FVec Ideal S1x128 .f32 := iblk m c 25 t
/-- Window 26's block at point `t`. -/
abbrev inB26 (c : Dev nD) (t : Fin cfg0.N) : FVec Ideal S256x128 .bf16 := iblk m c 26 t
/-- Window 27's block at point `t`. -/
abbrev inB27 (c : Dev nD) (t : Fin cfg0.N) : FVec Ideal S1x128 .f32 := iblk m c 27 t
/-- Window 28's block at point `t`. -/
abbrev inB28 (c : Dev nD) (t : Fin cfg0.N) : FVec Ideal S1x128 .f32 := iblk m c 28 t

/-! ## The blocks -/

/-- Window 0's block at point `t` is rows `128·t … 128·t + 127` of argument 0. -/
theorem blk0 (c : Dev nD) (t : Fin cfg0.N) (p : Fin 128) (k : Fin 16) (e : Fin 128) :
    inB0 m c t (ix3 p k e)
      = (m ((c : Thread nD τ).loc main_arg0) : S16384x16x128.Idx → EReal) (ix3 (node t p) k e) := by
  obtain ⟨h0, h1, h2⟩ := idx0 t
  show V m c main_arg0 (((cfg0.win 0).blk t).view.emb (ix3 p k e)) = _
  rw [V_main_arg0]
  refine congrArg (m ((c : Thread nD τ).loc main_arg0)) (funext fun a => Fin.ext ?_)
  match a with
  | ⟨0, _⟩ =>
    show win0_0.index t (0 : Fin 3) * 128 + 1 * p.val = t.val * 128 + p.val
    rw [h0]; omega
  | ⟨1, _⟩ =>
    show win0_0.index t (1 : Fin 3) * 16 + 1 * k.val = k.val
    rw [h1]; omega
  | ⟨2, _⟩ =>
    show win0_0.index t (2 : Fin 3) * 128 + 1 * e.val = e.val
    rw [h2]; omega

/-- Window 1's block at point `t` is rows `128·t … 128·t + 127` of argument 1. -/
theorem blk1 (c : Dev nD) (t : Fin cfg0.N) (p : Fin 128) (k : Fin 16) (e : Fin 128) :
    inB1 m c t (ix3 p k e)
      = (m ((c : Thread nD τ).loc main_arg1) : S16384x16x128.Idx → EReal) (ix3 (node t p) k e) := by
  obtain ⟨h0, h1, h2⟩ := idx1 t
  show V m c main_arg1 (((cfg0.win 1).blk t).view.emb (ix3 p k e)) = _
  rw [V_main_arg1]
  refine congrArg (m ((c : Thread nD τ).loc main_arg1)) (funext fun a => Fin.ext ?_)
  match a with
  | ⟨0, _⟩ =>
    show win0_1.index t (0 : Fin 3) * 128 + 1 * p.val = t.val * 128 + p.val
    rw [h0]; omega
  | ⟨1, _⟩ =>
    show win0_1.index t (1 : Fin 3) * 16 + 1 * k.val = k.val
    rw [h1]; omega
  | ⟨2, _⟩ =>
    show win0_1.index t (2 : Fin 3) * 128 + 1 * e.val = e.val
    rw [h2]; omega

/-- Window 2's block at point `t` is rows `128·t … 128·t + 127` of argument 2. -/
theorem blk2 (c : Dev nD) (t : Fin cfg0.N) (p : Fin 128) (k : Fin 16) (e : Fin 128) :
    inB2 m c t (ix3 p k e)
      = (m ((c : Thread nD τ).loc main_arg2) : S16384x16x128.Idx → EReal) (ix3 (node t p) k e) := by
  obtain ⟨h0, h1, h2⟩ := idx2 t
  show V m c main_arg2 (((cfg0.win 2).blk t).view.emb (ix3 p k e)) = _
  rw [V_main_arg2]
  refine congrArg (m ((c : Thread nD τ).loc main_arg2)) (funext fun a => Fin.ext ?_)
  match a with
  | ⟨0, _⟩ =>
    show win0_2.index t (0 : Fin 3) * 128 + 1 * p.val = t.val * 128 + p.val
    rw [h0]; omega
  | ⟨1, _⟩ =>
    show win0_2.index t (1 : Fin 3) * 16 + 1 * k.val = k.val
    rw [h1]; omega
  | ⟨2, _⟩ =>
    show win0_2.index t (2 : Fin 3) * 128 + 1 * e.val = e.val
    rw [h2]; omega

/-- Window 3's block at point `t` is rows `128·t … 128·t + 127` of argument 3. -/
theorem blk3 (c : Dev nD) (t : Fin cfg0.N) (p : Fin 128) (k : Fin 16) (e : Fin 128) :
    inB3 m c t (ix3 p k e)
      = (m ((c : Thread nD τ).loc main_arg3) : S16384x16x128.Idx → EReal) (ix3 (node t p) k e) := by
  obtain ⟨h0, h1, h2⟩ := idx3 t
  show V m c main_arg3 (((cfg0.win 3).blk t).view.emb (ix3 p k e)) = _
  rw [V_main_arg3]
  refine congrArg (m ((c : Thread nD τ).loc main_arg3)) (funext fun a => Fin.ext ?_)
  match a with
  | ⟨0, _⟩ =>
    show win0_3.index t (0 : Fin 3) * 128 + 1 * p.val = t.val * 128 + p.val
    rw [h0]; omega
  | ⟨1, _⟩ =>
    show win0_3.index t (1 : Fin 3) * 16 + 1 * k.val = k.val
    rw [h1]; omega
  | ⟨2, _⟩ =>
    show win0_3.index t (2 : Fin 3) * 128 + 1 * e.val = e.val
    rw [h2]; omega

/-- Window 4's block at point `t` is rows `128·t … 128·t + 127` of argument 4. -/
theorem blk4 (c : Dev nD) (t : Fin cfg0.N) (p : Fin 128) (k : Fin 16) (e : Fin 128) :
    inB4 m c t (ix3 p k e)
      = (m ((c : Thread nD τ).loc main_arg4) : S16384x16x128.Idx → EReal) (ix3 (node t p) k e) := by
  obtain ⟨h0, h1, h2⟩ := idx4 t
  show V m c main_arg4 (((cfg0.win 4).blk t).view.emb (ix3 p k e)) = _
  rw [V_main_arg4]
  refine congrArg (m ((c : Thread nD τ).loc main_arg4)) (funext fun a => Fin.ext ?_)
  match a with
  | ⟨0, _⟩ =>
    show win0_4.index t (0 : Fin 3) * 128 + 1 * p.val = t.val * 128 + p.val
    rw [h0]; omega
  | ⟨1, _⟩ =>
    show win0_4.index t (1 : Fin 3) * 16 + 1 * k.val = k.val
    rw [h1]; omega
  | ⟨2, _⟩ =>
    show win0_4.index t (2 : Fin 3) * 128 + 1 * e.val = e.val
    rw [h2]; omega

/-- Window 5's block at point `t` is rows `128·t … 128·t + 127` of argument 5. -/
theorem blk5 (c : Dev nD) (t : Fin cfg0.N) (p : Fin 128) (k : Fin 16) (e : Fin 3) :
    inB5 m c t (ix3 p k e)
      = (m ((c : Thread nD τ).loc main_arg5) : S16384x16x3.Idx → EReal) (ix3 (node t p) k e) := by
  obtain ⟨h0, h1, h2⟩ := idx5 t
  show V m c main_arg5 (((cfg0.win 5).blk t).view.emb (ix3 p k e)) = _
  rw [V_main_arg5]
  refine congrArg (m ((c : Thread nD τ).loc main_arg5)) (funext fun a => Fin.ext ?_)
  match a with
  | ⟨0, _⟩ =>
    show win0_5.index t (0 : Fin 3) * 128 + 1 * p.val = t.val * 128 + p.val
    rw [h0]; omega
  | ⟨1, _⟩ =>
    show win0_5.index t (1 : Fin 3) * 16 + 1 * k.val = k.val
    rw [h1]; omega
  | ⟨2, _⟩ =>
    show win0_5.index t (2 : Fin 3) * 3 + 1 * e.val = e.val
    rw [h2]; omega

/-- Window 6's block at point `t` is rows `128·t … 128·t + 127` of argument 6. -/
theorem blk6 (c : Dev nD) (t : Fin cfg0.N) (p : Fin 128) (k : Fin 16) :
    inB6 m c t (ix2 p k)
      = (m ((c : Thread nD τ).loc main_arg6) : S16384x16.Idx → EReal) (ix2 (node t p) k) := by
  obtain ⟨h0, h1⟩ := idx6 t
  show V m c main_arg6 (((cfg0.win 6).blk t).view.emb (ix2 p k)) = _
  rw [V_main_arg6]
  refine congrArg (m ((c : Thread nD τ).loc main_arg6)) (funext fun a => Fin.ext ?_)
  match a with
  | ⟨0, _⟩ =>
    show win0_6.index t (0 : Fin 2) * 128 + 1 * p.val = t.val * 128 + p.val
    rw [h0]; omega
  | ⟨1, _⟩ =>
    show win0_6.index t (1 : Fin 2) * 16 + 1 * k.val = k.val
    rw [h1]; omega

/-- Window 7's block at point `t` is rows `128·t … 128·t + 127` of argument 7. -/
theorem blk7 (c : Dev nD) (t : Fin cfg0.N) (p : Fin 128) (k : Fin 16) :
    inB7 m c t (ix2 p k)
      = (m ((c : Thread nD τ).loc main_arg7) : S16384x16.Idx → EReal) (ix2 (node t p) k) := by
  obtain ⟨h0, h1⟩ := idx7 t
  show V m c main_arg7 (((cfg0.win 7).blk t).view.emb (ix2 p k)) = _
  rw [V_main_arg7]
  refine congrArg (m ((c : Thread nD τ).loc main_arg7)) (funext fun a => Fin.ext ?_)
  match a with
  | ⟨0, _⟩ =>
    show win0_7.index t (0 : Fin 2) * 128 + 1 * p.val = t.val * 128 + p.val
    rw [h0]; omega
  | ⟨1, _⟩ =>
    show win0_7.index t (1 : Fin 2) * 16 + 1 * k.val = k.val
    rw [h1]; omega

/-- Window 8 stages its whole array at every point. -/
theorem blk8 (c : Dev nD) (t : Fin cfg0.N) (y : S128x259.Idx) :
    inB8 m c t y = (show FVec Ideal S128x259 .bf16 from V m c main_v2) y := by
  obtain ⟨h0, h1⟩ := idx8 t
  show V m c main_v2 (((cfg0.win 8).blk t).view.emb y) = V m c main_v2 y
  refine congrArg (V m c main_v2) (funext fun a => Fin.ext ?_)
  match a with
  | ⟨0, _⟩ =>
    show win0_8.index t (0 : Fin 2) * 128 + 1 * (y 0).val = (y 0).val
    rw [h0]; omega
  | ⟨1, _⟩ =>
    show win0_8.index t (1 : Fin 2) * 259 + 1 * (y 1).val = (y 1).val
    rw [h1]; omega

/-- Window 9 stages its whole array at every point. -/
theorem blk9 (c : Dev nD) (t : Fin cfg0.N) (y : S128x259.Idx) :
    inB9 m c t y = (show FVec Ideal S128x259 .bf16 from V m c main_v5) y := by
  obtain ⟨h0, h1⟩ := idx9 t
  show V m c main_v5 (((cfg0.win 9).blk t).view.emb y) = V m c main_v5 y
  refine congrArg (V m c main_v5) (funext fun a => Fin.ext ?_)
  match a with
  | ⟨0, _⟩ =>
    show win0_9.index t (0 : Fin 2) * 128 + 1 * (y 0).val = (y 0).val
    rw [h0]; omega
  | ⟨1, _⟩ =>
    show win0_9.index t (1 : Fin 2) * 259 + 1 * (y 1).val = (y 1).val
    rw [h1]; omega

/-- Window 10 stages its whole array at every point. -/
theorem blk10 (c : Dev nD) (t : Fin cfg0.N) (y : S3x259.Idx) :
    inB10 m c t y = (show FVec Ideal S3x259 .bf16 from V m c main_v8) y := by
  obtain ⟨h0, h1⟩ := idx10 t
  show V m c main_v8 (((cfg0.win 10).blk t).view.emb y) = V m c main_v8 y
  refine congrArg (V m c main_v8) (funext fun a => Fin.ext ?_)
  match a with
  | ⟨0, _⟩ =>
    show win0_10.index t (0 : Fin 2) * 3 + 1 * (y 0).val = (y 0).val
    rw [h0]; omega
  | ⟨1, _⟩ =>
    show win0_10.index t (1 : Fin 2) * 259 + 1 * (y 1).val = (y 1).val
    rw [h1]; omega

/-- Window 11 stages its whole array at every point. -/
theorem blk11 (c : Dev nD) (t : Fin cfg0.N) (y : S1x259.Idx) :
    inB11 m c t y = (show FVec Ideal S1x259 .f32 from V m c main_v9) y := by
  obtain ⟨h0, h1⟩ := idx11 t
  show V m c main_v9 (((cfg0.win 11).blk t).view.emb y) = V m c main_v9 y
  refine congrArg (V m c main_v9) (funext fun a => Fin.ext ?_)
  match a with
  | ⟨0, _⟩ =>
    show win0_11.index t (0 : Fin 2) * 1 + 1 * (y 0).val = (y 0).val
    rw [h0]; omega
  | ⟨1, _⟩ =>
    show win0_11.index t (1 : Fin 2) * 259 + 1 * (y 1).val = (y 1).val
    rw [h1]; omega

/-- Window 12 stages its whole array at every point. -/
theorem blk12 (c : Dev nD) (t : Fin cfg0.N) (y : S259x128.Idx) :
    inB12 m c t y = (show FVec Ideal S259x128 .bf16 from V m c main_v11) y := by
  obtain ⟨h0, h1⟩ := idx12 t
  show V m c main_v11 (((cfg0.win 12).blk t).view.emb y) = V m c main_v11 y
  refine congrArg (V m c main_v11) (funext fun a => Fin.ext ?_)
  match a with
  | ⟨0, _⟩ =>
    show win0_12.index t (0 : Fin 2) * 259 + 1 * (y 0).val = (y 0).val
    rw [h0]; omega
  | ⟨1, _⟩ =>
    show win0_12.index t (1 : Fin 2) * 128 + 1 * (y 1).val = (y 1).val
    rw [h1]; omega

/-- Window 13 stages its whole array at every point. -/
theorem blk13 (c : Dev nD) (t : Fin cfg0.N) (y : S1x128.Idx) :
    inB13 m c t y = (show FVec Ideal S1x128 .f32 from V m c main_v12) y := by
  obtain ⟨h0, h1⟩ := idx13 t
  show V m c main_v12 (((cfg0.win 13).blk t).view.emb y) = V m c main_v12 y
  refine congrArg (V m c main_v12) (funext fun a => Fin.ext ?_)
  match a with
  | ⟨0, _⟩ =>
    show win0_13.index t (0 : Fin 2) * 1 + 1 * (y 0).val = (y 0).val
    rw [h0]; omega
  | ⟨1, _⟩ =>
    show win0_13.index t (1 : Fin 2) * 128 + 1 * (y 1).val = (y 1).val
    rw [h1]; omega

/-- Window 14 stages its whole array at every point. -/
theorem blk14 (c : Dev nD) (t : Fin cfg0.N) (y : S128x256.Idx) :
    inB14 m c t y = (show FVec Ideal S128x256 .bf16 from V m c main_v15) y := by
  obtain ⟨h0, h1⟩ := idx14 t
  show V m c main_v15 (((cfg0.win 14).blk t).view.emb y) = V m c main_v15 y
  refine congrArg (V m c main_v15) (funext fun a => Fin.ext ?_)
  match a with
  | ⟨0, _⟩ =>
    show win0_14.index t (0 : Fin 2) * 128 + 1 * (y 0).val = (y 0).val
    rw [h0]; omega
  | ⟨1, _⟩ =>
    show win0_14.index t (1 : Fin 2) * 256 + 1 * (y 1).val = (y 1).val
    rw [h1]; omega

/-- Window 15 stages its whole array at every point. -/
theorem blk15 (c : Dev nD) (t : Fin cfg0.N) (y : S128x256.Idx) :
    inB15 m c t y = (show FVec Ideal S128x256 .bf16 from V m c main_v18) y := by
  obtain ⟨h0, h1⟩ := idx15 t
  show V m c main_v18 (((cfg0.win 15).blk t).view.emb y) = V m c main_v18 y
  refine congrArg (V m c main_v18) (funext fun a => Fin.ext ?_)
  match a with
  | ⟨0, _⟩ =>
    show win0_15.index t (0 : Fin 2) * 128 + 1 * (y 0).val = (y 0).val
    rw [h0]; omega
  | ⟨1, _⟩ =>
    show win0_15.index t (1 : Fin 2) * 256 + 1 * (y 1).val = (y 1).val
    rw [h1]; omega

/-- Window 16 stages its whole array at every point. -/
theorem blk16 (c : Dev nD) (t : Fin cfg0.N) (y : S1x256.Idx) :
    inB16 m c t y = (show FVec Ideal S1x256 .f32 from V m c main_v19) y := by
  obtain ⟨h0, h1⟩ := idx16 t
  show V m c main_v19 (((cfg0.win 16).blk t).view.emb y) = V m c main_v19 y
  refine congrArg (V m c main_v19) (funext fun a => Fin.ext ?_)
  match a with
  | ⟨0, _⟩ =>
    show win0_16.index t (0 : Fin 2) * 1 + 1 * (y 0).val = (y 0).val
    rw [h0]; omega
  | ⟨1, _⟩ =>
    show win0_16.index t (1 : Fin 2) * 256 + 1 * (y 1).val = (y 1).val
    rw [h1]; omega

/-- Window 17 stages its whole array at every point. -/
theorem blk17 (c : Dev nD) (t : Fin cfg0.N) (y : S256x128.Idx) :
    inB17 m c t y = (show FVec Ideal S256x128 .bf16 from V m c main_v21) y := by
  obtain ⟨h0, h1⟩ := idx17 t
  show V m c main_v21 (((cfg0.win 17).blk t).view.emb y) = V m c main_v21 y
  refine congrArg (V m c main_v21) (funext fun a => Fin.ext ?_)
  match a with
  | ⟨0, _⟩ =>
    show win0_17.index t (0 : Fin 2) * 256 + 1 * (y 0).val = (y 0).val
    rw [h0]; omega
  | ⟨1, _⟩ =>
    show win0_17.index t (1 : Fin 2) * 128 + 1 * (y 1).val = (y 1).val
    rw [h1]; omega

/-- Window 18 stages its whole array at every point. -/
theorem blk18 (c : Dev nD) (t : Fin cfg0.N) (y : S1x128.Idx) :
    inB18 m c t y = (show FVec Ideal S1x128 .f32 from V m c main_v22) y := by
  obtain ⟨h0, h1⟩ := idx18 t
  show V m c main_v22 (((cfg0.win 18).blk t).view.emb y) = V m c main_v22 y
  refine congrArg (V m c main_v22) (funext fun a => Fin.ext ?_)
  match a with
  | ⟨0, _⟩ =>
    show win0_18.index t (0 : Fin 2) * 1 + 1 * (y 0).val = (y 0).val
    rw [h0]; omega
  | ⟨1, _⟩ =>
    show win0_18.index t (1 : Fin 2) * 128 + 1 * (y 1).val = (y 1).val
    rw [h1]; omega

/-- Window 19 stages its whole array at every point. -/
theorem blk19 (c : Dev nD) (t : Fin cfg0.N) (y : S1x128.Idx) :
    inB19 m c t y = (show FVec Ideal S1x128 .f32 from V m c main_v23) y := by
  obtain ⟨h0, h1⟩ := idx19 t
  show V m c main_v23 (((cfg0.win 19).blk t).view.emb y) = V m c main_v23 y
  refine congrArg (V m c main_v23) (funext fun a => Fin.ext ?_)
  match a with
  | ⟨0, _⟩ =>
    show win0_19.index t (0 : Fin 2) * 1 + 1 * (y 0).val = (y 0).val
    rw [h0]; omega
  | ⟨1, _⟩ =>
    show win0_19.index t (1 : Fin 2) * 128 + 1 * (y 1).val = (y 1).val
    rw [h1]; omega

/-- Window 20 stages its whole array at every point. -/
theorem blk20 (c : Dev nD) (t : Fin cfg0.N) (y : S256x128.Idx) :
    inB20 m c t y = (show FVec Ideal S256x128 .bf16 from V m c main_v25) y := by
  obtain ⟨h0, h1⟩ := idx20 t
  show V m c main_v25 (((cfg0.win 20).blk t).view.emb y) = V m c main_v25 y
  refine congrArg (V m c main_v25) (funext fun a => Fin.ext ?_)
  match a with
  | ⟨0, _⟩ =>
    show win0_20.index t (0 : Fin 2) * 256 + 1 * (y 0).val = (y 0).val
    rw [h0]; omega
  | ⟨1, _⟩ =>
    show win0_20.index t (1 : Fin 2) * 128 + 1 * (y 1).val = (y 1).val
    rw [h1]; omega

/-- Window 21 stages its whole array at every point. -/
theorem blk21 (c : Dev nD) (t : Fin cfg0.N) (y : S1x128.Idx) :
    inB21 m c t y = (show FVec Ideal S1x128 .f32 from V m c main_v26) y := by
  obtain ⟨h0, h1⟩ := idx21 t
  show V m c main_v26 (((cfg0.win 21).blk t).view.emb y) = V m c main_v26 y
  refine congrArg (V m c main_v26) (funext fun a => Fin.ext ?_)
  match a with
  | ⟨0, _⟩ =>
    show win0_21.index t (0 : Fin 2) * 1 + 1 * (y 0).val = (y 0).val
    rw [h0]; omega
  | ⟨1, _⟩ =>
    show win0_21.index t (1 : Fin 2) * 128 + 1 * (y 1).val = (y 1).val
    rw [h1]; omega

/-- Window 22 stages its whole array at every point. -/
theorem blk22 (c : Dev nD) (t : Fin cfg0.N) (y : S1x128.Idx) :
    inB22 m c t y = (show FVec Ideal S1x128 .f32 from V m c main_v27) y := by
  obtain ⟨h0, h1⟩ := idx22 t
  show V m c main_v27 (((cfg0.win 22).blk t).view.emb y) = V m c main_v27 y
  refine congrArg (V m c main_v27) (funext fun a => Fin.ext ?_)
  match a with
  | ⟨0, _⟩ =>
    show win0_22.index t (0 : Fin 2) * 1 + 1 * (y 0).val = (y 0).val
    rw [h0]; omega
  | ⟨1, _⟩ =>
    show win0_22.index t (1 : Fin 2) * 128 + 1 * (y 1).val = (y 1).val
    rw [h1]; omega

/-- Window 23 stages its whole array at every point. -/
theorem blk23 (c : Dev nD) (t : Fin cfg0.N) (y : S256x128.Idx) :
    inB23 m c t y = (show FVec Ideal S256x128 .bf16 from V m c main_v29) y := by
  obtain ⟨h0, h1⟩ := idx23 t
  show V m c main_v29 (((cfg0.win 23).blk t).view.emb y) = V m c main_v29 y
  refine congrArg (V m c main_v29) (funext fun a => Fin.ext ?_)
  match a with
  | ⟨0, _⟩ =>
    show win0_23.index t (0 : Fin 2) * 256 + 1 * (y 0).val = (y 0).val
    rw [h0]; omega
  | ⟨1, _⟩ =>
    show win0_23.index t (1 : Fin 2) * 128 + 1 * (y 1).val = (y 1).val
    rw [h1]; omega

/-- Window 24 stages its whole array at every point. -/
theorem blk24 (c : Dev nD) (t : Fin cfg0.N) (y : S1x128.Idx) :
    inB24 m c t y = (show FVec Ideal S1x128 .f32 from V m c main_v30) y := by
  obtain ⟨h0, h1⟩ := idx24 t
  show V m c main_v30 (((cfg0.win 24).blk t).view.emb y) = V m c main_v30 y
  refine congrArg (V m c main_v30) (funext fun a => Fin.ext ?_)
  match a with
  | ⟨0, _⟩ =>
    show win0_24.index t (0 : Fin 2) * 1 + 1 * (y 0).val = (y 0).val
    rw [h0]; omega
  | ⟨1, _⟩ =>
    show win0_24.index t (1 : Fin 2) * 128 + 1 * (y 1).val = (y 1).val
    rw [h1]; omega

/-- Window 25 stages its whole array at every point. -/
theorem blk25 (c : Dev nD) (t : Fin cfg0.N) (y : S1x128.Idx) :
    inB25 m c t y = (show FVec Ideal S1x128 .f32 from V m c main_v31) y := by
  obtain ⟨h0, h1⟩ := idx25 t
  show V m c main_v31 (((cfg0.win 25).blk t).view.emb y) = V m c main_v31 y
  refine congrArg (V m c main_v31) (funext fun a => Fin.ext ?_)
  match a with
  | ⟨0, _⟩ =>
    show win0_25.index t (0 : Fin 2) * 1 + 1 * (y 0).val = (y 0).val
    rw [h0]; omega
  | ⟨1, _⟩ =>
    show win0_25.index t (1 : Fin 2) * 128 + 1 * (y 1).val = (y 1).val
    rw [h1]; omega

/-- Window 26 stages its whole array at every point. -/
theorem blk26 (c : Dev nD) (t : Fin cfg0.N) (y : S256x128.Idx) :
    inB26 m c t y = (show FVec Ideal S256x128 .bf16 from V m c main_v33) y := by
  obtain ⟨h0, h1⟩ := idx26 t
  show V m c main_v33 (((cfg0.win 26).blk t).view.emb y) = V m c main_v33 y
  refine congrArg (V m c main_v33) (funext fun a => Fin.ext ?_)
  match a with
  | ⟨0, _⟩ =>
    show win0_26.index t (0 : Fin 2) * 256 + 1 * (y 0).val = (y 0).val
    rw [h0]; omega
  | ⟨1, _⟩ =>
    show win0_26.index t (1 : Fin 2) * 128 + 1 * (y 1).val = (y 1).val
    rw [h1]; omega

/-- Window 27 stages its whole array at every point. -/
theorem blk27 (c : Dev nD) (t : Fin cfg0.N) (y : S1x128.Idx) :
    inB27 m c t y = (show FVec Ideal S1x128 .f32 from V m c main_v34) y := by
  obtain ⟨h0, h1⟩ := idx27 t
  show V m c main_v34 (((cfg0.win 27).blk t).view.emb y) = V m c main_v34 y
  refine congrArg (V m c main_v34) (funext fun a => Fin.ext ?_)
  match a with
  | ⟨0, _⟩ =>
    show win0_27.index t (0 : Fin 2) * 1 + 1 * (y 0).val = (y 0).val
    rw [h0]; omega
  | ⟨1, _⟩ =>
    show win0_27.index t (1 : Fin 2) * 128 + 1 * (y 1).val = (y 1).val
    rw [h1]; omega

/-- Window 28 stages its whole array at every point. -/
theorem blk28 (c : Dev nD) (t : Fin cfg0.N) (y : S1x128.Idx) :
    inB28 m c t y = (show FVec Ideal S1x128 .f32 from V m c main_v35) y := by
  obtain ⟨h0, h1⟩ := idx28 t
  show V m c main_v35 (((cfg0.win 28).blk t).view.emb y) = V m c main_v35 y
  refine congrArg (V m c main_v35) (funext fun a => Fin.ext ?_)
  match a with
  | ⟨0, _⟩ =>
    show win0_28.index t (0 : Fin 2) * 1 + 1 * (y 0).val = (y 0).val
    rw [h0]; omega
  | ⟨1, _⟩ =>
    show win0_28.index t (1 : Fin 2) * 128 + 1 * (y 1).val = (y 1).val
    rw [h1]; omega

/-! ## The argument arrays as launched, each at its literal index type -/

/-- Argument 0 on core `c`. -/
abbrev argA0 (c : Dev nD) : (⟨3, ![16384, 16, 128]⟩ : Shape).Idx → EReal := m ((c : Thread nD τ).loc main_arg0)
/-- Argument 1 on core `c`. -/
abbrev argA1 (c : Dev nD) : (⟨3, ![16384, 16, 128]⟩ : Shape).Idx → EReal := m ((c : Thread nD τ).loc main_arg1)
/-- Argument 2 on core `c`. -/
abbrev argA2 (c : Dev nD) : (⟨3, ![16384, 16, 128]⟩ : Shape).Idx → EReal := m ((c : Thread nD τ).loc main_arg2)
/-- Argument 3 on core `c`. -/
abbrev argA3 (c : Dev nD) : (⟨3, ![16384, 16, 128]⟩ : Shape).Idx → EReal := m ((c : Thread nD τ).loc main_arg3)
/-- Argument 4 on core `c`. -/
abbrev argA4 (c : Dev nD) : (⟨3, ![16384, 16, 128]⟩ : Shape).Idx → EReal := m ((c : Thread nD τ).loc main_arg4)
/-- Argument 5 on core `c`. -/
abbrev argA5 (c : Dev nD) : (⟨3, ![16384, 16, 3]⟩ : Shape).Idx → EReal := m ((c : Thread nD τ).loc main_arg5)
/-- Argument 6 on core `c`. -/
abbrev argA6 (c : Dev nD) : (⟨2, ![16384, 16]⟩ : Shape).Idx → EReal := m ((c : Thread nD τ).loc main_arg6)
/-- Argument 7 on core `c`. -/
abbrev argA7 (c : Dev nD) : (⟨2, ![16384, 16]⟩ : Shape).Idx → EReal := m ((c : Thread nD τ).loc main_arg7)
/-- Argument 8 on core `c`. -/
abbrev argA8 (c : Dev nD) : (⟨2, ![259, 259]⟩ : Shape).Idx → EReal := m ((c : Thread nD τ).loc main_arg8)
/-- Argument 9 on core `c`. -/
abbrev argA9 (c : Dev nD) : (⟨1, ![259]⟩ : Shape).Idx → EReal := m ((c : Thread nD τ).loc main_arg9)
/-- Argument 10 on core `c`. -/
abbrev argA10 (c : Dev nD) : (⟨2, ![128, 259]⟩ : Shape).Idx → EReal := m ((c : Thread nD τ).loc main_arg10)
/-- Argument 11 on core `c`. -/
abbrev argA11 (c : Dev nD) : (⟨1, ![128]⟩ : Shape).Idx → EReal := m ((c : Thread nD τ).loc main_arg11)
/-- Argument 12 on core `c`. -/
abbrev argA12 (c : Dev nD) : (⟨2, ![256, 256]⟩ : Shape).Idx → EReal := m ((c : Thread nD τ).loc main_arg12)
/-- Argument 13 on core `c`. -/
abbrev argA13 (c : Dev nD) : (⟨1, ![256]⟩ : Shape).Idx → EReal := m ((c : Thread nD τ).loc main_arg13)
/-- Argument 14 on core `c`. -/
abbrev argA14 (c : Dev nD) : (⟨2, ![128, 256]⟩ : Shape).Idx → EReal := m ((c : Thread nD τ).loc main_arg14)
/-- Argument 15 on core `c`. -/
abbrev argA15 (c : Dev nD) : (⟨1, ![128]⟩ : Shape).Idx → EReal := m ((c : Thread nD τ).loc main_arg15)
/-- Argument 16 on core `c`. -/
abbrev argA16 (c : Dev nD) : (⟨1, ![128]⟩ : Shape).Idx → EReal := m ((c : Thread nD τ).loc main_arg16)
/-- Argument 17 on core `c`. -/
abbrev argA17 (c : Dev nD) : (⟨2, ![128, 256]⟩ : Shape).Idx → EReal := m ((c : Thread nD τ).loc main_arg17)
/-- Argument 18 on core `c`. -/
abbrev argA18 (c : Dev nD) : (⟨1, ![128]⟩ : Shape).Idx → EReal := m ((c : Thread nD τ).loc main_arg18)
/-- Argument 19 on core `c`. -/
abbrev argA19 (c : Dev nD) : (⟨1, ![128]⟩ : Shape).Idx → EReal := m ((c : Thread nD τ).loc main_arg19)
/-- Argument 20 on core `c`. -/
abbrev argA20 (c : Dev nD) : (⟨2, ![128, 256]⟩ : Shape).Idx → EReal := m ((c : Thread nD τ).loc main_arg20)
/-- Argument 21 on core `c`. -/
abbrev argA21 (c : Dev nD) : (⟨1, ![128]⟩ : Shape).Idx → EReal := m ((c : Thread nD τ).loc main_arg21)
/-- Argument 22 on core `c`. -/
abbrev argA22 (c : Dev nD) : (⟨1, ![128]⟩ : Shape).Idx → EReal := m ((c : Thread nD τ).loc main_arg22)
/-- Argument 23 on core `c`. -/
abbrev argA23 (c : Dev nD) : (⟨2, ![128, 256]⟩ : Shape).Idx → EReal := m ((c : Thread nD τ).loc main_arg23)
/-- Argument 24 on core `c`. -/
abbrev argA24 (c : Dev nD) : (⟨1, ![128]⟩ : Shape).Idx → EReal := m ((c : Thread nD τ).loc main_arg24)
/-- Argument 25 on core `c`. -/
abbrev argA25 (c : Dev nD) : (⟨1, ![128]⟩ : Shape).Idx → EReal := m ((c : Thread nD τ).loc main_arg25)

end Cert.TreeLstm.Kernel

end
-- ==== Proof.SpecArr.lean ====
/-
  The cell over whole argument arrays: node `n`'s data are row `n` of the eight data arrays, and the parameters are the
  twenty weight and bias arrays read as (output coordinate, input coordinate). The first edge matrix `[259, 259]` is
  read in its three column blocks (columns 0–127 against the source embedding, 128–255 against the destination
  embedding, 256–258 against the edge type), the node matrix `[256, 256]` in its two (columns 0–127 against the
  weighted hidden row, 128–255 against the embedding row).
-/
import proofs.«134373_j64622077935700_1_alg».proof.Proof.Spec
import Idealize.ShloMosaic.Lib.ValueIdx

noncomputable section

namespace Cert.TreeLstm

open Idealize.ShloMosaic Idealize.ShloMosaic.ValueIdx

/-- The parameters as the program's arguments 8 … 25 give them. -/
def refW (a8 : (⟨2, ![259, 259]⟩ : Shape).Idx → EReal) (a9 : (⟨1, ![259]⟩ : Shape).Idx → EReal)
    (a10 : (⟨2, ![128, 259]⟩ : Shape).Idx → EReal) (a11 : (⟨1, ![128]⟩ : Shape).Idx → EReal)
    (a12 : (⟨2, ![256, 256]⟩ : Shape).Idx → EReal) (a13 : (⟨1, ![256]⟩ : Shape).Idx → EReal)
    (a14 : (⟨2, ![128, 256]⟩ : Shape).Idx → EReal) (a15 a16 : (⟨1, ![128]⟩ : Shape).Idx → EReal)
    (a17 : (⟨2, ![128, 256]⟩ : Shape).Idx → EReal) (a18 a19 : (⟨1, ![128]⟩ : Shape).Idx → EReal)
    (a20 : (⟨2, ![128, 256]⟩ : Shape).Idx → EReal) (a21 a22 : (⟨1, ![128]⟩ : Shape).Idx → EReal)
    (a23 : (⟨2, ![128, 256]⟩ : Shape).Idx → EReal) (a24 a25 : (⟨1, ![128]⟩ : Shape).Idx → EReal) : Weights where
  ws o e := a8 (ix2 o (⟨e.val, by omega⟩ : Fin 259))
  wd o e := a8 (ix2 o (⟨128 + e.val, by omega⟩ : Fin 259))
  we o e := a8 (ix2 o (⟨256 + e.val, by omega⟩ : Fin 259))
  b1 o := a9 (ix1 o)
  w2 j o := a10 (ix2 j o)
  b2 j := a11 (ix1 j)
  wh o f := a12 (ix2 o (⟨f.val, by omega⟩ : Fin 256))
  wm o f := a12 (ix2 o (⟨128 + f.val, by omega⟩ : Fin 256))
  nb o := a13 (ix1 o)
  gf j o := a14 (ix2 j o)
  f1 j := a15 (ix1 j)
  f2 j := a16 (ix1 j)
  gi j o := a17 (ix2 j o)
  i1 j := a18 (ix1 j)
  i2 j := a19 (ix1 j)
  gu j o := a20 (ix2 j o)
  u1 j := a21 (ix1 j)
  u2 j := a22 (ix1 j)
  go j o := a23 (ix2 j o)
  o1 j := a24 (ix1 j)
  o2 j := a25 (ix1 j)

/-- Node `n`'s data as the program's arguments 0 … 7 give them. -/
def refX (a0 a1 a2 a3 a4 : (⟨3, ![16384, 16, 128]⟩ : Shape).Idx → EReal)
    (a5 : (⟨3, ![16384, 16, 3]⟩ : Shape).Idx → EReal) (a6 a7 : (⟨2, ![16384, 16]⟩ : Shape).Idx → EReal)
    (n : Fin 16384) : Node where
  h k e := a0 (ix3 n k e)
  c k e := a1 (ix3 n k e)
  emb k e := a2 (ix3 n k e)
  src k e := a3 (ix3 n k e)
  dst k e := a4 (ix3 n k e)
  et k e := a5 (ix3 n k e)
  mh k := a6 (ix2 n k)
  mc k := a7 (ix2 n k)

end Cert.TreeLstm

end
-- ==== Proof.CellAt.lean ====
/-
  When do a grid point's blocks and the argument arrays give the cell the same parameters and the same node?

  The parameters agree as soon as every staged parameter block, read at an index, is the argument array at the transposed
  index (shifted by the block's first column for the pieces of the two cut matrices; a one-row bias block at `(0, j)` is
  the bias vector at `j`). Node `p` of the point is node `n` of the arrays as soon as row `p` of each data block is row `n`
  of the corresponding array. Stated over arbitrary blocks and arrays, so that each kernel-specific fact enters as one
  hypothesis about one window.
-/
import proofs.«134373_j64622077935700_1_alg».proof.Proof.BodyOut
import proofs.«134373_j64622077935700_1_alg».proof.Proof.SpecArr

noncomputable section

namespace Cert.TreeLstm.Body

open Cert.KernelIdeal Idealize.ShloMosaic Idealize.ShloMosaic.ValueIdx

/-- The body's parameters are the arrays' parameters, given each window's read. -/
theorem bodyW_of_reads (x8 x9 : FVec Ideal S128x259 .bf16) (x10 : FVec Ideal S3x259 .bf16) (x11 : FVec Ideal S1x259 .f32)
    (x12 : FVec Ideal S259x128 .bf16) (x13 : FVec Ideal S1x128 .f32) (x14 x15 : FVec Ideal S128x256 .bf16)
    (x16 : FVec Ideal S1x256 .f32) (x17 : FVec Ideal S256x128 .bf16) (x18 x19 : FVec Ideal S1x128 .f32)
    (x20 : FVec Ideal S256x128 .bf16) (x21 x22 : FVec Ideal S1x128 .f32) (x23 : FVec Ideal S256x128 .bf16)
    (x24 x25 : FVec Ideal S1x128 .f32) (x26 : FVec Ideal S256x128 .bf16) (x27 x28 : FVec Ideal S1x128 .f32)
    (a8 : (⟨2, ![259, 259]⟩ : Shape).Idx → EReal) (a9 : (⟨1, ![259]⟩ : Shape).Idx → EReal)
    (a10 : (⟨2, ![128, 259]⟩ : Shape).Idx → EReal) (a11 : (⟨1, ![128]⟩ : Shape).Idx → EReal)
    (a12 : (⟨2, ![256, 256]⟩ : Shape).Idx → EReal) (a13 : (⟨1, ![256]⟩ : Shape).Idx → EReal)
    (a14 : (⟨2, ![128, 256]⟩ : Shape).Idx → EReal) (a15 a16 : (⟨1, ![128]⟩ : Shape).Idx → EReal)
    (a17 : (⟨2, ![128, 256]⟩ : Shape).Idx → EReal) (a18 a19 : (⟨1, ![128]⟩ : Shape).Idx → EReal)
    (a20 : (⟨2, ![128, 256]⟩ : Shape).Idx → EReal) (a21 a22 : (⟨1, ![128]⟩ : Shape).Idx → EReal)
    (a23 : (⟨2, ![128, 256]⟩ : Shape).Idx → EReal) (a24 a25 : (⟨1, ![128]⟩ : Shape).Idx → EReal)
    (h8 : ∀ (e : Fin 128) (o : Fin 259), x8 (ix2 e o) = a8 (ix2 o (⟨e.val, by omega⟩ : Fin 259)))
    (h9 : ∀ (e : Fin 128) (o : Fin 259), x9 (ix2 e o) = a8 (ix2 o (⟨128 + e.val, by omega⟩ : Fin 259)))
    (h10 : ∀ (e : Fin 3) (o : Fin 259), x10 (ix2 e o) = a8 (ix2 o (⟨256 + e.val, by omega⟩ : Fin 259)))
    (h11 : ∀ (o : Fin 259), x11 (ix2 (0 : Fin 1) o) = a9 (ix1 o))
    (h12 : ∀ (o : Fin 259) (j : Fin 128), x12 (ix2 o j) = a10 (ix2 j o))
    (h13 : ∀ (j : Fin 128), x13 (ix2 (0 : Fin 1) j) = a11 (ix1 j))
    (h14 : ∀ (f : Fin 128) (o : Fin 256), x14 (ix2 f o) = a12 (ix2 o (⟨f.val, by omega⟩ : Fin 256)))
    (h15 : ∀ (f : Fin 128) (o : Fin 256), x15 (ix2 f o) = a12 (ix2 o (⟨128 + f.val, by omega⟩ : Fin 256)))
    (h16 : ∀ (o : Fin 256), x16 (ix2 (0 : Fin 1) o) = a13 (ix1 o))
    (h17 : ∀ (o : Fin 256) (j : Fin 128), x17 (ix2 o j) = a14 (ix2 j o))
    (h18 : ∀ (j : Fin 128), x18 (ix2 (0 : Fin 1) j) = a15 (ix1 j))
    (h19 : ∀ (j : Fin 128), x19 (ix2 (0 : Fin 1) j) = a16 (ix1 j))
    (h20 : ∀ (o : Fin 256) (j : Fin 128), x20 (ix2 o j) = a17 (ix2 j o))
    (h21 : ∀ (j : Fin 128), x21 (ix2 (0 : Fin 1) j) = a18 (ix1 j))
    (h22 : ∀ (j : Fin 128), x22 (ix2 (0 : Fin 1) j) = a19 (ix1 j))
    (h23 : ∀ (o : Fin 256) (j : Fin 128), x23 (ix2 o j) = a20 (ix2 j o))
    (h24 : ∀ (j : Fin 128), x24 (ix2 (0 : Fin 1) j) = a21 (ix1 j))
    (h25 : ∀ (j : Fin 128), x25 (ix2 (0 : Fin 1) j) = a22 (ix1 j))
    (h26 : ∀ (o : Fin 256) (j : Fin 128), x26 (ix2 o j) = a23 (ix2 j o))
    (h27 : ∀ (j : Fin 128), x27 (ix2 (0 : Fin 1) j) = a24 (ix1 j))
    (h28 : ∀ (j : Fin 128), x28 (ix2 (0 : Fin 1) j) = a25 (ix1 j)) :
    bodyW x8 x9 x10 x11 x12 x13 x14 x15 x16 x17 x18 x19 x20 x21 x22 x23 x24 x25 x26 x27 x28 = refW a8 a9 a10 a11 a12 a13 a14 a15 a16 a17 a18 a19 a20 a21 a22 a23 a24 a25 := by
  refine Weights.ext ?_ ?_ ?_ ?_ ?_ ?_ ?_ ?_ ?_ ?_ ?_ ?_ ?_ ?_ ?_ ?_ ?_ ?_ ?_ ?_ ?_
  · funext o e; exact h8 e o
  · funext o e; exact h9 e o
  · funext o e; exact h10 e o
  · funext o; exact h11 o
  · funext j o; exact h12 o j
  · funext j; exact h13 j
  · funext o f; exact h14 f o
  · funext o f; exact h15 f o
  · funext o; exact h16 o
  · funext j o; exact h17 o j
  · funext j; exact h18 j
  · funext j; exact h19 j
  · funext j o; exact h20 o j
  · funext j; exact h21 j
  · funext j; exact h22 j
  · funext j o; exact h23 o j
  · funext j; exact h24 j
  · funext j; exact h25 j
  · funext j o; exact h26 o j
  · funext j; exact h27 j
  · funext j; exact h28 j

/-- Node `p` of the blocks is node `n` of the arrays, given each data window's rows. -/
theorem bodyX_of_reads (x0 x1 x2 x3 x4 : FVec Ideal S128x16x128 .f32) (x5 : FVec Ideal S128x16x3 .f32) (x6 x7 : FVec Ideal S128x16 .f32)
    (a0 a1 a2 a3 a4 : (⟨3, ![16384, 16, 128]⟩ : Shape).Idx → EReal)
    (a5 : (⟨3, ![16384, 16, 3]⟩ : Shape).Idx → EReal) (a6 a7 : (⟨2, ![16384, 16]⟩ : Shape).Idx → EReal) (p : Fin 128) (n : Fin 16384)
    (g0 : ∀ (k : Fin 16) (e : Fin 128), x0 (ix3 p k e) = a0 (ix3 n k e))
    (g1 : ∀ (k : Fin 16) (e : Fin 128), x1 (ix3 p k e) = a1 (ix3 n k e))
    (g2 : ∀ (k : Fin 16) (e : Fin 128), x2 (ix3 p k e) = a2 (ix3 n k e))
    (g3 : ∀ (k : Fin 16) (e : Fin 128), x3 (ix3 p k e) = a3 (ix3 n k e))
    (g4 : ∀ (k : Fin 16) (e : Fin 128), x4 (ix3 p k e) = a4 (ix3 n k e))
    (g5 : ∀ (k : Fin 16) (e : Fin 3), x5 (ix3 p k e) = a5 (ix3 n k e))
    (g6 : ∀ k : Fin 16, x6 (ix2 p k) = a6 (ix2 n k))
    (g7 : ∀ k : Fin 16, x7 (ix2 p k) = a7 (ix2 n k)) :
    bodyX x0 x1 x2 x3 x4 x5 x6 x7 p = refX a0 a1 a2 a3 a4 a5 a6 a7 n := by
  refine Node.ext ?_ ?_ ?_ ?_ ?_ ?_ ?_ ?_
  · funext k e; exact g0 k e
  · funext k e; exact g1 k e
  · funext k e; exact g2 k e
  · funext k e; exact g3 k e
  · funext k e; exact g4 k e
  · funext k e; exact g5 k e
  · funext k; exact g6 k
  · funext k; exact g7 k

end Cert.TreeLstm.Body

end
-- ==== Proof.KernelCell.lean ====
/-
  The cell a grid point's body evaluates is the arrays' cell: every point reads the argument arrays' parameters, and node
  `p` of point `t` is node `128·t + p` of the arrays.
-/
import proofs.«134373_j64622077935700_1_alg».proof.Proof.KernelBlocks
import proofs.«134373_j64622077935700_1_alg».proof.Proof.CellAt

noncomputable section

namespace Cert.TreeLstm.Kernel

open Cert.KernelIdeal Cert.KernelIdeal.Gen Cert.KernelIdeal.GenP Idealize.ShloMosaic Idealize.ShloMosaic.ValueIdx
open Idealize.ShloMosaic.TcCoe Idealize.SL.Sem
open Cert.TreeLstm.Body (bodyW bodyX bodyW_of_reads bodyX_of_reads)

variable (m : (ℓ : Loc nD τ sig) → Buf (Elt Ideal) ℓ)

/-! ## Each parameter window's block, read at an index, in terms of an argument array -/

theorem read8 (c : Dev nD) (t : Fin cfg0.N) (e : Fin 128) (o : Fin 259) :
    inB8 m c t (ix2 e o) = argA8 m c (ix2 o (⟨e.val, by omega⟩ : Fin 259)) :=
  (blk8 m c t (ix2 e o)).trans (host_v2 m c e o)

theorem read9 (c : Dev nD) (t : Fin cfg0.N) (e : Fin 128) (o : Fin 259) :
    inB9 m c t (ix2 e o) = argA8 m c (ix2 o (⟨128 + e.val, by omega⟩ : Fin 259)) :=
  (blk9 m c t (ix2 e o)).trans (host_v5 m c e o)

theorem read10 (c : Dev nD) (t : Fin cfg0.N) (e : Fin 3) (o : Fin 259) :
    inB10 m c t (ix2 e o) = argA8 m c (ix2 o (⟨256 + e.val, by omega⟩ : Fin 259)) :=
  (blk10 m c t (ix2 e o)).trans (host_v8 m c e o)

theorem read11 (c : Dev nD) (t : Fin cfg0.N) (o : Fin 259) :
    inB11 m c t (ix2 (0 : Fin 1) o) = argA9 m c (ix1 o) :=
  (blk11 m c t (ix2 (0 : Fin 1) o)).trans (host_v9 m c o)

theorem read12 (c : Dev nD) (t : Fin cfg0.N) (o : Fin 259) (j : Fin 128) :
    inB12 m c t (ix2 o j) = argA10 m c (ix2 j o) :=
  (blk12 m c t (ix2 o j)).trans (host_v11 m c o j)

theorem read13 (c : Dev nD) (t : Fin cfg0.N) (j : Fin 128) :
    inB13 m c t (ix2 (0 : Fin 1) j) = argA11 m c (ix1 j) :=
  (blk13 m c t (ix2 (0 : Fin 1) j)).trans (host_v12 m c j)

theorem read14 (c : Dev nD) (t : Fin cfg0.N) (f : Fin 128) (o : Fin 256) :
    inB14 m c t (ix2 f o) = argA12 m c (ix2 o (⟨f.val, by omega⟩ : Fin 256)) :=
  (blk14 m c t (ix2 f o)).trans (host_v15 m c f o)

theorem read15 (c : Dev nD) (t : Fin cfg0.N) (f : Fin 128) (o : Fin 256) :
    inB15 m c t (ix2 f o) = argA12 m c (ix2 o (⟨128 + f.val, by omega⟩ : Fin 256)) :=
  (blk15 m c t (ix2 f o)).trans (host_v18 m c f o)

theorem read16 (c : Dev nD) (t : Fin cfg0.N) (o : Fin 256) :
    inB16 m c t (ix2 (0 : Fin 1) o) = argA13 m c (ix1 o) :=
  (blk16 m c t (ix2 (0 : Fin 1) o)).trans (host_v19 m c o)

theorem read17 (c : Dev nD) (t : Fin cfg0.N) (o : Fin 256) (j : Fin 128) :
    inB17 m c t (ix2 o j) = argA14 m c (ix2 j o) :=
  (blk17 m c t (ix2 o j)).trans (host_v21 m c o j)

theorem read18 (c : Dev nD) (t : Fin cfg0.N) (j : Fin 128) :
    inB18 m c t (ix2 (0 : Fin 1) j) = argA15 m c (ix1 j) :=
  (blk18 m c t (ix2 (0 : Fin 1) j)).trans (host_v22 m c j)

theorem read19 (c : Dev nD) (t : Fin cfg0.N) (j : Fin 128) :
    inB19 m c t (ix2 (0 : Fin 1) j) = argA16 m c (ix1 j) :=
  (blk19 m c t (ix2 (0 : Fin 1) j)).trans (host_v23 m c j)

theorem read20 (c : Dev nD) (t : Fin cfg0.N) (o : Fin 256) (j : Fin 128) :
    inB20 m c t (ix2 o j) = argA17 m c (ix2 j o) :=
  (blk20 m c t (ix2 o j)).trans (host_v25 m c o j)

theorem read21 (c : Dev nD) (t : Fin cfg0.N) (j : Fin 128) :
    inB21 m c t (ix2 (0 : Fin 1) j) = argA18 m c (ix1 j) :=
  (blk21 m c t (ix2 (0 : Fin 1) j)).trans (host_v26 m c j)

theorem read22 (c : Dev nD) (t : Fin cfg0.N) (j : Fin 128) :
    inB22 m c t (ix2 (0 : Fin 1) j) = argA19 m c (ix1 j) :=
  (blk22 m c t (ix2 (0 : Fin 1) j)).trans (host_v27 m c j)

theorem read23 (c : Dev nD) (t : Fin cfg0.N) (o : Fin 256) (j : Fin 128) :
    inB23 m c t (ix2 o j) = argA20 m c (ix2 j o) :=
  (blk23 m c t (ix2 o j)).trans (host_v29 m c o j)

theorem read24 (c : Dev nD) (t : Fin cfg0.N) (j : Fin 128) :
    inB24 m c t (ix2 (0 : Fin 1) j) = argA21 m c (ix1 j) :=
  (blk24 m c t (ix2 (0 : Fin 1) j)).trans (host_v30 m c j)

theorem read25 (c : Dev nD) (t : Fin cfg0.N) (j : Fin 128) :
    inB25 m c t (ix2 (0 : Fin 1) j) = argA22 m c (ix1 j) :=
  (blk25 m c t (ix2 (0 : Fin 1) j)).trans (host_v31 m c j)

theorem read26 (c : Dev nD) (t : Fin cfg0.N) (o : Fin 256) (j : Fin 128) :
    inB26 m c t (ix2 o j) = argA23 m c (ix2 j o) :=
  (blk26 m c t (ix2 o j)).trans (host_v33 m c o j)

theorem read27 (c : Dev nD) (t : Fin cfg0.N) (j : Fin 128) :
    inB27 m c t (ix2 (0 : Fin 1) j) = argA24 m c (ix1 j) :=
  (blk27 m c t (ix2 (0 : Fin 1) j)).trans (host_v34 m c j)

theorem read28 (c : Dev nD) (t : Fin cfg0.N) (j : Fin 128) :
    inB28 m c t (ix2 (0 : Fin 1) j) = argA25 m c (ix1 j) :=
  (blk28 m c t (ix2 (0 : Fin 1) j)).trans (host_v35 m c j)

/-! ## The cell at a point -/

/-- Every point's body reads the same parameters: the argument arrays'. -/
theorem bodyW_eq (c : Dev nD) (t : Fin cfg0.N) :
    bodyW (inB8 m c t) (inB9 m c t) (inB10 m c t) (inB11 m c t) (inB12 m c t) (inB13 m c t) (inB14 m c t) (inB15 m c t) (inB16 m c t) (inB17 m c t) (inB18 m c t) (inB19 m c t) (inB20 m c t) (inB21 m c t) (inB22 m c t) (inB23 m c t) (inB24 m c t) (inB25 m c t) (inB26 m c t) (inB27 m c t) (inB28 m c t)
      = refW (argA8 m c) (argA9 m c) (argA10 m c) (argA11 m c) (argA12 m c) (argA13 m c) (argA14 m c) (argA15 m c) (argA16 m c) (argA17 m c) (argA18 m c) (argA19 m c) (argA20 m c) (argA21 m c) (argA22 m c) (argA23 m c) (argA24 m c) (argA25 m c) :=
  bodyW_of_reads (inB8 m c t) (inB9 m c t) (inB10 m c t) (inB11 m c t) (inB12 m c t) (inB13 m c t) (inB14 m c t) (inB15 m c t) (inB16 m c t) (inB17 m c t) (inB18 m c t) (inB19 m c t) (inB20 m c t) (inB21 m c t) (inB22 m c t) (inB23 m c t) (inB24 m c t) (inB25 m c t) (inB26 m c t) (inB27 m c t) (inB28 m c t)
    (argA8 m c) (argA9 m c) (argA10 m c) (argA11 m c) (argA12 m c) (argA13 m c) (argA14 m c) (argA15 m c) (argA16 m c) (argA17 m c) (argA18 m c) (argA19 m c) (argA20 m c) (argA21 m c) (argA22 m c) (argA23 m c) (argA24 m c) (argA25 m c)
    (read8 m c t) (read9 m c t) (read10 m c t) (read11 m c t) (read12 m c t) (read13 m c t) (read14 m c t) (read15 m c t) (read16 m c t) (read17 m c t) (read18 m c t) (read19 m c t) (read20 m c t) (read21 m c t) (read22 m c t) (read23 m c t) (read24 m c t) (read25 m c t) (read26 m c t) (read27 m c t) (read28 m c t)

/-- Node `p` of point `t` is node `128·t + p` of the arrays. -/
theorem bodyX_eq (c : Dev nD) (t : Fin cfg0.N) (p : Fin 128) :
    bodyX (inB0 m c t) (inB1 m c t) (inB2 m c t) (inB3 m c t) (inB4 m c t) (inB5 m c t) (inB6 m c t) (inB7 m c t) p
      = refX (argA0 m c) (argA1 m c) (argA2 m c) (argA3 m c) (argA4 m c) (argA5 m c) (argA6 m c) (argA7 m c) (node t p) :=
  bodyX_of_reads (inB0 m c t) (inB1 m c t) (inB2 m c t) (inB3 m c t) (inB4 m c t) (inB5 m c t) (inB6 m c t) (inB7 m c t)
    (argA0 m c) (argA1 m c) (argA2 m c) (argA3 m c) (argA4 m c) (argA5 m c) (argA6 m c) (argA7 m c) p (node t p)
    (fun k e => blk0 m c t p k e) (fun k e => blk1 m c t p k e) (fun k e => blk2 m c t p k e) (fun k e => blk3 m c t p k e) (fun k e => blk4 m c t p k e) (fun k e => blk5 m c t p k e) (fun k => blk6 m c t p k) (fun k => blk7 m c t p k)

end Cert.TreeLstm.Kernel

end
-- ==== Proof.SpecOut.lean ====
/-
  The cell's two results over all 16384 nodes, each as ONE function of the 26 argument arrays: entry `(n, j)` is node
  `n`'s new hidden row, respectively new memory row, at unit `j`.
-/
import proofs.«134373_j64622077935700_1_alg».proof.Proof.SpecArr

noncomputable section

namespace Cert.TreeLstm

open Idealize.ShloMosaic Idealize.ShloMosaic.ValueIdx

/-- The new hidden rows. -/
def arrH (a0 a1 a2 a3 a4 : (⟨3, ![16384, 16, 128]⟩ : Shape).Idx → EReal)
    (a5 : (⟨3, ![16384, 16, 3]⟩ : Shape).Idx → EReal) (a6 a7 : (⟨2, ![16384, 16]⟩ : Shape).Idx → EReal)
    (a8 : (⟨2, ![259, 259]⟩ : Shape).Idx → EReal) (a9 : (⟨1, ![259]⟩ : Shape).Idx → EReal)
    (a10 : (⟨2, ![128, 259]⟩ : Shape).Idx → EReal) (a11 : (⟨1, ![128]⟩ : Shape).Idx → EReal)
    (a12 : (⟨2, ![256, 256]⟩ : Shape).Idx → EReal) (a13 : (⟨1, ![256]⟩ : Shape).Idx → EReal)
    (a14 : (⟨2, ![128, 256]⟩ : Shape).Idx → EReal) (a15 a16 : (⟨1, ![128]⟩ : Shape).Idx → EReal)
    (a17 : (⟨2, ![128, 256]⟩ : Shape).Idx → EReal) (a18 a19 : (⟨1, ![128]⟩ : Shape).Idx → EReal)
    (a20 : (⟨2, ![128, 256]⟩ : Shape).Idx → EReal) (a21 a22 : (⟨1, ![128]⟩ : Shape).Idx → EReal)
    (a23 : (⟨2, ![128, 256]⟩ : Shape).Idx → EReal) (a24 a25 : (⟨1, ![128]⟩ : Shape).Idx → EReal) :
    (⟨2, ![16384, 128]⟩ : Shape).Idx → EReal :=
  fun i => nodeH (refW a8 a9 a10 a11 a12 a13 a14 a15 a16 a17 a18 a19 a20 a21 a22 a23 a24 a25) (refX a0 a1 a2 a3 a4 a5 a6 a7 (i 0)) (i 1)

/-- The new memory rows. -/
def arrC (a0 a1 a2 a3 a4 : (⟨3, ![16384, 16, 128]⟩ : Shape).Idx → EReal)
    (a5 : (⟨3, ![16384, 16, 3]⟩ : Shape).Idx → EReal) (a6 a7 : (⟨2, ![16384, 16]⟩ : Shape).Idx → EReal)
    (a8 : (⟨2, ![259, 259]⟩ : Shape).Idx → EReal) (a9 : (⟨1, ![259]⟩ : Shape).Idx → EReal)
    (a10 : (⟨2, ![128, 259]⟩ : Shape).Idx → EReal) (a11 : (⟨1, ![128]⟩ : Shape).Idx → EReal)
    (a12 : (⟨2, ![256, 256]⟩ : Shape).Idx → EReal) (a13 : (⟨1, ![256]⟩ : Shape).Idx → EReal)
    (a14 : (⟨2, ![128, 256]⟩ : Shape).Idx → EReal) (a15 a16 : (⟨1, ![128]⟩ : Shape).Idx → EReal)
    (a17 : (⟨2, ![128, 256]⟩ : Shape).Idx → EReal) (a18 a19 : (⟨1, ![128]⟩ : Shape).Idx → EReal)
    (a20 : (⟨2, ![128, 256]⟩ : Shape).Idx → EReal) (a21 a22 : (⟨1, ![128]⟩ : Shape).Idx → EReal)
    (a23 : (⟨2, ![128, 256]⟩ : Shape).Idx → EReal) (a24 a25 : (⟨1, ![128]⟩ : Shape).Idx → EReal) :
    (⟨2, ![16384, 128]⟩ : Shape).Idx → EReal :=
  fun i => nodeC (refW a8 a9 a10 a11 a12 a13 a14 a15 a16 a17 a18 a19 a20 a21 a22 a23 a24 a25) (refX a0 a1 a2 a3 a4 a5 a6 a7 (i 0)) (i 1)

end Cert.TreeLstm

end
-- ==== Proof.KernelRun.lean ====
/-
  The kernel's run, read: after it the two result arrays hold the cell's new hidden rows and new memory rows of all 16384
  nodes, as one function each of the 26 argument arrays, and the arguments are unchanged.

  Point `t` writes back, to each result array, the block of rows `128·t … 128·t + 127`; by the body's value (a block's row `p`
  is the cell at node `p` of the point's blocks) and the blocks' places in the arrays that block is the restriction of the
  whole-array function. The 128 blocks cover each result array, so the array is that function everywhere.
-/
import proofs.«134373_j64622077935700_1_alg».proof.Proof.KernelCell
import proofs.«134373_j64622077935700_1_alg».proof.Proof.SpecOut
import Idealize.ShloMosaic.Lib.Pipeline.Value

noncomputable section

namespace Cert.TreeLstm.Kernel

open Cert.KernelIdeal Cert.KernelIdeal.Gen Cert.KernelIdeal.GenP Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (ρ : Dev nD → PrngReg)

/-! ## Result 0: the new hidden rows -/

/-- Row `p` of what the body leaves in result 0's block at point `t` is node `128·t + p`'s row of the new hidden rows. -/
theorem out29_block (c : Dev nD) (t : Fin cfg0.N) (p j : Fin 128) :
    out0_29 (F := Ideal) (inB0 m c t) (inB1 m c t) (inB2 m c t) (inB3 m c t) (inB4 m c t) (inB5 m c t) (inB6 m c t) (inB7 m c t) (inB8 m c t) (inB9 m c t) (inB10 m c t) (inB11 m c t) (inB12 m c t) (inB13 m c t) (inB14 m c t) (inB15 m c t) (inB16 m c t) (inB17 m c t) (inB18 m c t) (inB19 m c t) (inB20 m c t) (inB21 m c t) (inB22 m c t) (inB23 m c t) (inB24 m c t) (inB25 m c t) (inB26 m c t) (inB27 m c t) (inB28 m c t) (ix2 p j)
      = arrH (argA0 m c) (argA1 m c) (argA2 m c) (argA3 m c) (argA4 m c) (argA5 m c) (argA6 m c) (argA7 m c) (argA8 m c) (argA9 m c) (argA10 m c) (argA11 m c) (argA12 m c) (argA13 m c) (argA14 m c) (argA15 m c) (argA16 m c) (argA17 m c) (argA18 m c) (argA19 m c) (argA20 m c) (argA21 m c) (argA22 m c) (argA23 m c) (argA24 m c) (argA25 m c) (ix2 (node t p) j) :=
  (Cert.TreeLstm.Body.out29_apply (inB0 m c t) (inB1 m c t) (inB2 m c t) (inB3 m c t) (inB4 m c t) (inB5 m c t) (inB6 m c t) (inB7 m c t) (inB8 m c t) (inB9 m c t) (inB10 m c t) (inB11 m c t) (inB12 m c t) (inB13 m c t) (inB14 m c t) (inB15 m c t) (inB16 m c t) (inB17 m c t) (inB18 m c t) (inB19 m c t) (inB20 m c t) (inB21 m c t) (inB22 m c t) (inB23 m c t) (inB24 m c t) (inB25 m c t) (inB26 m c t) (inB27 m c t) (inB28 m c t) p j).trans
    (congrArg₂ (fun W X => nodeH W X j) (bodyW_eq m c t) (bodyX_eq m c t p))

/-- Place `(p, j)` of point `t`'s block of result 0's array is place `(128·t + p, j)` of the array. -/
theorem emb29 (t : Fin cfg0.N) (p j : Fin 128) :
    ((cfg0.win 29).blk t).view.emb (ix2 p j) = ix2 (node t p) j := by
  obtain ⟨h0, h1⟩ := idx29 t
  funext a; apply Fin.ext
  match a with
  | ⟨0, _⟩ =>
    show win0_29.index t (0 : Fin 2) * 128 + 1 * p.val = t.val * 128 + p.val
    rw [h0]; omega
  | ⟨1, _⟩ =>
    show win0_29.index t (1 : Fin 2) * 128 + 1 * j.val = j.val
    rw [h1]; omega

/-- The new hidden rows of all nodes on core `c`, at the result array's own element type. -/
abbrev outH (c : Dev nD) : S16384x128.Idx → Elt Ideal .f32 :=
  arrH (argA0 m c) (argA1 m c) (argA2 m c) (argA3 m c) (argA4 m c) (argA5 m c) (argA6 m c) (argA7 m c) (argA8 m c) (argA9 m c) (argA10 m c) (argA11 m c) (argA12 m c) (argA13 m c) (argA14 m c) (argA15 m c) (argA16 m c) (argA17 m c) (argA18 m c) (argA19 m c) (argA20 m c) (argA21 m c) (argA22 m c) (argA23 m c) (argA24 m c) (argA25 m c)

/-- What point `t` writes back to result 0's array is block `t` of the new hidden rows of all nodes. -/
theorem flushed29_eq (c : Dev nD) (t : Fin cfg0.N) :
    (dats m 0 c).flushed 29 t = ((cfg0.win 29).blk t).view.read (Elt Ideal) (outH m c) := by
  show (cfg0.win 29).cut (grid0.coords t) ((dats m 0 c).after 29 t) = _
  rw [after0_29]
  funext y
  show out0_29 (inB0 m c t) (inB1 m c t) (inB2 m c t) (inB3 m c t) (inB4 m c t) (inB5 m c t) (inB6 m c t) (inB7 m c t) (inB8 m c t) (inB9 m c t) (inB10 m c t) (inB11 m c t) (inB12 m c t) (inB13 m c t) (inB14 m c t) (inB15 m c t) (inB16 m c t) (inB17 m c t) (inB18 m c t) (inB19 m c t) (inB20 m c t) (inB21 m c t) (inB22 m c t) (inB23 m c t) (inB24 m c t) (inB25 m c t) (inB26 m c t) (inB27 m c t) (inB28 m c t) y
    = outH m c (((cfg0.win 29).blk t).view.emb y)
  obtain ⟨p, j, rfl⟩ : ∃ (p j : Fin 128), y = ix2 p j := ⟨y 0, y 1, eq_ix2 y⟩
  rw [emb29 t p j]
  exact out29_block m c t p j

/-- An index of result 0's array is in point `t`'s block iff each coordinate is in the block's range. -/
theorem mem_blk29 (t : Fin cfg0.N) (i : S16384x128.Idx) :
    i ∈ ((cfg0.win 29).blk t).view.set ↔ ∀ a : Fin 2, win0_29.index t a * S128x128.size a ≤ (i a).val
      ∧ (i a).val < win0_29.index t a * S128x128.size a + S128x128.size a := by
  show i ∈ ((View.whole main_v36_0).slice (win0_29.rect t)).set ↔ _
  rw [View.set_slice_whole, Rect.mem_set_unit]
  exact Iff.rfl

/-- Row `n` of the array lies in the block of point `n / 128`: the 128 blocks cover the array. -/
theorem cover29 (i : S16384x128.Idx) :
    ∃ t : Fin cfg0.N, (cfg0.win 29).flush t = true ∧ i ∈ ((cfg0.win 29).blk t).view.set := by
  have hi0 : (i 0).val < 16384 := (i 0).isLt
  have hi1 : (i 1).val < 128 := (i 1).isLt
  have hN : cfg0.N = 128 := N_0
  have hlt : (i 0).val / 128 < cfg0.N := by omega
  obtain ⟨h0, h1⟩ := idx29 ⟨(i 0).val / 128, hlt⟩
  refine ⟨⟨(i 0).val / 128, hlt⟩, flush0_29 _, ?_⟩
  rw [mem_blk29]
  intro a
  match a with
  | ⟨0, _⟩ =>
    show win0_29.index ⟨(i 0).val / 128, hlt⟩ (0 : Fin 2) * 128 ≤ (i 0).val
      ∧ (i 0).val < win0_29.index ⟨(i 0).val / 128, hlt⟩ (0 : Fin 2) * 128 + 128
    rw [h0]
    show (i 0).val / 128 * 128 ≤ (i 0).val ∧ (i 0).val < (i 0).val / 128 * 128 + 128
    omega
  | ⟨1, _⟩ =>
    show win0_29.index ⟨(i 0).val / 128, hlt⟩ (1 : Fin 2) * 128 ≤ (i 1).val
      ∧ (i 1).val < win0_29.index ⟨(i 0).val / 128, hlt⟩ (1 : Fin 2) * 128 + 128
    rw [h1]; omega

/-- So after the run result 0's array is the new hidden rows of all nodes. -/
theorem final29 (c : Dev nD) : (dats m 0 c).arrAt 29 cfg0.N = outH m c :=
  (dats m 0 c).arrAt_eq_of_cover 29 (outH m c) (fun t _ => flushed29_eq m c t) (cover29)

/-! ## Result 1: the new memory rows -/

/-- Row `p` of what the body leaves in result 1's block at point `t` is node `128·t + p`'s row of the new memory rows. -/
theorem out30_block (c : Dev nD) (t : Fin cfg0.N) (p j : Fin 128) :
    out0_30 (F := Ideal) (inB0 m c t) (inB1 m c t) (inB2 m c t) (inB3 m c t) (inB4 m c t) (inB5 m c t) (inB6 m c t) (inB7 m c t) (inB8 m c t) (inB9 m c t) (inB10 m c t) (inB11 m c t) (inB12 m c t) (inB13 m c t) (inB14 m c t) (inB15 m c t) (inB16 m c t) (inB17 m c t) (inB18 m c t) (inB19 m c t) (inB20 m c t) (inB21 m c t) (inB22 m c t) (inB23 m c t) (inB24 m c t) (inB25 m c t) (inB26 m c t) (inB27 m c t) (inB28 m c t) (ix2 p j)
      = arrC (argA0 m c) (argA1 m c) (argA2 m c) (argA3 m c) (argA4 m c) (argA5 m c) (argA6 m c) (argA7 m c) (argA8 m c) (argA9 m c) (argA10 m c) (argA11 m c) (argA12 m c) (argA13 m c) (argA14 m c) (argA15 m c) (argA16 m c) (argA17 m c) (argA18 m c) (argA19 m c) (argA20 m c) (argA21 m c) (argA22 m c) (argA23 m c) (argA24 m c) (argA25 m c) (ix2 (node t p) j) :=
  (Cert.TreeLstm.Body.out30_apply (inB0 m c t) (inB1 m c t) (inB2 m c t) (inB3 m c t) (inB4 m c t) (inB5 m c t) (inB6 m c t) (inB7 m c t) (inB8 m c t) (inB9 m c t) (inB10 m c t) (inB11 m c t) (inB12 m c t) (inB13 m c t) (inB14 m c t) (inB15 m c t) (inB16 m c t) (inB17 m c t) (inB18 m c t) (inB19 m c t) (inB20 m c t) (inB21 m c t) (inB22 m c t) (inB23 m c t) (inB24 m c t) (inB25 m c t) (inB26 m c t) (inB27 m c t) (inB28 m c t) p j).trans
    (congrArg₂ (fun W X => nodeC W X j) (bodyW_eq m c t) (bodyX_eq m c t p))

/-- Place `(p, j)` of point `t`'s block of result 1's array is place `(128·t + p, j)` of the array. -/
theorem emb30 (t : Fin cfg0.N) (p j : Fin 128) :
    ((cfg0.win 30).blk t).view.emb (ix2 p j) = ix2 (node t p) j := by
  obtain ⟨h0, h1⟩ := idx30 t
  funext a; apply Fin.ext
  match a with
  | ⟨0, _⟩ =>
    show win0_30.index t (0 : Fin 2) * 128 + 1 * p.val = t.val * 128 + p.val
    rw [h0]; omega
  | ⟨1, _⟩ =>
    show win0_30.index t (1 : Fin 2) * 128 + 1 * j.val = j.val
    rw [h1]; omega

/-- The new memory rows of all nodes on core `c`, at the result array's own element type. -/
abbrev outC (c : Dev nD) : S16384x128.Idx → Elt Ideal .f32 :=
  arrC (argA0 m c) (argA1 m c) (argA2 m c) (argA3 m c) (argA4 m c) (argA5 m c) (argA6 m c) (argA7 m c) (argA8 m c) (argA9 m c) (argA10 m c) (argA11 m c) (argA12 m c) (argA13 m c) (argA14 m c) (argA15 m c) (argA16 m c) (argA17 m c) (argA18 m c) (argA19 m c) (argA20 m c) (argA21 m c) (argA22 m c) (argA23 m c) (argA24 m c) (argA25 m c)

/-- What point `t` writes back to result 1's array is block `t` of the new memory rows of all nodes. -/
theorem flushed30_eq (c : Dev nD) (t : Fin cfg0.N) :
    (dats m 0 c).flushed 30 t = ((cfg0.win 30).blk t).view.read (Elt Ideal) (outC m c) := by
  show (cfg0.win 30).cut (grid0.coords t) ((dats m 0 c).after 30 t) = _
  rw [after0_30]
  funext y
  show out0_30 (inB0 m c t) (inB1 m c t) (inB2 m c t) (inB3 m c t) (inB4 m c t) (inB5 m c t) (inB6 m c t) (inB7 m c t) (inB8 m c t) (inB9 m c t) (inB10 m c t) (inB11 m c t) (inB12 m c t) (inB13 m c t) (inB14 m c t) (inB15 m c t) (inB16 m c t) (inB17 m c t) (inB18 m c t) (inB19 m c t) (inB20 m c t) (inB21 m c t) (inB22 m c t) (inB23 m c t) (inB24 m c t) (inB25 m c t) (inB26 m c t) (inB27 m c t) (inB28 m c t) y
    = outC m c (((cfg0.win 30).blk t).view.emb y)
  obtain ⟨p, j, rfl⟩ : ∃ (p j : Fin 128), y = ix2 p j := ⟨y 0, y 1, eq_ix2 y⟩
  rw [emb30 t p j]
  exact out30_block m c t p j

/-- An index of result 1's array is in point `t`'s block iff each coordinate is in the block's range. -/
theorem mem_blk30 (t : Fin cfg0.N) (i : S16384x128.Idx) :
    i ∈ ((cfg0.win 30).blk t).view.set ↔ ∀ a : Fin 2, win0_30.index t a * S128x128.size a ≤ (i a).val
      ∧ (i a).val < win0_30.index t a * S128x128.size a + S128x128.size a := by
  show i ∈ ((View.whole main_v36_1).slice (win0_30.rect t)).set ↔ _
  rw [View.set_slice_whole, Rect.mem_set_unit]
  exact Iff.rfl

/-- Row `n` of the array lies in the block of point `n / 128`: the 128 blocks cover the array. -/
theorem cover30 (i : S16384x128.Idx) :
    ∃ t : Fin cfg0.N, (cfg0.win 30).flush t = true ∧ i ∈ ((cfg0.win 30).blk t).view.set := by
  have hi0 : (i 0).val < 16384 := (i 0).isLt
  have hi1 : (i 1).val < 128 := (i 1).isLt
  have hN : cfg0.N = 128 := N_0
  have hlt : (i 0).val / 128 < cfg0.N := by omega
  obtain ⟨h0, h1⟩ := idx30 ⟨(i 0).val / 128, hlt⟩
  refine ⟨⟨(i 0).val / 128, hlt⟩, flush0_30 _, ?_⟩
  rw [mem_blk30]
  intro a
  match a with
  | ⟨0, _⟩ =>
    show win0_30.index ⟨(i 0).val / 128, hlt⟩ (0 : Fin 2) * 128 ≤ (i 0).val
      ∧ (i 0).val < win0_30.index ⟨(i 0).val / 128, hlt⟩ (0 : Fin 2) * 128 + 128
    rw [h0]
    show (i 0).val / 128 * 128 ≤ (i 0).val ∧ (i 0).val < (i 0).val / 128 * 128 + 128
    omega
  | ⟨1, _⟩ =>
    show win0_30.index ⟨(i 0).val / 128, hlt⟩ (1 : Fin 2) * 128 ≤ (i 1).val
      ∧ (i 1).val < win0_30.index ⟨(i 0).val / 128, hlt⟩ (1 : Fin 2) * 128 + 128
    rw [h1]; omega

/-- So after the run result 1's array is the new memory rows of all nodes. -/
theorem final30 (c : Dev nD) : (dats m 0 c).arrAt 30 cfg0.N = outC m c :=
  (dats m 0 c).arrAt_eq_of_cover 30 (outC m c) (fun t _ => flushed30_eq m c t) (cover30)

/-! ## The run -/

set_option maxHeartbeats 2000000 in
/-- Every weakly fair execution of the kernel's program terminates with the two result arrays at the cell's functions of
    the argument arrays, and the arguments as launched. -/
theorem run : θ_run defs (onTc (τ := τ) (main (F := Ideal))) ⟨m, fun _ => 0, ρ⟩ fun r => ∀ c : Dev nD,
      r.2.mem ((c : Thread nD τ).loc main_v36_0) = outH m c
      ∧ r.2.mem ((c : Thread nD τ).loc main_v36_1) = outC m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25) :=
  (θ_run defs _ _).mono (fun r h c => ⟨((h c).1 29).trans (final29 m c), ((h c).1 30).trans (final30 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c)⟩)
    (run_main m ρ)

end Cert.TreeLstm.Kernel

end
-- ==== Proof.RefSide.lean ====
/-
  The reference program's two results, read at an index, are the specification's memory row and hidden row.

  Each host operation's value at an index is read from its operands at an index; the chain is followed bottom-up, one
  stage of the cell at a time, at indices written by their coordinates (node n, child k, unit j):
    * the row joined from the source embedding, the destination embedding and the edge type reads each piece on its
      own span of places, so the one contraction over 259 places is the three sums over 128, 128 and 3 places;
      likewise the row joined from the weighted hidden row and the embedding row, 256 = 128 + 128;
    * a bias broadcast along the node and child axes reads the bias at the unit; a mask broadcast along the unit axis
      reads the mask at (n, k); a transposed weight read at (o, j) is the weight at (j, o);
    * a sum over the children that starts from the constant zero is the sum;
    * one over one plus the exponential of the negation is the logistic function;
    * the forget gate is a logistic value, so the factor inside the sum over the children may be taken outside.
-/
import proofs.«134373_j64622077935700_1_alg».proof.Proof.Gen.ReferenceIdeal.Read
import proofs.«134373_j64622077935700_1_alg».proof.Proof.SpecArr
import Idealize.ShloMosaic.Lib.Pipeline.Value
import Idealize.ShloMosaic.Lib.ValueIdx
import Idealize.ShloMosaic.PureOps.Ideal.Laws

noncomputable section

namespace Cert.TreeLstm.Ref

open Cert.ReferenceIdeal Cert.ReferenceIdeal.Gen Cert.ReferenceIdeal.Read Idealize.ShloMosaic Idealize.ShloMosaic.ValueIdx

variable (x0 x1 x2 x3 x4 : (⟨S16384x16x128, .f32⟩ : BufTy).Contents (Elt Ideal)) (x5 : (⟨S16384x16x3, .f32⟩ : BufTy).Contents (Elt Ideal))
  (x6 x7 : (⟨S16384x16, .f32⟩ : BufTy).Contents (Elt Ideal)) (x8 : (⟨S259x259, .f32⟩ : BufTy).Contents (Elt Ideal)) (x9 : (⟨S259, .f32⟩ : BufTy).Contents (Elt Ideal))
  (x10 : (⟨S128x259, .f32⟩ : BufTy).Contents (Elt Ideal)) (x11 : (⟨S128, .f32⟩ : BufTy).Contents (Elt Ideal)) (x12 : (⟨S256x256, .f32⟩ : BufTy).Contents (Elt Ideal))
  (x13 : (⟨S256, .f32⟩ : BufTy).Contents (Elt Ideal)) (x14 : (⟨S128x256, .f32⟩ : BufTy).Contents (Elt Ideal)) (x15 x16 : (⟨S128, .f32⟩ : BufTy).Contents (Elt Ideal))
  (x17 : (⟨S128x256, .f32⟩ : BufTy).Contents (Elt Ideal)) (x18 x19 : (⟨S128, .f32⟩ : BufTy).Contents (Elt Ideal)) (x20 : (⟨S128x256, .f32⟩ : BufTy).Contents (Elt Ideal))
  (x21 x22 : (⟨S128, .f32⟩ : BufTy).Contents (Elt Ideal)) (x23 : (⟨S128x256, .f32⟩ : BufTy).Contents (Elt Ideal)) (x24 x25 : (⟨S128, .f32⟩ : BufTy).Contents (Elt Ideal))

/-! ## The two concatenations read at an index -/

/-- The joined row's first 128 places are the source embedding. -/
theorem cat3_src (n : Fin 16384) (k : Fin 16) (e : Fin 128) :
    val_main_v0 (F := Ideal) x3 x4 x5 (ix3 n k (⟨e.val, by omega⟩ : Fin 259)) = x3 (ix3 n k e) := by
  unfold val_main_v0
  exact concatenate_apply_piece 2 [⟨S16384x16x128, x3⟩, ⟨S16384x16x128, x4⟩, ⟨S16384x16x3, x5⟩] concatenates_S16384x16x128_S16384x16x128_S16384x16x3_S16384x16x259_d2 _ 0 (by simp) S16384x16x128 x3 rfl rfl 0 rfl (ix3 n k e)
    (fun b hb => by
      match b with
      | ⟨0, _⟩ => rfl
      | ⟨1, _⟩ => rfl
      | ⟨2, _⟩ => exact absurd rfl hb)
    (Nat.zero_add _)

/-- Its next 128 places are the destination embedding. -/
theorem cat3_dst (n : Fin 16384) (k : Fin 16) (e : Fin 128) :
    val_main_v0 (F := Ideal) x3 x4 x5 (ix3 n k (⟨128 + e.val, by omega⟩ : Fin 259)) = x4 (ix3 n k e) := by
  unfold val_main_v0
  exact concatenate_apply_piece 2 [⟨S16384x16x128, x3⟩, ⟨S16384x16x128, x4⟩, ⟨S16384x16x3, x5⟩] concatenates_S16384x16x128_S16384x16x128_S16384x16x3_S16384x16x259_d2 _ 1 (by simp) S16384x16x128 x4 rfl rfl 128 rfl (ix3 n k e)
    (fun b hb => by
      match b with
      | ⟨0, _⟩ => rfl
      | ⟨1, _⟩ => rfl
      | ⟨2, _⟩ => exact absurd rfl hb)
    rfl

/-- Its last 3 places are the edge type. -/
theorem cat3_et (n : Fin 16384) (k : Fin 16) (e : Fin 3) :
    val_main_v0 (F := Ideal) x3 x4 x5 (ix3 n k (⟨256 + e.val, by omega⟩ : Fin 259)) = x5 (ix3 n k e) := by
  unfold val_main_v0
  exact concatenate_apply_piece 2 [⟨S16384x16x128, x3⟩, ⟨S16384x16x128, x4⟩, ⟨S16384x16x3, x5⟩] concatenates_S16384x16x128_S16384x16x128_S16384x16x3_S16384x16x259_d2 _ 2 (by simp) S16384x16x3 x5 rfl rfl 256 rfl (ix3 n k e)
    (fun b hb => by
      match b with
      | ⟨0, _⟩ => rfl
      | ⟨1, _⟩ => rfl
      | ⟨2, _⟩ => exact absurd rfl hb)
    rfl

/-! ## Index spellings: the generated index functions at an index built from coordinates -/

theorem lidx1_eq (n : Fin 16384) (k : Fin 16) (o e : Fin 259) : lidx_main_v1 (ix3 n k o) e = ix3 n k e :=
  funext fun a => Fin.ext (by match a with | ⟨0, _⟩ => rfl | ⟨1, _⟩ => rfl | ⟨2, _⟩ => rfl)
theorem ridx1_eq (n : Fin 16384) (k : Fin 16) (o e : Fin 259) : ridx_main_v1 (ix3 n k o) e = ix2 o e :=
  funext fun a => Fin.ext (by match a with | ⟨0, _⟩ => rfl | ⟨1, _⟩ => rfl)
theorem bias3_eq (n : Fin 16384) (k : Fin 16) (o : Fin 259) : idx_main_v2 (idx_main_v3 (ix3 n k o)) = ix1 o :=
  funext fun a => Fin.ext (by match a with | ⟨0, _⟩ => rfl)

/-! ## The edge function -/

/-- The rectified hidden layer of the edge function: the one sum over the joined row is the three sums over its pieces. -/
theorem edge_hid (n : Fin 16384) (k : Fin 16) (o : Fin 259) :
    val_main_v5 (F := Ideal) x3 x4 x5 x8 x9 (ix3 n k o) = edgeHid (refW x8 x9 x10 x11 x12 x13 x14 x15 x16 x17 x18 x19 x20 x21 x22 x23 x24 x25) (refX x0 x1 x2 x3 x4 x5 x6 x7 n) k o := by
  rw [val_main_v5_apply, val_main_v4_apply, val_main_v1_apply, val_main_v3_apply, val_main_v2_apply,
    val_main_call0_v0_apply, val_main_call0_cst_apply, bias3_eq]
  rw [Ideal.maximumf_def, Ideal.addf_def, Ideal.ofBits_def, Ideal.ofBits_zero_f32, sum_three]
  refine congrArg₂ max (congrArg₂ (· + ·) (congrArg₂ (· + ·) (congrArg₂ (· + ·) ?_ ?_) ?_) rfl) rfl
  · exact Finset.sum_congr rfl fun e _ => by rw [lidx1_eq, ridx1_eq, cat3_src]; rfl
  · exact Finset.sum_congr rfl fun e _ => by rw [lidx1_eq, ridx1_eq, cat3_dst]; rfl
  · exact Finset.sum_congr rfl fun e _ => by rw [lidx1_eq, ridx1_eq, cat3_et]; rfl

theorem lidx6_eq (n : Fin 16384) (k : Fin 16) (j : Fin 128) (o : Fin 259) : lidx_main_v6 (ix3 n k j) o = ix3 n k o :=
  funext fun a => Fin.ext (by match a with | ⟨0, _⟩ => rfl | ⟨1, _⟩ => rfl | ⟨2, _⟩ => rfl)
theorem ridx6_eq (n : Fin 16384) (k : Fin 16) (j : Fin 128) (o : Fin 259) : ridx_main_v6 (ix3 n k j) o = ix2 j o :=
  funext fun a => Fin.ext (by match a with | ⟨0, _⟩ => rfl | ⟨1, _⟩ => rfl)
theorem bias8_eq (n : Fin 16384) (k : Fin 16) (j : Fin 128) : idx_main_v7 (idx_main_v8 (ix3 n k j)) = ix1 j :=
  funext fun a => Fin.ext (by match a with | ⟨0, _⟩ => rfl)

/-- The edge function's output layer: the learned weight of a child's hidden row. -/
theorem edge_w (n : Fin 16384) (k : Fin 16) (j : Fin 128) :
    val_main_v9 (F := Ideal) x3 x4 x5 x8 x9 x10 x11 (ix3 n k j) = edgeW (refW x8 x9 x10 x11 x12 x13 x14 x15 x16 x17 x18 x19 x20 x21 x22 x23 x24 x25) (refX x0 x1 x2 x3 x4 x5 x6 x7 n) k j := by
  rw [val_main_v9_apply, val_main_v6_apply, val_main_v8_apply, val_main_v7_apply, bias8_eq, Ideal.addf_def]
  refine congrArg₂ (· + ·) (Finset.sum_congr rfl fun o _ => ?_) rfl
  rw [lidx6_eq, ridx6_eq, edge_hid x0 x1 x2 x3 x4 x5 x6 x7 x8 x9 x10 x11 x12 x13 x14 x15 x16 x17 x18 x19 x20 x21 x22 x23 x24 x25]; rfl

/-! ## The node layer -/

/-- The node layer's joined row: its first 128 places are the weighted hidden row. -/
theorem cat2_hw (n : Fin 16384) (k : Fin 16) (f : Fin 128) :
    val_main_v11 (F := Ideal) x0 x2 x3 x4 x5 x8 x9 x10 x11 (ix3 n k (⟨f.val, by omega⟩ : Fin 256))
      = val_main_v10 (F := Ideal) x0 x3 x4 x5 x8 x9 x10 x11 (ix3 n k f) := by
  unfold val_main_v11
  generalize val_main_v10 (F := Ideal) x0 x3 x4 x5 x8 x9 x10 x11 = y
  exact concatenate_apply_piece 2 [⟨S16384x16x128, y⟩, ⟨S16384x16x128, x2⟩] concatenates_S16384x16x128_S16384x16x128_S16384x16x256_d2 _ 0 (by simp) S16384x16x128 y rfl rfl 0 rfl (ix3 n k f)
    (fun b hb => by
      match b with
      | ⟨0, _⟩ => rfl
      | ⟨1, _⟩ => rfl
      | ⟨2, _⟩ => exact absurd rfl hb)
    (Nat.zero_add _)

/-- Its last 128 places are the embedding row. -/
theorem cat2_emb (n : Fin 16384) (k : Fin 16) (f : Fin 128) :
    val_main_v11 (F := Ideal) x0 x2 x3 x4 x5 x8 x9 x10 x11 (ix3 n k (⟨128 + f.val, by omega⟩ : Fin 256)) = x2 (ix3 n k f) := by
  unfold val_main_v11
  generalize val_main_v10 (F := Ideal) x0 x3 x4 x5 x8 x9 x10 x11 = y
  exact concatenate_apply_piece 2 [⟨S16384x16x128, y⟩, ⟨S16384x16x128, x2⟩] concatenates_S16384x16x128_S16384x16x128_S16384x16x256_d2 _ 1 (by simp) S16384x16x128 x2 rfl rfl 128 rfl (ix3 n k f)
    (fun b hb => by
      match b with
      | ⟨0, _⟩ => rfl
      | ⟨1, _⟩ => rfl
      | ⟨2, _⟩ => exact absurd rfl hb)
    rfl

theorem lidx12_eq (n : Fin 16384) (k : Fin 16) (o f : Fin 256) : lidx_main_v12 (ix3 n k o) f = ix3 n k f :=
  funext fun a => Fin.ext (by match a with | ⟨0, _⟩ => rfl | ⟨1, _⟩ => rfl | ⟨2, _⟩ => rfl)
theorem ridx12_eq (n : Fin 16384) (k : Fin 16) (o f : Fin 256) : ridx_main_v12 (ix3 n k o) f = ix2 o f :=
  funext fun a => Fin.ext (by match a with | ⟨0, _⟩ => rfl | ⟨1, _⟩ => rfl)
theorem bias14_eq (n : Fin 16384) (k : Fin 16) (o : Fin 256) : idx_main_v13 (idx_main_v14 (ix3 n k o)) = ix1 o :=
  funext fun a => Fin.ext (by match a with | ⟨0, _⟩ => rfl)

/-- A child's contribution before masking: the one sum over the joined row is the two sums over its pieces. -/
theorem node_pre (n : Fin 16384) (k : Fin 16) (o : Fin 256) :
    val_main_v15 (F := Ideal) x0 x2 x3 x4 x5 x8 x9 x10 x11 x12 x13 (ix3 n k o) = nodePre (refW x8 x9 x10 x11 x12 x13 x14 x15 x16 x17 x18 x19 x20 x21 x22 x23 x24 x25) (refX x0 x1 x2 x3 x4 x5 x6 x7 n) k o := by
  rw [val_main_v15_apply, val_main_v12_apply, val_main_v14_apply, val_main_v13_apply, bias14_eq, Ideal.addf_def, sum_two]
  refine congrArg₂ (· + ·) (congrArg₂ (· + ·) ?_ ?_) rfl
  · exact Finset.sum_congr rfl fun f _ => by
      rw [lidx12_eq, ridx12_eq, cat2_hw, val_main_v10_apply, Ideal.mulf_def, edge_w x0 x1 x2 x3 x4 x5 x6 x7 x8 x9 x10 x11 x12 x13 x14 x15 x16 x17 x18 x19 x20 x21 x22 x23 x24 x25]; rfl
  · exact Finset.sum_congr rfl fun f _ => by rw [lidx12_eq, ridx12_eq, cat2_emb]; rfl

theorem idx19_eq (n : Fin 16384) (o : Fin 256) (k : Fin 16) : idx_main_v19 (ix2 n o) k = ix3 n k o :=
  funext fun a => Fin.ext (by match a with | ⟨0, _⟩ => rfl | ⟨1, _⟩ => rfl | ⟨2, _⟩ => rfl)
theorem mask17_eq (n : Fin 16384) (k : Fin 16) (o : Fin 256) : idx_main_v16 (idx_main_v17 (ix3 n k o)) = ix2 n k :=
  funext fun a => Fin.ext (by match a with | ⟨0, _⟩ => rfl | ⟨1, _⟩ => rfl)

/-- The masked sum over the sixteen children; the sum's initial value is zero. -/
theorem h_sum (n : Fin 16384) (o : Fin 256) :
    val_main_v19 (F := Ideal) x0 x2 x3 x4 x5 x6 x8 x9 x10 x11 x12 x13 (ix2 n o) = hSum (refW x8 x9 x10 x11 x12 x13 x14 x15 x16 x17 x18 x19 x20 x21 x22 x23 x24 x25) (refX x0 x1 x2 x3 x4 x5 x6 x7 n) o := by
  rw [val_main_v19_apply, val_main_cst_apply, Ideal.ofBits_def, Ideal.ofBits_zero_f32, zero_add]
  refine Finset.sum_congr rfl fun k _ => ?_
  rw [idx19_eq, val_main_v18_apply, val_main_v17_apply, val_main_v16_apply, mask17_eq, Ideal.mulf_def, node_pre x0 x1 x2 x3 x4 x5 x6 x7 x8 x9 x10 x11 x12 x13 x14 x15 x16 x17 x18 x19 x20 x21 x22 x23 x24 x25]; rfl

/-! ## The four gates -/

theorem lidx21_eq (n : Fin 16384) (j : Fin 128) (o : Fin 256) : lidx_main_v21 (ix2 n j) o = ix2 n o :=
  funext fun a => Fin.ext (by match a with | ⟨0, _⟩ => rfl | ⟨1, _⟩ => rfl)
theorem ridx21_eq (n : Fin 16384) (j : Fin 128) (o : Fin 256) : idx_main_v20 (ridx_main_v21 (ix2 n j) o) = ix2 j o :=
  funext fun a => Fin.ext (by match a with | ⟨0, _⟩ => rfl | ⟨1, _⟩ => rfl)
theorem bias23_eq (n : Fin 16384) (j : Fin 128) : idx_main_v22 (idx_main_v23 (ix2 n j)) = ix1 j :=
  funext fun a => Fin.ext (by match a with | ⟨0, _⟩ => rfl)
theorem bias26_eq (n : Fin 16384) (j : Fin 128) : idx_main_v25 (idx_main_v26 (ix2 n j)) = ix1 j :=
  funext fun a => Fin.ext (by match a with | ⟨0, _⟩ => rfl)

/-- The forget gate's argument: the transposed weight read at (k, j) is the weight at (j, k). -/
theorem gate_f (n : Fin 16384) (j : Fin 128) :
    val_main_v27 (F := Ideal) x0 x2 x3 x4 x5 x6 x8 x9 x10 x11 x12 x13 x14 x15 x16 (ix2 n j) = gate (refW x8 x9 x10 x11 x12 x13 x14 x15 x16 x17 x18 x19 x20 x21 x22 x23 x24 x25) (refX x0 x1 x2 x3 x4 x5 x6 x7 n) (refW x8 x9 x10 x11 x12 x13 x14 x15 x16 x17 x18 x19 x20 x21 x22 x23 x24 x25).gf (refW x8 x9 x10 x11 x12 x13 x14 x15 x16 x17 x18 x19 x20 x21 x22 x23 x24 x25).f1 (refW x8 x9 x10 x11 x12 x13 x14 x15 x16 x17 x18 x19 x20 x21 x22 x23 x24 x25).f2 j := by
  rw [val_main_v27_apply, val_main_v24_apply, val_main_v21_apply, val_main_v23_apply, val_main_v22_apply,
    val_main_v26_apply, val_main_v25_apply, bias23_eq, bias26_eq]
  simp only [Ideal.addf_def]
  refine congrArg₂ (· + ·) (congrArg₂ (· + ·) (Finset.sum_congr rfl fun o _ => ?_) rfl) rfl
  rw [lidx21_eq, val_main_v20_apply, ridx21_eq, h_sum x0 x1 x2 x3 x4 x5 x6 x7 x8 x9 x10 x11 x12 x13 x14 x15 x16 x17 x18 x19 x20 x21 x22 x23 x24 x25]; rfl

theorem lidx42_eq (n : Fin 16384) (j : Fin 128) (o : Fin 256) : lidx_main_v42 (ix2 n j) o = ix2 n o :=
  funext fun a => Fin.ext (by match a with | ⟨0, _⟩ => rfl | ⟨1, _⟩ => rfl)
theorem ridx42_eq (n : Fin 16384) (j : Fin 128) (o : Fin 256) : idx_main_v41 (ridx_main_v42 (ix2 n j) o) = ix2 j o :=
  funext fun a => Fin.ext (by match a with | ⟨0, _⟩ => rfl | ⟨1, _⟩ => rfl)
theorem bias44_eq (n : Fin 16384) (j : Fin 128) : idx_main_v43 (idx_main_v44 (ix2 n j)) = ix1 j :=
  funext fun a => Fin.ext (by match a with | ⟨0, _⟩ => rfl)
theorem bias47_eq (n : Fin 16384) (j : Fin 128) : idx_main_v46 (idx_main_v47 (ix2 n j)) = ix1 j :=
  funext fun a => Fin.ext (by match a with | ⟨0, _⟩ => rfl)

/-- The input gate's argument: the transposed weight read at (k, j) is the weight at (j, k). -/
theorem gate_i (n : Fin 16384) (j : Fin 128) :
    val_main_v48 (F := Ideal) x0 x2 x3 x4 x5 x6 x8 x9 x10 x11 x12 x13 x17 x18 x19 (ix2 n j) = gate (refW x8 x9 x10 x11 x12 x13 x14 x15 x16 x17 x18 x19 x20 x21 x22 x23 x24 x25) (refX x0 x1 x2 x3 x4 x5 x6 x7 n) (refW x8 x9 x10 x11 x12 x13 x14 x15 x16 x17 x18 x19 x20 x21 x22 x23 x24 x25).gi (refW x8 x9 x10 x11 x12 x13 x14 x15 x16 x17 x18 x19 x20 x21 x22 x23 x24 x25).i1 (refW x8 x9 x10 x11 x12 x13 x14 x15 x16 x17 x18 x19 x20 x21 x22 x23 x24 x25).i2 j := by
  rw [val_main_v48_apply, val_main_v45_apply, val_main_v42_apply, val_main_v44_apply, val_main_v43_apply,
    val_main_v47_apply, val_main_v46_apply, bias44_eq, bias47_eq]
  simp only [Ideal.addf_def]
  refine congrArg₂ (· + ·) (congrArg₂ (· + ·) (Finset.sum_congr rfl fun o _ => ?_) rfl) rfl
  rw [lidx42_eq, val_main_v41_apply, ridx42_eq, h_sum x0 x1 x2 x3 x4 x5 x6 x7 x8 x9 x10 x11 x12 x13 x14 x15 x16 x17 x18 x19 x20 x21 x22 x23 x24 x25]; rfl

theorem lidx56_eq (n : Fin 16384) (j : Fin 128) (o : Fin 256) : lidx_main_v56 (ix2 n j) o = ix2 n o :=
  funext fun a => Fin.ext (by match a with | ⟨0, _⟩ => rfl | ⟨1, _⟩ => rfl)
theorem ridx56_eq (n : Fin 16384) (j : Fin 128) (o : Fin 256) : idx_main_v55 (ridx_main_v56 (ix2 n j) o) = ix2 j o :=
  funext fun a => Fin.ext (by match a with | ⟨0, _⟩ => rfl | ⟨1, _⟩ => rfl)
theorem bias58_eq (n : Fin 16384) (j : Fin 128) : idx_main_v57 (idx_main_v58 (ix2 n j)) = ix1 j :=
  funext fun a => Fin.ext (by match a with | ⟨0, _⟩ => rfl)
theorem bias61_eq (n : Fin 16384) (j : Fin 128) : idx_main_v60 (idx_main_v61 (ix2 n j)) = ix1 j :=
  funext fun a => Fin.ext (by match a with | ⟨0, _⟩ => rfl)

/-- The update gate's argument: the transposed weight read at (k, j) is the weight at (j, k). -/
theorem gate_u (n : Fin 16384) (j : Fin 128) :
    val_main_v62 (F := Ideal) x0 x2 x3 x4 x5 x6 x8 x9 x10 x11 x12 x13 x20 x21 x22 (ix2 n j) = gate (refW x8 x9 x10 x11 x12 x13 x14 x15 x16 x17 x18 x19 x20 x21 x22 x23 x24 x25) (refX x0 x1 x2 x3 x4 x5 x6 x7 n) (refW x8 x9 x10 x11 x12 x13 x14 x15 x16 x17 x18 x19 x20 x21 x22 x23 x24 x25).gu (refW x8 x9 x10 x11 x12 x13 x14 x15 x16 x17 x18 x19 x20 x21 x22 x23 x24 x25).u1 (refW x8 x9 x10 x11 x12 x13 x14 x15 x16 x17 x18 x19 x20 x21 x22 x23 x24 x25).u2 j := by
  rw [val_main_v62_apply, val_main_v59_apply, val_main_v56_apply, val_main_v58_apply, val_main_v57_apply,
    val_main_v61_apply, val_main_v60_apply, bias58_eq, bias61_eq]
  simp only [Ideal.addf_def]
  refine congrArg₂ (· + ·) (congrArg₂ (· + ·) (Finset.sum_congr rfl fun o _ => ?_) rfl) rfl
  rw [lidx56_eq, val_main_v55_apply, ridx56_eq, h_sum x0 x1 x2 x3 x4 x5 x6 x7 x8 x9 x10 x11 x12 x13 x14 x15 x16 x17 x18 x19 x20 x21 x22 x23 x24 x25]; rfl

theorem lidx67_eq (n : Fin 16384) (j : Fin 128) (o : Fin 256) : lidx_main_v67 (ix2 n j) o = ix2 n o :=
  funext fun a => Fin.ext (by match a with | ⟨0, _⟩ => rfl | ⟨1, _⟩ => rfl)
theorem ridx67_eq (n : Fin 16384) (j : Fin 128) (o : Fin 256) : idx_main_v66 (ridx_main_v67 (ix2 n j) o) = ix2 j o :=
  funext fun a => Fin.ext (by match a with | ⟨0, _⟩ => rfl | ⟨1, _⟩ => rfl)
theorem bias69_eq (n : Fin 16384) (j : Fin 128) : idx_main_v68 (idx_main_v69 (ix2 n j)) = ix1 j :=
  funext fun a => Fin.ext (by match a with | ⟨0, _⟩ => rfl)
theorem bias72_eq (n : Fin 16384) (j : Fin 128) : idx_main_v71 (idx_main_v72 (ix2 n j)) = ix1 j :=
  funext fun a => Fin.ext (by match a with | ⟨0, _⟩ => rfl)

/-- The output gate's argument: the transposed weight read at (k, j) is the weight at (j, k). -/
theorem gate_o (n : Fin 16384) (j : Fin 128) :
    val_main_v73 (F := Ideal) x0 x2 x3 x4 x5 x6 x8 x9 x10 x11 x12 x13 x23 x24 x25 (ix2 n j) = gate (refW x8 x9 x10 x11 x12 x13 x14 x15 x16 x17 x18 x19 x20 x21 x22 x23 x24 x25) (refX x0 x1 x2 x3 x4 x5 x6 x7 n) (refW x8 x9 x10 x11 x12 x13 x14 x15 x16 x17 x18 x19 x20 x21 x22 x23 x24 x25).go (refW x8 x9 x10 x11 x12 x13 x14 x15 x16 x17 x18 x19 x20 x21 x22 x23 x24 x25).o1 (refW x8 x9 x10 x11 x12 x13 x14 x15 x16 x17 x18 x19 x20 x21 x22 x23 x24 x25).o2 j := by
  rw [val_main_v73_apply, val_main_v70_apply, val_main_v67_apply, val_main_v69_apply, val_main_v68_apply,
    val_main_v72_apply, val_main_v71_apply, bias69_eq, bias72_eq]
  simp only [Ideal.addf_def]
  refine congrArg₂ (· + ·) (congrArg₂ (· + ·) (Finset.sum_congr rfl fun o _ => ?_) rfl) rfl
  rw [lidx67_eq, val_main_v66_apply, ridx67_eq, h_sum x0 x1 x2 x3 x4 x5 x6 x7 x8 x9 x10 x11 x12 x13 x14 x15 x16 x17 x18 x19 x20 x21 x22 x23 x24 x25]; rfl

/-! ## The logistic function, spelt as one over one plus the exponential of the negation -/

theorem sig_f (n : Fin 16384) (j : Fin 128) :
    val_main_v33 (F := Ideal) x0 x2 x3 x4 x5 x6 x8 x9 x10 x11 x12 x13 x14 x15 x16 (ix2 n j) = Ideal.logistic (gate (refW x8 x9 x10 x11 x12 x13 x14 x15 x16 x17 x18 x19 x20 x21 x22 x23 x24 x25) (refX x0 x1 x2 x3 x4 x5 x6 x7 n) (refW x8 x9 x10 x11 x12 x13 x14 x15 x16 x17 x18 x19 x20 x21 x22 x23 x24 x25).gf (refW x8 x9 x10 x11 x12 x13 x14 x15 x16 x17 x18 x19 x20 x21 x22 x23 x24 x25).f1 (refW x8 x9 x10 x11 x12 x13 x14 x15 x16 x17 x18 x19 x20 x21 x22 x23 x24 x25).f2 j) := by
  rw [val_main_v33_apply, val_main_v32_apply, val_main_cst_1_apply, val_main_v31_apply, val_main_v30_apply,
    val_main_cst_0_apply, val_main_v29_apply, val_main_v28_apply, gate_f x0 x1 x2 x3 x4 x5 x6 x7 x8 x9 x10 x11 x12 x13 x14 x15 x16 x17 x18 x19 x20 x21 x22 x23 x24 x25]
  simp only [Ideal.hostDivf_def, Ideal.addf_def, Ideal.ofBits_def, ofBits_one_f32, Ideal.hostUnary_exp_def,
    Ideal.hostNegf_def, Ideal.negf_def]
  exact logistic_spelt _

theorem sig_i (n : Fin 16384) (j : Fin 128) :
    val_main_v54 (F := Ideal) x0 x2 x3 x4 x5 x6 x8 x9 x10 x11 x12 x13 x17 x18 x19 (ix2 n j) = Ideal.logistic (gate (refW x8 x9 x10 x11 x12 x13 x14 x15 x16 x17 x18 x19 x20 x21 x22 x23 x24 x25) (refX x0 x1 x2 x3 x4 x5 x6 x7 n) (refW x8 x9 x10 x11 x12 x13 x14 x15 x16 x17 x18 x19 x20 x21 x22 x23 x24 x25).gi (refW x8 x9 x10 x11 x12 x13 x14 x15 x16 x17 x18 x19 x20 x21 x22 x23 x24 x25).i1 (refW x8 x9 x10 x11 x12 x13 x14 x15 x16 x17 x18 x19 x20 x21 x22 x23 x24 x25).i2 j) := by
  rw [val_main_v54_apply, val_main_v53_apply, val_main_cst_4_apply, val_main_v52_apply, val_main_v51_apply,
    val_main_cst_3_apply, val_main_v50_apply, val_main_v49_apply, gate_i x0 x1 x2 x3 x4 x5 x6 x7 x8 x9 x10 x11 x12 x13 x14 x15 x16 x17 x18 x19 x20 x21 x22 x23 x24 x25]
  simp only [Ideal.hostDivf_def, Ideal.addf_def, Ideal.ofBits_def, ofBits_one_f32, Ideal.hostUnary_exp_def,
    Ideal.hostNegf_def, Ideal.negf_def]
  exact logistic_spelt _

theorem sig_o (n : Fin 16384) (j : Fin 128) :
    val_main_v79 (F := Ideal) x0 x2 x3 x4 x5 x6 x8 x9 x10 x11 x12 x13 x23 x24 x25 (ix2 n j) = Ideal.logistic (gate (refW x8 x9 x10 x11 x12 x13 x14 x15 x16 x17 x18 x19 x20 x21 x22 x23 x24 x25) (refX x0 x1 x2 x3 x4 x5 x6 x7 n) (refW x8 x9 x10 x11 x12 x13 x14 x15 x16 x17 x18 x19 x20 x21 x22 x23 x24 x25).go (refW x8 x9 x10 x11 x12 x13 x14 x15 x16 x17 x18 x19 x20 x21 x22 x23 x24 x25).o1 (refW x8 x9 x10 x11 x12 x13 x14 x15 x16 x17 x18 x19 x20 x21 x22 x23 x24 x25).o2 j) := by
  rw [val_main_v79_apply, val_main_v78_apply, val_main_cst_6_apply, val_main_v77_apply, val_main_v76_apply,
    val_main_cst_5_apply, val_main_v75_apply, val_main_v74_apply, gate_o x0 x1 x2 x3 x4 x5 x6 x7 x8 x9 x10 x11 x12 x13 x14 x15 x16 x17 x18 x19 x20 x21 x22 x23 x24 x25]
  simp only [Ideal.hostDivf_def, Ideal.addf_def, Ideal.ofBits_def, ofBits_one_f32, Ideal.hostUnary_exp_def,
    Ideal.hostNegf_def, Ideal.negf_def]
  exact logistic_spelt _

/-! ## The memory row and the hidden row -/

theorem idx40_eq (n : Fin 16384) (j : Fin 128) (k : Fin 16) : idx_main_v40 (ix2 n j) k = ix3 n k j :=
  funext fun a => Fin.ext (by match a with | ⟨0, _⟩ => rfl | ⟨1, _⟩ => rfl | ⟨2, _⟩ => rfl)
theorem gate38_eq (n : Fin 16384) (k : Fin 16) (j : Fin 128) : idx_main_v34 (idx_main_v38 (ix3 n k j)) = ix2 n j :=
  funext fun a => Fin.ext (by match a with | ⟨0, _⟩ => rfl | ⟨1, _⟩ => rfl)
theorem mask36_eq (n : Fin 16384) (k : Fin 16) (j : Fin 128) : idx_main_v35 (idx_main_v36 (ix3 n k j)) = ix2 n k :=
  funext fun a => Fin.ext (by match a with | ⟨0, _⟩ => rfl | ⟨1, _⟩ => rfl)

/-- The forget gate, a logistic value, multiplies each child's masked memory inside the sum; it may be taken outside. -/
theorem c_tilde (n : Fin 16384) (j : Fin 128) :
    val_main_v40 (F := Ideal) x0 x1 x2 x3 x4 x5 x6 x7 x8 x9 x10 x11 x12 x13 x14 x15 x16 (ix2 n j)
      = Ideal.logistic (gate (refW x8 x9 x10 x11 x12 x13 x14 x15 x16 x17 x18 x19 x20 x21 x22 x23 x24 x25) (refX x0 x1 x2 x3 x4 x5 x6 x7 n) (refW x8 x9 x10 x11 x12 x13 x14 x15 x16 x17 x18 x19 x20 x21 x22 x23 x24 x25).gf (refW x8 x9 x10 x11 x12 x13 x14 x15 x16 x17 x18 x19 x20 x21 x22 x23 x24 x25).f1 (refW x8 x9 x10 x11 x12 x13 x14 x15 x16 x17 x18 x19 x20 x21 x22 x23 x24 x25).f2 j) * cSum (refX x0 x1 x2 x3 x4 x5 x6 x7 n) j := by
  rw [val_main_v40_apply, val_main_cst_2_apply, Ideal.ofBits_def, Ideal.ofBits_zero_f32, zero_add]
  unfold cSum
  rw [logistic_mul_sum]
  refine Finset.sum_congr rfl fun k _ => ?_
  rw [idx40_eq, val_main_v39_apply, val_main_v38_apply, val_main_v34_apply, gate38_eq, val_main_v37_apply,
    val_main_v36_apply, val_main_v35_apply, mask36_eq, sig_f x0 x1 x2 x3 x4 x5 x6 x7 x8 x9 x10 x11 x12 x13 x14 x15 x16 x17 x18 x19 x20 x21 x22 x23 x24 x25]
  rfl

/-- The reference's first result, read at (n, j), is the specification's memory row. -/
theorem ref_mem (n : Fin 16384) (j : Fin 128) :
    val_main_v65 (F := Ideal) x0 x1 x2 x3 x4 x5 x6 x7 x8 x9 x10 x11 x12 x13 x14 x15 x16 x17 x18 x19 x20 x21 x22 (ix2 n j) = nodeC (refW x8 x9 x10 x11 x12 x13 x14 x15 x16 x17 x18 x19 x20 x21 x22 x23 x24 x25) (refX x0 x1 x2 x3 x4 x5 x6 x7 n) j := by
  rw [val_main_v65_apply, val_main_v64_apply, val_main_v63_apply, sig_i x0 x1 x2 x3 x4 x5 x6 x7 x8 x9 x10 x11 x12 x13 x14 x15 x16 x17 x18 x19 x20 x21 x22 x23 x24 x25, gate_u x0 x1 x2 x3 x4 x5 x6 x7 x8 x9 x10 x11 x12 x13 x14 x15 x16 x17 x18 x19 x20 x21 x22 x23 x24 x25, c_tilde x0 x1 x2 x3 x4 x5 x6 x7 x8 x9 x10 x11 x12 x13 x14 x15 x16 x17 x18 x19 x20 x21 x22 x23 x24 x25]
  rfl

/-- The reference's second result, read at (n, j), is the specification's hidden row. -/
theorem ref_hid (n : Fin 16384) (j : Fin 128) :
    val_main_v81 (F := Ideal) x0 x1 x2 x3 x4 x5 x6 x7 x8 x9 x10 x11 x12 x13 x14 x15 x16 x17 x18 x19 x20 x21 x22 x23 x24 x25 (ix2 n j) = nodeH (refW x8 x9 x10 x11 x12 x13 x14 x15 x16 x17 x18 x19 x20 x21 x22 x23 x24 x25) (refX x0 x1 x2 x3 x4 x5 x6 x7 n) j := by
  rw [val_main_v81_apply, val_main_v80_apply, sig_o x0 x1 x2 x3 x4 x5 x6 x7 x8 x9 x10 x11 x12 x13 x14 x15 x16 x17 x18 x19 x20 x21 x22 x23 x24 x25, ref_mem x0 x1 x2 x3 x4 x5 x6 x7 x8 x9 x10 x11 x12 x13 x14 x15 x16 x17 x18 x19 x20 x21 x22 x23 x24 x25]
  rfl

end Cert.TreeLstm.Ref

end
-- ==== Proof.RefRun.lean ====
/-
  The reference's two results as whole arrays: each is the cell's function of the 26 argument arrays, since it is so
  entry by entry (every index of a `[16384, 128]` array is `(n, j)` for a node `n` and a unit `j`).
-/
import proofs.«134373_j64622077935700_1_alg».proof.Proof.RefSide
import proofs.«134373_j64622077935700_1_alg».proof.Proof.SpecOut

noncomputable section

namespace Cert.TreeLstm.Ref

open Cert.ReferenceIdeal Cert.ReferenceIdeal.Gen Cert.ReferenceIdeal.Read Idealize.ShloMosaic Idealize.ShloMosaic.ValueIdx

/-- The reference's first result is the array of new hidden rows. -/
theorem ref_arrH (x0 x1 x2 x3 x4 : (⟨S16384x16x128, .f32⟩ : BufTy).Contents (Elt Ideal)) (x5 : (⟨S16384x16x3, .f32⟩ : BufTy).Contents (Elt Ideal))
    (x6 x7 : (⟨S16384x16, .f32⟩ : BufTy).Contents (Elt Ideal)) (x8 : (⟨S259x259, .f32⟩ : BufTy).Contents (Elt Ideal))
    (x9 : (⟨S259, .f32⟩ : BufTy).Contents (Elt Ideal)) (x10 : (⟨S128x259, .f32⟩ : BufTy).Contents (Elt Ideal))
    (x11 : (⟨S128, .f32⟩ : BufTy).Contents (Elt Ideal)) (x12 : (⟨S256x256, .f32⟩ : BufTy).Contents (Elt Ideal))
    (x13 : (⟨S256, .f32⟩ : BufTy).Contents (Elt Ideal)) (x14 : (⟨S128x256, .f32⟩ : BufTy).Contents (Elt Ideal))
    (x15 x16 : (⟨S128, .f32⟩ : BufTy).Contents (Elt Ideal)) (x17 : (⟨S128x256, .f32⟩ : BufTy).Contents (Elt Ideal))
    (x18 x19 : (⟨S128, .f32⟩ : BufTy).Contents (Elt Ideal)) (x20 : (⟨S128x256, .f32⟩ : BufTy).Contents (Elt Ideal))
    (x21 x22 : (⟨S128, .f32⟩ : BufTy).Contents (Elt Ideal)) (x23 : (⟨S128x256, .f32⟩ : BufTy).Contents (Elt Ideal))
    (x24 x25 : (⟨S128, .f32⟩ : BufTy).Contents (Elt Ideal)) :
    val_main_v81 (F := Ideal) x0 x1 x2 x3 x4 x5 x6 x7 x8 x9 x10 x11 x12 x13 x14 x15 x16 x17 x18 x19 x20 x21 x22 x23 x24 x25
      = arrH x0 x1 x2 x3 x4 x5 x6 x7 x8 x9 x10 x11 x12 x13 x14 x15 x16 x17 x18 x19 x20 x21 x22 x23 x24 x25 := by
  funext i
  obtain ⟨n, j, rfl⟩ : ∃ (n : Fin 16384) (j : Fin 128), i = ix2 n j := ⟨i 0, i 1, eq_ix2 i⟩
  exact ref_hid x0 x1 x2 x3 x4 x5 x6 x7 x8 x9 x10 x11 x12 x13 x14 x15 x16 x17 x18 x19 x20 x21 x22 x23 x24 x25 n j

/-- The reference's second result is the array of new memory rows. -/
theorem ref_arrC (x0 x1 x2 x3 x4 : (⟨S16384x16x128, .f32⟩ : BufTy).Contents (Elt Ideal)) (x5 : (⟨S16384x16x3, .f32⟩ : BufTy).Contents (Elt Ideal))
    (x6 x7 : (⟨S16384x16, .f32⟩ : BufTy).Contents (Elt Ideal)) (x8 : (⟨S259x259, .f32⟩ : BufTy).Contents (Elt Ideal))
    (x9 : (⟨S259, .f32⟩ : BufTy).Contents (Elt Ideal)) (x10 : (⟨S128x259, .f32⟩ : BufTy).Contents (Elt Ideal))
    (x11 : (⟨S128, .f32⟩ : BufTy).Contents (Elt Ideal)) (x12 : (⟨S256x256, .f32⟩ : BufTy).Contents (Elt Ideal))
    (x13 : (⟨S256, .f32⟩ : BufTy).Contents (Elt Ideal)) (x14 : (⟨S128x256, .f32⟩ : BufTy).Contents (Elt Ideal))
    (x15 x16 : (⟨S128, .f32⟩ : BufTy).Contents (Elt Ideal)) (x17 : (⟨S128x256, .f32⟩ : BufTy).Contents (Elt Ideal))
    (x18 x19 : (⟨S128, .f32⟩ : BufTy).Contents (Elt Ideal)) (x20 : (⟨S128x256, .f32⟩ : BufTy).Contents (Elt Ideal))
    (x21 x22 : (⟨S128, .f32⟩ : BufTy).Contents (Elt Ideal)) (x23 : (⟨S128x256, .f32⟩ : BufTy).Contents (Elt Ideal))
    (x24 x25 : (⟨S128, .f32⟩ : BufTy).Contents (Elt Ideal)) :
    val_main_v65 (F := Ideal) x0 x1 x2 x3 x4 x5 x6 x7 x8 x9 x10 x11 x12 x13 x14 x15 x16 x17 x18 x19 x20 x21 x22
      = arrC x0 x1 x2 x3 x4 x5 x6 x7 x8 x9 x10 x11 x12 x13 x14 x15 x16 x17 x18 x19 x20 x21 x22 x23 x24 x25 := by
  funext i
  obtain ⟨n, j, rfl⟩ : ∃ (n : Fin 16384) (j : Fin 128), i = ix2 n j := ⟨i 0, i 1, eq_ix2 i⟩
  exact ref_mem x0 x1 x2 x3 x4 x5 x6 x7 x8 x9 x10 x11 x12 x13 x14 x15 x16 x17 x18 x19 x20 x21 x22 x23 x24 x25 n j

end Cert.TreeLstm.Ref

end
-- ==== Proof.lean ====
/-
  The certificate of a fused child-sum tree LSTM cell (edge-weighted children) against its jnp reference.

  Both programs compute, for each of 16384 nodes with 16 children: an edge function (two dense layers with a rectifier
  between) on the children's endpoint embeddings and edge types, which weights each child's hidden row; a node layer on
  (weighted hidden row, embedding row), masked and summed over the children; four gates of that sum; the new memory
  row  σ(i)·tanh(u) + σ(f)·Σ_k c_k·mask_k  and the new hidden row  σ(o)·tanh(new memory).
  They differ in three ways, none of which changes a value at the extended reals:
    * the kernel multiplies each piece of a concatenated row (source, destination, edge type; weighted hidden, embedding)
      by its own block of columns of the weight matrix and adds the products, the reference multiplies the
      concatenation by the whole matrix — a sum over a concatenated axis is the sum of the pieces' sums;
    * the kernel takes the forget gate outside the sum over the children, the reference inside — the gate is a logistic
      value, a real in [0, 1], and such a factor distributes over a sum even of infinite terms of both signs, so no
      finiteness of the inputs is used;
    * the kernel applies the logistic function as one operation, the reference spells it 1 / (1 + e^(-x)) — one function.
  The kernel handles 128 nodes per grid point with its matrices transposed and its float formats narrowed before the
  products (the identity here); Proof/Body*.lean read its body entry by entry, Proof/Kernel*.lean put the points' blocks
  together into whole arrays, Proof/RefSide.lean reads the reference's operations, and Proof/Spec*.lean hold the
  function both are. The two kernel programs' frames are their generated frame certificates
  (Proof/FrameKernelP.lean, Proof/FrameKernelIdealP.lean); the reference's frame is its generated run.
-/
import proofs.«134373_j64622077935700_1_alg».proof.Defs
import proofs.«134373_j64622077935700_1_alg».proof.Proof.Gen.Kernel
import proofs.«134373_j64622077935700_1_alg».proof.Proof.Gen.Kernel.Skeleton
import proofs.«134373_j64622077935700_1_alg».proof.Proof.Gen.Kernel.Launch
import proofs.«134373_j64622077935700_1_alg».proof.Proof.Gen.Kernel.Points
import proofs.«134373_j64622077935700_1_alg».proof.Proof.FrameKernelP
import proofs.«134373_j64622077935700_1_alg».proof.Proof.Gen.KernelIdeal
import proofs.«134373_j64622077935700_1_alg».proof.Proof.Gen.KernelIdeal.Skeleton
import proofs.«134373_j64622077935700_1_alg».proof.Proof.Gen.KernelIdeal.Launch
import proofs.«134373_j64622077935700_1_alg».proof.Proof.Gen.KernelIdeal.Points
import proofs.«134373_j64622077935700_1_alg».proof.Proof.FrameKernelIdealP
import proofs.«134373_j64622077935700_1_alg».proof.Proof.Gen.ReferenceIdeal
import proofs.«134373_j64622077935700_1_alg».proof.Proof.Gen.Pre_finite_inputs
import proofs.«134373_j64622077935700_1_alg».proof.Proof.Gen.ReferenceIdeal.Run
import proofs.«134373_j64622077935700_1_alg».proof.Proof.Gen.ReferenceIdeal.Read
import proofs.«134373_j64622077935700_1_alg».proof.Proof.KernelRun
import proofs.«134373_j64622077935700_1_alg».proof.Proof.RefRun
import Idealize.ShloMosaic.Adequacy
import Idealize.ShloMosaic.Init

noncomputable section

namespace Cert.Proof

open Idealize.ShloMosaic Idealize.ShloMosaic.TcCoe Idealize.SL.Sem Cert.TreeLstm

/-- The word-level kernel runs and leaves its arguments as launched. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- The reference runs and leaves its arguments as launched: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

set_option maxHeartbeats 4000000 in
/-- From arguments that agree, the kernel's two result arrays and the reference's are the same two functions of them. -/
theorem algebraic : Cert.algebraic_KernelIdeal_ReferenceIdeal := by
  intro m ρ m' ρ' _ hagree
  refine ⟨fun c => Cert.TreeLstm.Kernel.outH m c,
    fun c => Cert.TreeLstm.Kernel.outC m c,
    Cert.TreeLstm.Kernel.run m ρ, ?_⟩
  refine (θ_run Cert.ReferenceIdeal.defs _ _).mono (fun _ h c => ?_) (Cert.ReferenceIdeal.Value.run (F := Ideal) m' ρ')
  obtain ⟨e0, e1, e2, e3, e4, e5, e6, e7, e8, e9, e10, e11, e12, e13, e14, e15, e16, e17, e18, e19, e20, e21, e22, e23, e24, e25⟩ := hagree c
  refine ⟨(h c).1.trans ?_, (h c).2.1.trans ?_, (h c).2.2⟩
  · rw [Cert.ReferenceIdeal.Read.val_main_v81_eq, Cert.TreeLstm.Ref.ref_arrH, e0, e1, e2, e3, e4, e5, e6, e7, e8, e9, e10, e11, e12, e13, e14, e15, e16, e17, e18, e19, e20, e21, e22, e23, e24, e25]
  · rw [Cert.ReferenceIdeal.Read.val_main_v65_eq, Cert.TreeLstm.Ref.ref_arrC (x23 := (m' ((c.tc : Thread Cert.ReferenceIdeal.nD Cert.ReferenceIdeal.τ).loc Cert.ReferenceIdeal.main_arg23)))
      (x24 := (m' ((c.tc : Thread Cert.ReferenceIdeal.nD Cert.ReferenceIdeal.τ).loc Cert.ReferenceIdeal.main_arg24)))
      (x25 := (m' ((c.tc : Thread Cert.ReferenceIdeal.nD Cert.ReferenceIdeal.τ).loc Cert.ReferenceIdeal.main_arg25))), e0, e1, e2, e3, e4, e5, e6, e7, e8, e9, e10, e11, e12, e13, e14, e15, e16, e17, e18, e19, e20, e21, e22, e23, e24, e25]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
